-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37)) (m ((c.tc : Thread Cert.Kernel.nD Cert.Kernel.τ).loc Cert.Kernel.main_arg38)) (m ((c.tc : Thread Cert.Kernel.nD Cert.Kernel.τ).loc Cert.Kernel.main_arg39)) (m ((c.tc : Thread Cert.Kernel.nD Cert.Kernel.τ).loc Cert.Kernel.main_arg40)) (m ((c.tc : Thread Cert.Kernel.nD Cert.Kernel.τ).loc Cert.Kernel.main_arg41)) (m ((c.tc : Thread Cert.Kernel.nD Cert.Kernel.τ).loc Cert.Kernel.main_arg42)) (m ((c.tc : Thread Cert.Kernel.nD Cert.Kernel.τ).loc Cert.Kernel.main_arg43)) (m ((c.tc : Thread Cert.Kernel.nD Cert.Kernel.τ).loc Cert.Kernel.main_arg44)) (m ((c.tc : Thread Cert.Kernel.nD Cert.Kernel.τ).loc Cert.Kernel.main_arg45)) (m ((c.tc : Thread Cert.Kernel.nD Cert.Kernel.τ).loc Cert.Kernel.main_arg46)) (m ((c.tc : Thread Cert.Kernel.nD Cert.Kernel.τ).loc Cert.Kernel.main_arg47)) (m ((c.tc : Thread Cert.Kernel.nD Cert.Kernel.τ).loc Cert.Kernel.main_arg48)) (m ((c.tc : Thread Cert.Kernel.nD Cert.Kernel.τ).loc Cert.Kernel.main_arg49)) (m ((c.tc : Thread Cert.Kernel.nD Cert.Kernel.τ).loc Cert.Kernel.main_arg50)) (m ((c.tc : Thread Cert.Kernel.nD Cert.Kernel.τ).loc Cert.Kernel.main_arg51)) (m ((c.tc : Thread Cert.Kernel.nD Cert.Kernel.τ).loc Cert.Kernel.main_arg52)) (m ((c.tc : Thread Cert.Kernel.nD Cert.Kernel.τ).loc Cert.Kernel.main_arg53))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38)) (m ((c.tc : Thread Cert.KernelIdeal.nD Cert.KernelIdeal.τ).loc Cert.KernelIdeal.main_arg39)) (m ((c.tc : Thread Cert.KernelIdeal.nD Cert.KernelIdeal.τ).loc Cert.KernelIdeal.main_arg40)) (m ((c.tc : Thread Cert.KernelIdeal.nD Cert.KernelIdeal.τ).loc Cert.KernelIdeal.main_arg41)) (m ((c.tc : Thread Cert.KernelIdeal.nD Cert.KernelIdeal.τ).loc Cert.KernelIdeal.main_arg42)) (m ((c.tc : Thread Cert.KernelIdeal.nD Cert.KernelIdeal.τ).loc Cert.KernelIdeal.main_arg43)) (m ((c.tc : Thread Cert.KernelIdeal.nD Cert.KernelIdeal.τ).loc Cert.KernelIdeal.main_arg44)) (m ((c.tc : Thread Cert.KernelIdeal.nD Cert.KernelIdeal.τ).loc Cert.KernelIdeal.main_arg45)) (m ((c.tc : Thread Cert.KernelIdeal.nD Cert.KernelIdeal.τ).loc Cert.KernelIdeal.main_arg46)) (m ((c.tc : Thread Cert.KernelIdeal.nD Cert.KernelIdeal.τ).loc Cert.KernelIdeal.main_arg47)) (m ((c.tc : Thread Cert.KernelIdeal.nD Cert.KernelIdeal.τ).loc Cert.KernelIdeal.main_arg48)) (m ((c.tc : Thread Cert.KernelIdeal.nD Cert.KernelIdeal.τ).loc Cert.KernelIdeal.main_arg49)) (m ((c.tc : Thread Cert.KernelIdeal.nD Cert.KernelIdeal.τ).loc Cert.KernelIdeal.main_arg50)) (m ((c.tc : Thread Cert.KernelIdeal.nD Cert.KernelIdeal.τ).loc Cert.KernelIdeal.main_arg51)) (m ((c.tc : Thread Cert.KernelIdeal.nD Cert.KernelIdeal.τ).loc Cert.KernelIdeal.main_arg52)) (m ((c.tc : Thread Cert.KernelIdeal.nD Cert.KernelIdeal.τ).loc Cert.KernelIdeal.main_arg53))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38)) (m ((c.tc : Thread Cert.ReferenceIdeal.nD Cert.ReferenceIdeal.τ).loc Cert.ReferenceIdeal.main_arg39)) (m ((c.tc : Thread Cert.ReferenceIdeal.nD Cert.ReferenceIdeal.τ).loc Cert.ReferenceIdeal.main_arg40)) (m ((c.tc : Thread Cert.ReferenceIdeal.nD Cert.ReferenceIdeal.τ).loc Cert.ReferenceIdeal.main_arg41)) (m ((c.tc : Thread Cert.ReferenceIdeal.nD Cert.ReferenceIdeal.τ).loc Cert.ReferenceIdeal.main_arg42)) (m ((c.tc : Thread Cert.ReferenceIdeal.nD Cert.ReferenceIdeal.τ).loc Cert.ReferenceIdeal.main_arg43)) (m ((c.tc : Thread Cert.ReferenceIdeal.nD Cert.ReferenceIdeal.τ).loc Cert.ReferenceIdeal.main_arg44)) (m ((c.tc : Thread Cert.ReferenceIdeal.nD Cert.ReferenceIdeal.τ).loc Cert.ReferenceIdeal.main_arg45)) (m ((c.tc : Thread Cert.ReferenceIdeal.nD Cert.ReferenceIdeal.τ).loc Cert.ReferenceIdeal.main_arg46)) (m ((c.tc : Thread Cert.ReferenceIdeal.nD Cert.ReferenceIdeal.τ).loc Cert.ReferenceIdeal.main_arg47)) (m ((c.tc : Thread Cert.ReferenceIdeal.nD Cert.ReferenceIdeal.τ).loc Cert.ReferenceIdeal.main_arg48)) (m ((c.tc : Thread Cert.ReferenceIdeal.nD Cert.ReferenceIdeal.τ).loc Cert.ReferenceIdeal.main_arg49)) (m ((c.tc : Thread Cert.ReferenceIdeal.nD Cert.ReferenceIdeal.τ).loc Cert.ReferenceIdeal.main_arg50)) (m ((c.tc : Thread Cert.ReferenceIdeal.nD Cert.ReferenceIdeal.τ).loc Cert.ReferenceIdeal.main_arg51)) (m ((c.tc : Thread Cert.ReferenceIdeal.nD Cert.ReferenceIdeal.τ).loc Cert.ReferenceIdeal.main_arg52)) (m ((c.tc : Thread Cert.ReferenceIdeal.nD Cert.ReferenceIdeal.τ).loc Cert.ReferenceIdeal.main_arg53))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38)
      ∧ r.2.mem ((c.tc : Thread Cert.Kernel.nD Cert.Kernel.τ).loc Cert.Kernel.main_arg39) = m ((c.tc : Thread Cert.Kernel.nD Cert.Kernel.τ).loc Cert.Kernel.main_arg39)
      ∧ r.2.mem ((c.tc : Thread Cert.Kernel.nD Cert.Kernel.τ).loc Cert.Kernel.main_arg40) = m ((c.tc : Thread Cert.Kernel.nD Cert.Kernel.τ).loc Cert.Kernel.main_arg40)
      ∧ r.2.mem ((c.tc : Thread Cert.Kernel.nD Cert.Kernel.τ).loc Cert.Kernel.main_arg41) = m ((c.tc : Thread Cert.Kernel.nD Cert.Kernel.τ).loc Cert.Kernel.main_arg41)
      ∧ r.2.mem ((c.tc : Thread Cert.Kernel.nD Cert.Kernel.τ).loc Cert.Kernel.main_arg42) = m ((c.tc : Thread Cert.Kernel.nD Cert.Kernel.τ).loc Cert.Kernel.main_arg42)
      ∧ r.2.mem ((c.tc : Thread Cert.Kernel.nD Cert.Kernel.τ).loc Cert.Kernel.main_arg43) = m ((c.tc : Thread Cert.Kernel.nD Cert.Kernel.τ).loc Cert.Kernel.main_arg43)
      ∧ r.2.mem ((c.tc : Thread Cert.Kernel.nD Cert.Kernel.τ).loc Cert.Kernel.main_arg44) = m ((c.tc : Thread Cert.Kernel.nD Cert.Kernel.τ).loc Cert.Kernel.main_arg44)
      ∧ r.2.mem ((c.tc : Thread Cert.Kernel.nD Cert.Kernel.τ).loc Cert.Kernel.main_arg45) = m ((c.tc : Thread Cert.Kernel.nD Cert.Kernel.τ).loc Cert.Kernel.main_arg45)
      ∧ r.2.mem ((c.tc : Thread Cert.Kernel.nD Cert.Kernel.τ).loc Cert.Kernel.main_arg46) = m ((c.tc : Thread Cert.Kernel.nD Cert.Kernel.τ).loc Cert.Kernel.main_arg46)
      ∧ r.2.mem ((c.tc : Thread Cert.Kernel.nD Cert.Kernel.τ).loc Cert.Kernel.main_arg47) = m ((c.tc : Thread Cert.Kernel.nD Cert.Kernel.τ).loc Cert.Kernel.main_arg47)
      ∧ r.2.mem ((c.tc : Thread Cert.Kernel.nD Cert.Kernel.τ).loc Cert.Kernel.main_arg48) = m ((c.tc : Thread Cert.Kernel.nD Cert.Kernel.τ).loc Cert.Kernel.main_arg48)
      ∧ r.2.mem ((c.tc : Thread Cert.Kernel.nD Cert.Kernel.τ).loc Cert.Kernel.main_arg49) = m ((c.tc : Thread Cert.Kernel.nD Cert.Kernel.τ).loc Cert.Kernel.main_arg49)
      ∧ r.2.mem ((c.tc : Thread Cert.Kernel.nD Cert.Kernel.τ).loc Cert.Kernel.main_arg50) = m ((c.tc : Thread Cert.Kernel.nD Cert.Kernel.τ).loc Cert.Kernel.main_arg50)
      ∧ r.2.mem ((c.tc : Thread Cert.Kernel.nD Cert.Kernel.τ).loc Cert.Kernel.main_arg51) = m ((c.tc : Thread Cert.Kernel.nD Cert.Kernel.τ).loc Cert.Kernel.main_arg51)
      ∧ r.2.mem ((c.tc : Thread Cert.Kernel.nD Cert.Kernel.τ).loc Cert.Kernel.main_arg52) = m ((c.tc : Thread Cert.Kernel.nD Cert.Kernel.τ).loc Cert.Kernel.main_arg52)
      ∧ r.2.mem ((c.tc : Thread Cert.Kernel.nD Cert.Kernel.τ).loc Cert.Kernel.main_arg53) = m ((c.tc : Thread Cert.Kernel.nD Cert.Kernel.τ).loc Cert.Kernel.main_arg53))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
      ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
      ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
      ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41)
      ∧ r.2.mem ((c.tc : Thread Cert.KernelIdeal.nD Cert.KernelIdeal.τ).loc Cert.KernelIdeal.main_arg42) = m ((c.tc : Thread Cert.KernelIdeal.nD Cert.KernelIdeal.τ).loc Cert.KernelIdeal.main_arg42)
      ∧ r.2.mem ((c.tc : Thread Cert.KernelIdeal.nD Cert.KernelIdeal.τ).loc Cert.KernelIdeal.main_arg43) = m ((c.tc : Thread Cert.KernelIdeal.nD Cert.KernelIdeal.τ).loc Cert.KernelIdeal.main_arg43)
      ∧ r.2.mem ((c.tc : Thread Cert.KernelIdeal.nD Cert.KernelIdeal.τ).loc Cert.KernelIdeal.main_arg44) = m ((c.tc : Thread Cert.KernelIdeal.nD Cert.KernelIdeal.τ).loc Cert.KernelIdeal.main_arg44)
      ∧ r.2.mem ((c.tc : Thread Cert.KernelIdeal.nD Cert.KernelIdeal.τ).loc Cert.KernelIdeal.main_arg45) = m ((c.tc : Thread Cert.KernelIdeal.nD Cert.KernelIdeal.τ).loc Cert.KernelIdeal.main_arg45)
      ∧ r.2.mem ((c.tc : Thread Cert.KernelIdeal.nD Cert.KernelIdeal.τ).loc Cert.KernelIdeal.main_arg46) = m ((c.tc : Thread Cert.KernelIdeal.nD Cert.KernelIdeal.τ).loc Cert.KernelIdeal.main_arg46)
      ∧ r.2.mem ((c.tc : Thread Cert.KernelIdeal.nD Cert.KernelIdeal.τ).loc Cert.KernelIdeal.main_arg47) = m ((c.tc : Thread Cert.KernelIdeal.nD Cert.KernelIdeal.τ).loc Cert.KernelIdeal.main_arg47)
      ∧ r.2.mem ((c.tc : Thread Cert.KernelIdeal.nD Cert.KernelIdeal.τ).loc Cert.KernelIdeal.main_arg48) = m ((c.tc : Thread Cert.KernelIdeal.nD Cert.KernelIdeal.τ).loc Cert.KernelIdeal.main_arg48)
      ∧ r.2.mem ((c.tc : Thread Cert.KernelIdeal.nD Cert.KernelIdeal.τ).loc Cert.KernelIdeal.main_arg49) = m ((c.tc : Thread Cert.KernelIdeal.nD Cert.KernelIdeal.τ).loc Cert.KernelIdeal.main_arg49)
      ∧ r.2.mem ((c.tc : Thread Cert.KernelIdeal.nD Cert.KernelIdeal.τ).loc Cert.KernelIdeal.main_arg50) = m ((c.tc : Thread Cert.KernelIdeal.nD Cert.KernelIdeal.τ).loc Cert.KernelIdeal.main_arg50)
      ∧ r.2.mem ((c.tc : Thread Cert.KernelIdeal.nD Cert.KernelIdeal.τ).loc Cert.KernelIdeal.main_arg51) = m ((c.tc : Thread Cert.KernelIdeal.nD Cert.KernelIdeal.τ).loc Cert.KernelIdeal.main_arg51)
      ∧ r.2.mem ((c.tc : Thread Cert.KernelIdeal.nD Cert.KernelIdeal.τ).loc Cert.KernelIdeal.main_arg52) = m ((c.tc : Thread Cert.KernelIdeal.nD Cert.KernelIdeal.τ).loc Cert.KernelIdeal.main_arg52)
      ∧ r.2.mem ((c.tc : Thread Cert.KernelIdeal.nD Cert.KernelIdeal.τ).loc Cert.KernelIdeal.main_arg53) = m ((c.tc : Thread Cert.KernelIdeal.nD Cert.KernelIdeal.τ).loc Cert.KernelIdeal.main_arg53))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38)
      ∧ r.2.mem ((c.tc : Thread Cert.ReferenceIdeal.nD Cert.ReferenceIdeal.τ).loc Cert.ReferenceIdeal.main_arg39) = m ((c.tc : Thread Cert.ReferenceIdeal.nD Cert.ReferenceIdeal.τ).loc Cert.ReferenceIdeal.main_arg39)
      ∧ r.2.mem ((c.tc : Thread Cert.ReferenceIdeal.nD Cert.ReferenceIdeal.τ).loc Cert.ReferenceIdeal.main_arg40) = m ((c.tc : Thread Cert.ReferenceIdeal.nD Cert.ReferenceIdeal.τ).loc Cert.ReferenceIdeal.main_arg40)
      ∧ r.2.mem ((c.tc : Thread Cert.ReferenceIdeal.nD Cert.ReferenceIdeal.τ).loc Cert.ReferenceIdeal.main_arg41) = m ((c.tc : Thread Cert.ReferenceIdeal.nD Cert.ReferenceIdeal.τ).loc Cert.ReferenceIdeal.main_arg41)
      ∧ r.2.mem ((c.tc : Thread Cert.ReferenceIdeal.nD Cert.ReferenceIdeal.τ).loc Cert.ReferenceIdeal.main_arg42) = m ((c.tc : Thread Cert.ReferenceIdeal.nD Cert.ReferenceIdeal.τ).loc Cert.ReferenceIdeal.main_arg42)
      ∧ r.2.mem ((c.tc : Thread Cert.ReferenceIdeal.nD Cert.ReferenceIdeal.τ).loc Cert.ReferenceIdeal.main_arg43) = m ((c.tc : Thread Cert.ReferenceIdeal.nD Cert.ReferenceIdeal.τ).loc Cert.ReferenceIdeal.main_arg43)
      ∧ r.2.mem ((c.tc : Thread Cert.ReferenceIdeal.nD Cert.ReferenceIdeal.τ).loc Cert.ReferenceIdeal.main_arg44) = m ((c.tc : Thread Cert.ReferenceIdeal.nD Cert.ReferenceIdeal.τ).loc Cert.ReferenceIdeal.main_arg44)
      ∧ r.2.mem ((c.tc : Thread Cert.ReferenceIdeal.nD Cert.ReferenceIdeal.τ).loc Cert.ReferenceIdeal.main_arg45) = m ((c.tc : Thread Cert.ReferenceIdeal.nD Cert.ReferenceIdeal.τ).loc Cert.ReferenceIdeal.main_arg45)
      ∧ r.2.mem ((c.tc : Thread Cert.ReferenceIdeal.nD Cert.ReferenceIdeal.τ).loc Cert.ReferenceIdeal.main_arg46) = m ((c.tc : Thread Cert.ReferenceIdeal.nD Cert.ReferenceIdeal.τ).loc Cert.ReferenceIdeal.main_arg46)
      ∧ r.2.mem ((c.tc : Thread Cert.ReferenceIdeal.nD Cert.ReferenceIdeal.τ).loc Cert.ReferenceIdeal.main_arg47) = m ((c.tc : Thread Cert.ReferenceIdeal.nD Cert.ReferenceIdeal.τ).loc Cert.ReferenceIdeal.main_arg47)
      ∧ r.2.mem ((c.tc : Thread Cert.ReferenceIdeal.nD Cert.ReferenceIdeal.τ).loc Cert.ReferenceIdeal.main_arg48) = m ((c.tc : Thread Cert.ReferenceIdeal.nD Cert.ReferenceIdeal.τ).loc Cert.ReferenceIdeal.main_arg48)
      ∧ r.2.mem ((c.tc : Thread Cert.ReferenceIdeal.nD Cert.ReferenceIdeal.τ).loc Cert.ReferenceIdeal.main_arg49) = m ((c.tc : Thread Cert.ReferenceIdeal.nD Cert.ReferenceIdeal.τ).loc Cert.ReferenceIdeal.main_arg49)
      ∧ r.2.mem ((c.tc : Thread Cert.ReferenceIdeal.nD Cert.ReferenceIdeal.τ).loc Cert.ReferenceIdeal.main_arg50) = m ((c.tc : Thread Cert.ReferenceIdeal.nD Cert.ReferenceIdeal.τ).loc Cert.ReferenceIdeal.main_arg50)
      ∧ r.2.mem ((c.tc : Thread Cert.ReferenceIdeal.nD Cert.ReferenceIdeal.τ).loc Cert.ReferenceIdeal.main_arg51) = m ((c.tc : Thread Cert.ReferenceIdeal.nD Cert.ReferenceIdeal.τ).loc Cert.ReferenceIdeal.main_arg51)
      ∧ r.2.mem ((c.tc : Thread Cert.ReferenceIdeal.nD Cert.ReferenceIdeal.τ).loc Cert.ReferenceIdeal.main_arg52) = m ((c.tc : Thread Cert.ReferenceIdeal.nD Cert.ReferenceIdeal.τ).loc Cert.ReferenceIdeal.main_arg52)
      ∧ r.2.mem ((c.tc : Thread Cert.ReferenceIdeal.nD Cert.ReferenceIdeal.τ).loc Cert.ReferenceIdeal.main_arg53) = m ((c.tc : Thread Cert.ReferenceIdeal.nD Cert.ReferenceIdeal.τ).loc Cert.ReferenceIdeal.main_arg53))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)
      ∧ m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40)
      ∧ m' ((c.tc : Thread Cert.ReferenceIdeal.nD Cert.ReferenceIdeal.τ).loc Cert.ReferenceIdeal.main_arg41) = m ((c.tc : Thread Cert.KernelIdeal.nD Cert.KernelIdeal.τ).loc Cert.KernelIdeal.main_arg41)
      ∧ m' ((c.tc : Thread Cert.ReferenceIdeal.nD Cert.ReferenceIdeal.τ).loc Cert.ReferenceIdeal.main_arg42) = m ((c.tc : Thread Cert.KernelIdeal.nD Cert.KernelIdeal.τ).loc Cert.KernelIdeal.main_arg42)
      ∧ m' ((c.tc : Thread Cert.ReferenceIdeal.nD Cert.ReferenceIdeal.τ).loc Cert.ReferenceIdeal.main_arg43) = m ((c.tc : Thread Cert.KernelIdeal.nD Cert.KernelIdeal.τ).loc Cert.KernelIdeal.main_arg43)
      ∧ m' ((c.tc : Thread Cert.ReferenceIdeal.nD Cert.ReferenceIdeal.τ).loc Cert.ReferenceIdeal.main_arg44) = m ((c.tc : Thread Cert.KernelIdeal.nD Cert.KernelIdeal.τ).loc Cert.KernelIdeal.main_arg44)
      ∧ m' ((c.tc : Thread Cert.ReferenceIdeal.nD Cert.ReferenceIdeal.τ).loc Cert.ReferenceIdeal.main_arg45) = m ((c.tc : Thread Cert.KernelIdeal.nD Cert.KernelIdeal.τ).loc Cert.KernelIdeal.main_arg45)
      ∧ m' ((c.tc : Thread Cert.ReferenceIdeal.nD Cert.ReferenceIdeal.τ).loc Cert.ReferenceIdeal.main_arg46) = m ((c.tc : Thread Cert.KernelIdeal.nD Cert.KernelIdeal.τ).loc Cert.KernelIdeal.main_arg46)
      ∧ m' ((c.tc : Thread Cert.ReferenceIdeal.nD Cert.ReferenceIdeal.τ).loc Cert.ReferenceIdeal.main_arg47) = m ((c.tc : Thread Cert.KernelIdeal.nD Cert.KernelIdeal.τ).loc Cert.KernelIdeal.main_arg47)
      ∧ m' ((c.tc : Thread Cert.ReferenceIdeal.nD Cert.ReferenceIdeal.τ).loc Cert.ReferenceIdeal.main_arg48) = m ((c.tc : Thread Cert.KernelIdeal.nD Cert.KernelIdeal.τ).loc Cert.KernelIdeal.main_arg48)
      ∧ m' ((c.tc : Thread Cert.ReferenceIdeal.nD Cert.ReferenceIdeal.τ).loc Cert.ReferenceIdeal.main_arg49) = m ((c.tc : Thread Cert.KernelIdeal.nD Cert.KernelIdeal.τ).loc Cert.KernelIdeal.main_arg49)
      ∧ m' ((c.tc : Thread Cert.ReferenceIdeal.nD Cert.ReferenceIdeal.τ).loc Cert.ReferenceIdeal.main_arg50) = m ((c.tc : Thread Cert.KernelIdeal.nD Cert.KernelIdeal.τ).loc Cert.KernelIdeal.main_arg50)
      ∧ m' ((c.tc : Thread Cert.ReferenceIdeal.nD Cert.ReferenceIdeal.τ).loc Cert.ReferenceIdeal.main_arg51) = m ((c.tc : Thread Cert.KernelIdeal.nD Cert.KernelIdeal.τ).loc Cert.KernelIdeal.main_arg51)
      ∧ m' ((c.tc : Thread Cert.ReferenceIdeal.nD Cert.ReferenceIdeal.τ).loc Cert.ReferenceIdeal.main_arg52) = m ((c.tc : Thread Cert.KernelIdeal.nD Cert.KernelIdeal.τ).loc Cert.KernelIdeal.main_arg52)
      ∧ m' ((c.tc : Thread Cert.ReferenceIdeal.nD Cert.ReferenceIdeal.τ).loc Cert.ReferenceIdeal.main_arg53) = m ((c.tc : Thread Cert.KernelIdeal.nD Cert.KernelIdeal.τ).loc Cert.KernelIdeal.main_arg53)) →
    ∃ (v0 : (c : Dev Cert.KernelIdeal.nD) → Buf (Elt Ideal) ((c.tc : Thread Cert.KernelIdeal.nD Cert.KernelIdeal.τ).loc Cert.KernelIdeal.main_v302)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v302) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
          ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
          ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
          ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41)
          ∧ r.2.mem ((c.tc : Thread Cert.KernelIdeal.nD Cert.KernelIdeal.τ).loc Cert.KernelIdeal.main_arg42) = m ((c.tc : Thread Cert.KernelIdeal.nD Cert.KernelIdeal.τ).loc Cert.KernelIdeal.main_arg42)
          ∧ r.2.mem ((c.tc : Thread Cert.KernelIdeal.nD Cert.KernelIdeal.τ).loc Cert.KernelIdeal.main_arg43) = m ((c.tc : Thread Cert.KernelIdeal.nD Cert.KernelIdeal.τ).loc Cert.KernelIdeal.main_arg43)
          ∧ r.2.mem ((c.tc : Thread Cert.KernelIdeal.nD Cert.KernelIdeal.τ).loc Cert.KernelIdeal.main_arg44) = m ((c.tc : Thread Cert.KernelIdeal.nD Cert.KernelIdeal.τ).loc Cert.KernelIdeal.main_arg44)
          ∧ r.2.mem ((c.tc : Thread Cert.KernelIdeal.nD Cert.KernelIdeal.τ).loc Cert.KernelIdeal.main_arg45) = m ((c.tc : Thread Cert.KernelIdeal.nD Cert.KernelIdeal.τ).loc Cert.KernelIdeal.main_arg45)
          ∧ r.2.mem ((c.tc : Thread Cert.KernelIdeal.nD Cert.KernelIdeal.τ).loc Cert.KernelIdeal.main_arg46) = m ((c.tc : Thread Cert.KernelIdeal.nD Cert.KernelIdeal.τ).loc Cert.KernelIdeal.main_arg46)
          ∧ r.2.mem ((c.tc : Thread Cert.KernelIdeal.nD Cert.KernelIdeal.τ).loc Cert.KernelIdeal.main_arg47) = m ((c.tc : Thread Cert.KernelIdeal.nD Cert.KernelIdeal.τ).loc Cert.KernelIdeal.main_arg47)
          ∧ r.2.mem ((c.tc : Thread Cert.KernelIdeal.nD Cert.KernelIdeal.τ).loc Cert.KernelIdeal.main_arg48) = m ((c.tc : Thread Cert.KernelIdeal.nD Cert.KernelIdeal.τ).loc Cert.KernelIdeal.main_arg48)
          ∧ r.2.mem ((c.tc : Thread Cert.KernelIdeal.nD Cert.KernelIdeal.τ).loc Cert.KernelIdeal.main_arg49) = m ((c.tc : Thread Cert.KernelIdeal.nD Cert.KernelIdeal.τ).loc Cert.KernelIdeal.main_arg49)
          ∧ r.2.mem ((c.tc : Thread Cert.KernelIdeal.nD Cert.KernelIdeal.τ).loc Cert.KernelIdeal.main_arg50) = m ((c.tc : Thread Cert.KernelIdeal.nD Cert.KernelIdeal.τ).loc Cert.KernelIdeal.main_arg50)
          ∧ r.2.mem ((c.tc : Thread Cert.KernelIdeal.nD Cert.KernelIdeal.τ).loc Cert.KernelIdeal.main_arg51) = m ((c.tc : Thread Cert.KernelIdeal.nD Cert.KernelIdeal.τ).loc Cert.KernelIdeal.main_arg51)
          ∧ r.2.mem ((c.tc : Thread Cert.KernelIdeal.nD Cert.KernelIdeal.τ).loc Cert.KernelIdeal.main_arg52) = m ((c.tc : Thread Cert.KernelIdeal.nD Cert.KernelIdeal.τ).loc Cert.KernelIdeal.main_arg52)
          ∧ r.2.mem ((c.tc : Thread Cert.KernelIdeal.nD Cert.KernelIdeal.τ).loc Cert.KernelIdeal.main_arg53) = m ((c.tc : Thread Cert.KernelIdeal.nD Cert.KernelIdeal.τ).loc Cert.KernelIdeal.main_arg53))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v302) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38)
          ∧ r.2.mem ((c.tc : Thread Cert.ReferenceIdeal.nD Cert.ReferenceIdeal.τ).loc Cert.ReferenceIdeal.main_arg39) = m' ((c.tc : Thread Cert.ReferenceIdeal.nD Cert.ReferenceIdeal.τ).loc Cert.ReferenceIdeal.main_arg39)
          ∧ r.2.mem ((c.tc : Thread Cert.ReferenceIdeal.nD Cert.ReferenceIdeal.τ).loc Cert.ReferenceIdeal.main_arg40) = m' ((c.tc : Thread Cert.ReferenceIdeal.nD Cert.ReferenceIdeal.τ).loc Cert.ReferenceIdeal.main_arg40)
          ∧ r.2.mem ((c.tc : Thread Cert.ReferenceIdeal.nD Cert.ReferenceIdeal.τ).loc Cert.ReferenceIdeal.main_arg41) = m' ((c.tc : Thread Cert.ReferenceIdeal.nD Cert.ReferenceIdeal.τ).loc Cert.ReferenceIdeal.main_arg41)
          ∧ r.2.mem ((c.tc : Thread Cert.ReferenceIdeal.nD Cert.ReferenceIdeal.τ).loc Cert.ReferenceIdeal.main_arg42) = m' ((c.tc : Thread Cert.ReferenceIdeal.nD Cert.ReferenceIdeal.τ).loc Cert.ReferenceIdeal.main_arg42)
          ∧ r.2.mem ((c.tc : Thread Cert.ReferenceIdeal.nD Cert.ReferenceIdeal.τ).loc Cert.ReferenceIdeal.main_arg43) = m' ((c.tc : Thread Cert.ReferenceIdeal.nD Cert.ReferenceIdeal.τ).loc Cert.ReferenceIdeal.main_arg43)
          ∧ r.2.mem ((c.tc : Thread Cert.ReferenceIdeal.nD Cert.ReferenceIdeal.τ).loc Cert.ReferenceIdeal.main_arg44) = m' ((c.tc : Thread Cert.ReferenceIdeal.nD Cert.ReferenceIdeal.τ).loc Cert.ReferenceIdeal.main_arg44)
          ∧ r.2.mem ((c.tc : Thread Cert.ReferenceIdeal.nD Cert.ReferenceIdeal.τ).loc Cert.ReferenceIdeal.main_arg45) = m' ((c.tc : Thread Cert.ReferenceIdeal.nD Cert.ReferenceIdeal.τ).loc Cert.ReferenceIdeal.main_arg45)
          ∧ r.2.mem ((c.tc : Thread Cert.ReferenceIdeal.nD Cert.ReferenceIdeal.τ).loc Cert.ReferenceIdeal.main_arg46) = m' ((c.tc : Thread Cert.ReferenceIdeal.nD Cert.ReferenceIdeal.τ).loc Cert.ReferenceIdeal.main_arg46)
          ∧ r.2.mem ((c.tc : Thread Cert.ReferenceIdeal.nD Cert.ReferenceIdeal.τ).loc Cert.ReferenceIdeal.main_arg47) = m' ((c.tc : Thread Cert.ReferenceIdeal.nD Cert.ReferenceIdeal.τ).loc Cert.ReferenceIdeal.main_arg47)
          ∧ r.2.mem ((c.tc : Thread Cert.ReferenceIdeal.nD Cert.ReferenceIdeal.τ).loc Cert.ReferenceIdeal.main_arg48) = m' ((c.tc : Thread Cert.ReferenceIdeal.nD Cert.ReferenceIdeal.τ).loc Cert.ReferenceIdeal.main_arg48)
          ∧ r.2.mem ((c.tc : Thread Cert.ReferenceIdeal.nD Cert.ReferenceIdeal.τ).loc Cert.ReferenceIdeal.main_arg49) = m' ((c.tc : Thread Cert.ReferenceIdeal.nD Cert.ReferenceIdeal.τ).loc Cert.ReferenceIdeal.main_arg49)
          ∧ r.2.mem ((c.tc : Thread Cert.ReferenceIdeal.nD Cert.ReferenceIdeal.τ).loc Cert.ReferenceIdeal.main_arg50) = m' ((c.tc : Thread Cert.ReferenceIdeal.nD Cert.ReferenceIdeal.τ).loc Cert.ReferenceIdeal.main_arg50)
          ∧ r.2.mem ((c.tc : Thread Cert.ReferenceIdeal.nD Cert.ReferenceIdeal.τ).loc Cert.ReferenceIdeal.main_arg51) = m' ((c.tc : Thread Cert.ReferenceIdeal.nD Cert.ReferenceIdeal.τ).loc Cert.ReferenceIdeal.main_arg51)
          ∧ r.2.mem ((c.tc : Thread Cert.ReferenceIdeal.nD Cert.ReferenceIdeal.τ).loc Cert.ReferenceIdeal.main_arg52) = m' ((c.tc : Thread Cert.ReferenceIdeal.nD Cert.ReferenceIdeal.τ).loc Cert.ReferenceIdeal.main_arg52)
          ∧ r.2.mem ((c.tc : Thread Cert.ReferenceIdeal.nD Cert.ReferenceIdeal.τ).loc Cert.ReferenceIdeal.main_arg53) = m' ((c.tc : Thread Cert.ReferenceIdeal.nD Cert.ReferenceIdeal.τ).loc Cert.ReferenceIdeal.main_arg53))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x64 : Shape := ⟨2, ![150000, 64]⟩
abbrev S500x64 : Shape := ⟨2, ![500, 64]⟩
abbrev S50x64 : Shape := ⟨2, ![50, 64]⟩
abbrev S768x64 : Shape := ⟨2, ![768, 64]⟩
abbrev S64x64 : Shape := ⟨2, ![64, 64]⟩
abbrev S5x256 : Shape := ⟨2, ![5, 256]⟩
abbrev S200000x768 : Shape := ⟨2, ![200000, 768]⟩
abbrev S300000x64 : Shape := ⟨2, ![300000, 64]⟩
abbrev S500x1 : Shape := ⟨2, ![500, 1]⟩
abbrev S100000x1 : Shape := ⟨2, ![100000, 1]⟩
abbrev S50000x1 : Shape := ⟨2, ![50000, 1]⟩
abbrev S200000 : Shape := ⟨1, ![200000]⟩
abbrev S300000 : Shape := ⟨1, ![300000]⟩
abbrev S500000 : Shape := ⟨1, ![500000]⟩
abbrev S500000x3 : Shape := ⟨2, ![500000, 3]⟩
abbrev S_ : Shape := ⟨0, ![]⟩

class Facts : Prop where
  bcast_S_S150000x64 : S_.BroadcastsInDim S150000x64 (![] : Fin 0 → Fin S150000x64.rank)
  reducesTo_S150000x64_S_d0_1 : S150000x64.ReducesTo [0, 1] S_
  h_S_ : 0 < S_.numel
  bcast_S_S500x64 : S_.BroadcastsInDim S500x64 (![] : Fin 0 → Fin S500x64.rank)
  reducesTo_S500x64_S_d0_1 : S500x64.ReducesTo [0, 1] S_
  bcast_S_S50x64 : S_.BroadcastsInDim S50x64 (![] : Fin 0 → Fin S50x64.rank)
  reducesTo_S50x64_S_d0_1 : S50x64.ReducesTo [0, 1] S_
  bcast_S_S768x64 : S_.BroadcastsInDim S768x64 (![] : Fin 0 → Fin S768x64.rank)
  reducesTo_S768x64_S_d0_1 : S768x64.ReducesTo [0, 1] S_
  bcast_S_S64x64 : S_.BroadcastsInDim S64x64 (![] : Fin 0 → Fin S64x64.rank)
  reducesTo_S64x64_S_d0_1 : S64x64.ReducesTo [0, 1] S_
  bcast_S_S5x256 : S_.BroadcastsInDim S5x256 (![] : Fin 0 → Fin S5x256.rank)
  reducesTo_S5x256_S_d0_1 : S5x256.ReducesTo [0, 1] S_
  bcast_S_S200000x768 : S_.BroadcastsInDim S200000x768 (![] : Fin 0 → Fin S200000x768.rank)
  reducesTo_S200000x768_S_d0_1 : S200000x768.ReducesTo [0, 1] S_
  bcast_S_S300000x64 : S_.BroadcastsInDim S300000x64 (![] : Fin 0 → Fin S300000x64.rank)
  reducesTo_S300000x64_S_d0_1 : S300000x64.ReducesTo [0, 1] S_
  bcast_S_S500x1 : S_.BroadcastsInDim S500x1 (![] : Fin 0 → Fin S500x1.rank)
  reducesTo_S500x1_S_d0_1 : S500x1.ReducesTo [0, 1] S_
  bcast_S_S100000x1 : S_.BroadcastsInDim S100000x1 (![] : Fin 0 → Fin S100000x1.rank)
  reducesTo_S100000x1_S_d0_1 : S100000x1.ReducesTo [0, 1] S_
  bcast_S_S50000x1 : S_.BroadcastsInDim S50000x1 (![] : Fin 0 → Fin S50000x1.rank)
  reducesTo_S50000x1_S_d0_1 : S50000x1.ReducesTo [0, 1] S_

variable [Facts]

def fn_part9 {F : FTy → Type} [FloatOps F] (main_arg31 : FVec F S50000x1 .f32) (main_v153 : IVec S_ 1) : IVec S_ 1 :=
  let main_v154 : FVec F S50000x1 .f32 := Host.absf main_arg31
  let main_cst_60 : FVec F S_ .f32 := constant S_ .f32 0x7F800000#32
  let main_v155 : FVec F S50000x1 .f32 := broadcastInDim S50000x1 ![] bcast_S_S50000x1 main_cst_60
  let main_v156 : IVec S50000x1 1 := cmpf .olt main_v154 main_v155
  let main_c_61 : IVec S_ 1 := constantI S_ 1 1#1
  let main_v157 : IVec S_ 1 := (fun x v => Host.reduce IntOp.andi x v reducesTo_S50000x1_S_d0_1 h_S_) main_v156 main_c_61
  let main_v158 : IVec S_ 1 := andi main_v153 main_v157
  main_v158

def fn_part8 {F : FTy → Type} [FloatOps F] (main_arg28 : FVec F S50000x1 .f32) (main_arg29 : FVec F S50000x1 .f32) (main_arg30 : FVec F S50000x1 .f32) (main_arg31 : FVec F S50000x1 .f32) (main_v133 : IVec S_ 1) (main_v136 : IVec S50000x1 1) : IVec S_ 1 :=
  let main_c_53 : IVec S_ 1 := constantI S_ 1 1#1
  let main_v137 : IVec S_ 1 := (fun x v => Host.reduce IntOp.andi x v reducesTo_S50000x1_S_d0_1 h_S_) main_v136 main_c_53
  let main_v138 : IVec S_ 1 := andi main_v133 main_v137
  let main_v139 : FVec F S50000x1 .f32 := Host.absf main_arg28
  let main_cst_54 : FVec F S_ .f32 := constant S_ .f32 0x7F800000#32
  let main_v140 : FVec F S50000x1 .f32 := broadcastInDim S50000x1 ![] bcast_S_S50000x1 main_cst_54
  let main_v141 : IVec S50000x1 1 := cmpf .olt main_v139 main_v140
  let main_c_55 : IVec S_ 1 := constantI S_ 1 1#1
  let main_v142 : IVec S_ 1 := (fun x v => Host.reduce IntOp.andi x v reducesTo_S50000x1_S_d0_1 h_S_) main_v141 main_c_55
  let main_v143 : IVec S_ 1 := andi main_v138 main_v142
  let main_v144 : FVec F S50000x1 .f32 := Host.absf main_arg29
  let main_cst_56 : FVec F S_ .f32 := constant S_ .f32 0x7F800000#32
  let main_v145 : FVec F S50000x1 .f32 := broadcastInDim S50000x1 ![] bcast_S_S50000x1 main_cst_56
  let main_v146 : IVec S50000x1 1 := cmpf .olt main_v144 main_v145
  let main_c_57 : IVec S_ 1 := constantI S_ 1 1#1
  let main_v147 : IVec S_ 1 := (fun x v => Host.reduce IntOp.andi x v reducesTo_S50000x1_S_d0_1 h_S_) main_v146 main_c_57
  let main_v148 : IVec S_ 1 := andi main_v143 main_v147
  let main_v149 : FVec F S50000x1 .f32 := Host.absf main_arg30
  let main_cst_58 : FVec F S_ .f32 := constant S_ .f32 0x7F800000#32
  let main_v150 : FVec F S50000x1 .f32 := broadcastInDim S50000x1 ![] bcast_S_S50000x1 main_cst_58
  let main_v151 : IVec S50000x1 1 := cmpf .olt main_v149 main_v150
  let main_c_59 : IVec S_ 1 := constantI S_ 1 1#1
  let main_v152 : IVec S_ 1 := (fun x v => Host.reduce IntOp.andi x v reducesTo_S50000x1_S_d0_1 h_S_) main_v151 main_c_59
  let main_v153 : IVec S_ 1 := andi main_v148 main_v152
  fn_part9 (F := F) main_arg31 main_v153

def fn_part7 {F : FTy → Type} [FloatOps F] (main_arg25 : FVec F S100000x1 .f32) (main_arg26 : FVec F S50000x1 .f32) (main_arg27 : FVec F S50000x1 .f32) (main_arg28 : FVec F S50000x1 .f32) (main_arg29 : FVec F S50000x1 .f32) (main_arg30 : FVec F S50000x1 .f32) (main_arg31 : FVec F S50000x1 .f32) (main_v118 : IVec S_ 1) (main_v119 : FVec F S100000x1 .f32) : IVec S_ 1 :=
  let main_cst_46 : FVec F S_ .f32 := constant S_ .f32 0x7F800000#32
  let main_v120 : FVec F S100000x1 .f32 := broadcastInDim S100000x1 ![] bcast_S_S100000x1 main_cst_46
  let main_v121 : IVec S100000x1 1 := cmpf .olt main_v119 main_v120
  let main_c_47 : IVec S_ 1 := constantI S_ 1 1#1
  let main_v122 : IVec S_ 1 := (fun x v => Host.reduce IntOp.andi x v reducesTo_S100000x1_S_d0_1 h_S_) main_v121 main_c_47
  let main_v123 : IVec S_ 1 := andi main_v118 main_v122
  let main_v124 : FVec F S100000x1 .f32 := Host.absf main_arg25
  let main_cst_48 : FVec F S_ .f32 := constant S_ .f32 0x7F800000#32
  let main_v125 : FVec F S100000x1 .f32 := broadcastInDim S100000x1 ![] bcast_S_S100000x1 main_cst_48
  let main_v126 : IVec S100000x1 1 := cmpf .olt main_v124 main_v125
  let main_c_49 : IVec S_ 1 := constantI S_ 1 1#1
  let main_v127 : IVec S_ 1 := (fun x v => Host.reduce IntOp.andi x v reducesTo_S100000x1_S_d0_1 h_S_) main_v126 main_c_49
  let main_v128 : IVec S_ 1 := andi main_v123 main_v127
  let main_v129 : FVec F S50000x1 .f32 := Host.absf main_arg26
  let main_cst_50 : FVec F S_ .f32 := constant S_ .f32 0x7F800000#32
  let main_v130 : FVec F S50000x1 .f32 := broadcastInDim S50000x1 ![] bcast_S_S50000x1 main_cst_50
  let main_v131 : IVec S50000x1 1 := cmpf .olt main_v129 main_v130
  let main_c_51 : IVec S_ 1 := constantI S_ 1 1#1
  let main_v132 : IVec S_ 1 := (fun x v => Host.reduce IntOp.andi x v reducesTo_S50000x1_S_d0_1 h_S_) main_v131 main_c_51
  let main_v133 : IVec S_ 1 := andi main_v128 main_v132
  let main_v134 : FVec F S50000x1 .f32 := Host.absf main_arg27
  let main_cst_52 : FVec F S_ .f32 := constant S_ .f32 0x7F800000#32
  let main_v135 : FVec F S50000x1 .f32 := broadcastInDim S50000x1 ![] bcast_S_S50000x1 main_cst_52
  let main_v136 : IVec S50000x1 1 := cmpf .olt main_v134 main_v135
  fn_part8 (F := F) main_arg28 main_arg29 main_arg30 main_arg31 main_v133 main_v136

def fn_part6 {F : FTy → Type} [FloatOps F] (main_arg21 : FVec F S100000x1 .f32) (main_arg22 : FVec F S100000x1 .f32) (main_arg23 : FVec F S100000x1 .f32) (main_arg24 : FVec F S100000x1 .f32) (main_arg25 : FVec F S100000x1 .f32) (main_arg26 : FVec F S50000x1 .f32) (main_arg27 : FVec F S50000x1 .f32) (main_arg28 : FVec F S50000x1 .f32) (main_arg29 : FVec F S50000x1 .f32) (main_arg30 : FVec F S50000x1 .f32) (main_arg31 : FVec F S50000x1 .f32) (main_v98 : IVec S_ 1) (main_v101 : IVec S100000x1 1) (main_c_39 : IVec S_ 1) : IVec S_ 1 :=
  let main_v102 : IVec S_ 1 := (fun x v => Host.reduce IntOp.andi x v reducesTo_S100000x1_S_d0_1 h_S_) main_v101 main_c_39
  let main_v103 : IVec S_ 1 := andi main_v98 main_v102
  let main_v104 : FVec F S100000x1 .f32 := Host.absf main_arg21
  let main_cst_40 : FVec F S_ .f32 := constant S_ .f32 0x7F800000#32
  let main_v105 : FVec F S100000x1 .f32 := broadcastInDim S100000x1 ![] bcast_S_S100000x1 main_cst_40
  let main_v106 : IVec S100000x1 1 := cmpf .olt main_v104 main_v105
  let main_c_41 : IVec S_ 1 := constantI S_ 1 1#1
  let main_v107 : IVec S_ 1 := (fun x v => Host.reduce IntOp.andi x v reducesTo_S100000x1_S_d0_1 h_S_) main_v106 main_c_41
  let main_v108 : IVec S_ 1 := andi main_v103 main_v107
  let main_v109 : FVec F S100000x1 .f32 := Host.absf main_arg22
  let main_cst_42 : FVec F S_ .f32 := constant S_ .f32 0x7F800000#32
  let main_v110 : FVec F S100000x1 .f32 := broadcastInDim S100000x1 ![] bcast_S_S100000x1 main_cst_42
  let main_v111 : IVec S100000x1 1 := cmpf .olt main_v109 main_v110
  let main_c_43 : IVec S_ 1 := constantI S_ 1 1#1
  let main_v112 : IVec S_ 1 := (fun x v => Host.reduce IntOp.andi x v reducesTo_S100000x1_S_d0_1 h_S_) main_v111 main_c_43
  let main_v113 : IVec S_ 1 := andi main_v108 main_v112
  let main_v114 : FVec F S100000x1 .f32 := Host.absf main_arg23
  let main_cst_44 : FVec F S_ .f32 := constant S_ .f32 0x7F800000#32
  let main_v115 : FVec F S100000x1 .f32 := broadcastInDim S100000x1 ![] bcast_S_S100000x1 main_cst_44
  let main_v116 : IVec S100000x1 1 := cmpf .olt main_v114 main_v115
  let main_c_45 : IVec S_ 1 := constantI S_ 1 1#1
  let main_v117 : IVec S_ 1 := (fun x v => Host.reduce IntOp.andi x v reducesTo_S100000x1_S_d0_1 h_S_) main_v116 main_c_45
  let main_v118 : IVec S_ 1 := andi main_v113 main_v117
  let main_v119 : FVec F S100000x1 .f32 := Host.absf main_arg24
  fn_part7 (F := F) main_arg25 main_arg26 main_arg27 main_arg28 main_arg29 main_arg30 main_arg31 main_v118 main_v119

def fn_part5 {F : FTy → Type} [FloatOps F] (main_arg18 : FVec F S500x1 .f32) (main_arg19 : FVec F S500x1 .f32) (main_arg20 : FVec F S100000x1 .f32) (main_arg21 : FVec F S100000x1 .f32) (main_arg22 : FVec F S100000x1 .f32) (main_arg23 : FVec F S100000x1 .f32) (main_arg24 : FVec F S100000x1 .f32) (main_arg25 : FVec F S100000x1 .f32) (main_arg26 : FVec F S50000x1 .f32) (main_arg27 : FVec F S50000x1 .f32) (main_arg28 : FVec F S50000x1 .f32) (main_arg29 : FVec F S50000x1 .f32) (main_arg30 : FVec F S50000x1 .f32) (main_arg31 : FVec F S50000x1 .f32) (main_v83 : IVec S_ 1) (main_v84 : FVec F S300000x64 .f32) (main_cst_32 : FVec F S_ .f32) : IVec S_ 1 :=
  let main_v85 : FVec F S300000x64 .f32 := broadcastInDim S300000x64 ![] bcast_S_S300000x64 main_cst_32
  let main_v86 : IVec S300000x64 1 := cmpf .olt main_v84 main_v85
  let main_c_33 : IVec S_ 1 := constantI S_ 1 1#1
  let main_v87 : IVec S_ 1 := (fun x v => Host.reduce IntOp.andi x v reducesTo_S300000x64_S_d0_1 h_S_) main_v86 main_c_33
  let main_v88 : IVec S_ 1 := andi main_v83 main_v87
  let main_v89 : FVec F S500x1 .f32 := Host.absf main_arg18
  let main_cst_34 : FVec F S_ .f32 := constant S_ .f32 0x7F800000#32
  let main_v90 : FVec F S500x1 .f32 := broadcastInDim S500x1 ![] bcast_S_S500x1 main_cst_34
  let main_v91 : IVec S500x1 1 := cmpf .olt main_v89 main_v90
  let main_c_35 : IVec S_ 1 := constantI S_ 1 1#1
  let main_v92 : IVec S_ 1 := (fun x v => Host.reduce IntOp.andi x v reducesTo_S500x1_S_d0_1 h_S_) main_v91 main_c_35
  let main_v93 : IVec S_ 1 := andi main_v88 main_v92
  let main_v94 : FVec F S500x1 .f32 := Host.absf main_arg19
  let main_cst_36 : FVec F S_ .f32 := constant S_ .f32 0x7F800000#32
  let main_v95 : FVec F S500x1 .f32 := broadcastInDim S500x1 ![] bcast_S_S500x1 main_cst_36
  let main_v96 : IVec S500x1 1 := cmpf .olt main_v94 main_v95
  let main_c_37 : IVec S_ 1 := constantI S_ 1 1#1
  let main_v97 : IVec S_ 1 := (fun x v => Host.reduce IntOp.andi x v reducesTo_S500x1_S_d0_1 h_S_) main_v96 main_c_37
  let main_v98 : IVec S_ 1 := andi main_v93 main_v97
  let main_v99 : FVec F S100000x1 .f32 := Host.absf main_arg20
  let main_cst_38 : FVec F S_ .f32 := constant S_ .f32 0x7F800000#32
  let main_v100 : FVec F S100000x1 .f32 := broadcastInDim S100000x1 ![] bcast_S_S100000x1 main_cst_38
  let main_v101 : IVec S100000x1 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_v98 main_v101 main_c_39

def fn_part4 {F : FTy → Type} [FloatOps F] (main_arg14 : FVec F S200000x768 .f32) (main_arg15 : FVec F S200000x768 .f32) (main_arg16 : FVec F S300000x64 .f32) (main_arg17 : FVec F S300000x64 .f32) (main_arg18 : FVec F S500x1 .f32) (main_arg19 : FVec F S500x1 .f32) (main_arg20 : FVec F S100000x1 .f32) (main_arg21 : FVec F S100000x1 .f32) (main_arg22 : FVec F S100000x1 .f32) (main_arg23 : FVec F S100000x1 .f32) (main_arg24 : FVec F S100000x1 .f32) (main_arg25 : FVec F S100000x1 .f32) (main_arg26 : FVec F S50000x1 .f32) (main_arg27 : FVec F S50000x1 .f32) (main_arg28 : FVec F S50000x1 .f32) (main_arg29 : FVec F S50000x1 .f32) (main_arg30 : FVec F S50000x1 .f32) (main_arg31 : FVec F S50000x1 .f32) (main_v63 : IVec S_ 1) (main_v67 : IVec S_ 1) : IVec S_ 1 :=
  let main_v68 : IVec S_ 1 := andi main_v63 main_v67
  let main_v69 : FVec F S200000x768 .f32 := Host.absf main_arg14
  let main_cst_26 : FVec F S_ .f32 := constant S_ .f32 0x7F800000#32
  let main_v70 : FVec F S200000x768 .f32 := broadcastInDim S200000x768 ![] bcast_S_S200000x768 main_cst_26
  let main_v71 : IVec S200000x768 1 := cmpf .olt main_v69 main_v70
  let main_c_27 : IVec S_ 1 := constantI S_ 1 1#1
  let main_v72 : IVec S_ 1 := (fun x v => Host.reduce IntOp.andi x v reducesTo_S200000x768_S_d0_1 h_S_) main_v71 main_c_27
  let main_v73 : IVec S_ 1 := andi main_v68 main_v72
  let main_v74 : FVec F S200000x768 .f32 := Host.absf main_arg15
  let main_cst_28 : FVec F S_ .f32 := constant S_ .f32 0x7F800000#32
  let main_v75 : FVec F S200000x768 .f32 := broadcastInDim S200000x768 ![] bcast_S_S200000x768 main_cst_28
  let main_v76 : IVec S200000x768 1 := cmpf .olt main_v74 main_v75
  let main_c_29 : IVec S_ 1 := constantI S_ 1 1#1
  let main_v77 : IVec S_ 1 := (fun x v => Host.reduce IntOp.andi x v reducesTo_S200000x768_S_d0_1 h_S_) main_v76 main_c_29
  let main_v78 : IVec S_ 1 := andi main_v73 main_v77
  let main_v79 : FVec F S300000x64 .f32 := Host.absf main_arg16
  let main_cst_30 : FVec F S_ .f32 := constant S_ .f32 0x7F800000#32
  let main_v80 : FVec F S300000x64 .f32 := broadcastInDim S300000x64 ![] bcast_S_S300000x64 main_cst_30
  let main_v81 : IVec S300000x64 1 := cmpf .olt main_v79 main_v80
  let main_c_31 : IVec S_ 1 := constantI S_ 1 1#1
  let main_v82 : IVec S_ 1 := (fun x v => Host.reduce IntOp.andi x v reducesTo_S300000x64_S_d0_1 h_S_) main_v81 main_c_31
  let main_v83 : IVec S_ 1 := andi main_v78 main_v82
  let main_v84 : FVec F S300000x64 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_v83 main_v84 main_cst_32

def fn_part3 {F : FTy → Type} [FloatOps F] (main_arg11 : FVec F S64x64 .f32) (main_arg12 : FVec F S5x256 .f32) (main_arg13 : FVec F S5x256 .f32) (main_arg14 : FVec F S200000x768 .f32) (main_arg15 : FVec F S200000x768 .f32) (main_arg16 : FVec F S300000x64 .f32) (main_arg17 : FVec F S300000x64 .f32) (main_arg18 : FVec F S500x1 .f32) (main_arg19 : FVec F S500x1 .f32) (main_arg20 : FVec F S100000x1 .f32) (main_arg21 : FVec F S100000x1 .f32) (main_arg22 : FVec F S100000x1 .f32) (main_arg23 : FVec F S100000x1 .f32) (main_arg24 : FVec F S100000x1 .f32) (main_arg25 : FVec F S100000x1 .f32) (main_arg26 : FVec F S50000x1 .f32) (main_arg27 : FVec F S50000x1 .f32) (main_arg28 : FVec F S50000x1 .f32) (main_arg29 : FVec F S50000x1 .f32) (main_arg30 : FVec F S50000x1 .f32) (main_arg31 : FVec F S50000x1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64x64 .f32 := Host.absf main_arg11
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S5x256 .f32 := Host.absf main_arg12
  let main_cst_22 : FVec F S_ .f32 := constant S_ .f32 0x7F800000#32
  let main_v60 : FVec F S5x256 .f32 := broadcastInDim S5x256 ![] bcast_S_S5x256 main_cst_22
  let main_v61 : IVec S5x256 1 := cmpf .olt main_v59 main_v60
  let main_c_23 : IVec S_ 1 := constantI S_ 1 1#1
  let main_v62 : IVec S_ 1 := (fun x v => Host.reduce IntOp.andi x v reducesTo_S5x256_S_d0_1 h_S_) main_v61 main_c_23
  let main_v63 : IVec S_ 1 := andi main_v58 main_v62
  let main_v64 : FVec F S5x256 .f32 := Host.absf main_arg13
  let main_cst_24 : FVec F S_ .f32 := constant S_ .f32 0x7F800000#32
  let main_v65 : FVec F S5x256 .f32 := broadcastInDim S5x256 ![] bcast_S_S5x256 main_cst_24
  let main_v66 : IVec S5x256 1 := cmpf .olt main_v64 main_v65
  let main_c_25 : IVec S_ 1 := constantI S_ 1 1#1
  let main_v67 : IVec S_ 1 := (fun x v => Host.reduce IntOp.andi x v reducesTo_S5x256_S_d0_1 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_v63 main_v67

def fn_part2 {F : FTy → Type} [FloatOps F] (main_arg7 : FVec F S64x64 .f32) (main_arg8 : FVec F S64x64 .f32) (main_arg9 : FVec F S64x64 .f32) (main_arg10 : FVec F S64x64 .f32) (main_arg11 : FVec F S64x64 .f32) (main_arg12 : FVec F S5x256 .f32) (main_arg13 : FVec F S5x256 .f32) (main_arg14 : FVec F S200000x768 .f32) (main_arg15 : FVec F S200000x768 .f32) (main_arg16 : FVec F S300000x64 .f32) (main_arg17 : FVec F S300000x64 .f32) (main_arg18 : FVec F S500x1 .f32) (main_arg19 : FVec F S500x1 .f32) (main_arg20 : FVec F S100000x1 .f32) (main_arg21 : FVec F S100000x1 .f32) (main_arg22 : FVec F S100000x1 .f32) (main_arg23 : FVec F S100000x1 .f32) (main_arg24 : FVec F S100000x1 .f32) (main_arg25 : FVec F S100000x1 .f32) (main_arg26 : FVec F S50000x1 .f32) (main_arg27 : FVec F S50000x1 .f32) (main_arg28 : FVec F S50000x1 .f32) (main_arg29 : FVec F S50000x1 .f32) (main_arg30 : FVec F S50000x1 .f32) (main_arg31 : FVec F S50000x1 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v48 main_v49 main_v50

def fn_part1 {F : FTy → Type} [FloatOps F] (main_arg4 : FVec F S768x64 .f32) (main_arg5 : FVec F S768x64 .f32) (main_arg6 : FVec F S64x64 .f32) (main_arg7 : FVec F S64x64 .f32) (main_arg8 : FVec F S64x64 .f32) (main_arg9 : FVec F S64x64 .f32) (main_arg10 : FVec F S64x64 .f32) (main_arg11 : FVec F S64x64 .f32) (main_arg12 : FVec F S5x256 .f32) (main_arg13 : FVec F S5x256 .f32) (main_arg14 : FVec F S200000x768 .f32) (main_arg15 : FVec F S200000x768 .f32) (main_arg16 : FVec F S300000x64 .f32) (main_arg17 : FVec F S300000x64 .f32) (main_arg18 : FVec F S500x1 .f32) (main_arg19 : FVec F S500x1 .f32) (main_arg20 : FVec F S100000x1 .f32) (main_arg21 : FVec F S100000x1 .f32) (main_arg22 : FVec F S100000x1 .f32) (main_arg23 : FVec F S100000x1 .f32) (main_arg24 : FVec F S100000x1 .f32) (main_arg25 : FVec F S100000x1 .f32) (main_arg26 : FVec F S50000x1 .f32) (main_arg27 : FVec F S50000x1 .f32) (main_arg28 : FVec F S50000x1 .f32) (main_arg29 : FVec F S50000x1 .f32) (main_arg30 : FVec F S50000x1 .f32) (main_arg31 : FVec F S50000x1 .f32) (main_v13 : IVec S_ 1) (main_v16 : IVec S50x64 1) : IVec S_ 1 :=
  let main_c_5 : IVec S_ 1 := constantI S_ 1 1#1
  let main_v17 : IVec S_ 1 := (fun x v => Host.reduce IntOp.andi x v reducesTo_S50x64_S_d0_1 h_S_) main_v16 main_c_5
  let main_v18 : IVec S_ 1 := andi main_v13 main_v17
  let main_v19 : FVec F S768x64 .f32 := Host.absf main_arg4
  let main_cst_6 : FVec F S_ .f32 := constant S_ .f32 0x7F800000#32
  let main_v20 : FVec F S768x64 .f32 := broadcastInDim S768x64 ![] bcast_S_S768x64 main_cst_6
  let main_v21 : IVec S768x64 1 := cmpf .olt main_v19 main_v20
  let main_c_7 : IVec S_ 1 := constantI S_ 1 1#1
  let main_v22 : IVec S_ 1 := (fun x v => Host.reduce IntOp.andi x v reducesTo_S768x64_S_d0_1 h_S_) main_v21 main_c_7
  let main_v23 : IVec S_ 1 := andi main_v18 main_v22
  let main_v24 : FVec F S768x64 .f32 := Host.absf main_arg5
  let main_cst_8 : FVec F S_ .f32 := constant S_ .f32 0x7F800000#32
  let main_v25 : FVec F S768x64 .f32 := broadcastInDim S768x64 ![] bcast_S_S768x64 main_cst_8
  let main_v26 : IVec S768x64 1 := cmpf .olt main_v24 main_v25
  let main_c_9 : IVec S_ 1 := constantI S_ 1 1#1
  let main_v27 : IVec S_ 1 := (fun x v => Host.reduce IntOp.andi x v reducesTo_S768x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v33

def fn {F : FTy → Type} [FloatOps F] (main_arg0 : FVec F S150000x64 .f32) (main_arg1 : FVec F S150000x64 .f32) (main_arg2 : FVec F S500x64 .f32) (main_arg3 : FVec F S50x64 .f32) (main_arg4 : FVec F S768x64 .f32) (main_arg5 : FVec F S768x64 .f32) (main_arg6 : FVec F S64x64 .f32) (main_arg7 : FVec F S64x64 .f32) (main_arg8 : FVec F S64x64 .f32) (main_arg9 : FVec F S64x64 .f32) (main_arg10 : FVec F S64x64 .f32) (main_arg11 : FVec F S64x64 .f32) (main_arg12 : FVec F S5x256 .f32) (main_arg13 : FVec F S5x256 .f32) (main_arg14 : FVec F S200000x768 .f32) (main_arg15 : FVec F S200000x768 .f32) (main_arg16 : FVec F S300000x64 .f32) (main_arg17 : FVec F S300000x64 .f32) (main_arg18 : FVec F S500x1 .f32) (main_arg19 : FVec F S500x1 .f32) (main_arg20 : FVec F S100000x1 .f32) (main_arg21 : FVec F S100000x1 .f32) (main_arg22 : FVec F S100000x1 .f32) (main_arg23 : FVec F S100000x1 .f32) (main_arg24 : FVec F S100000x1 .f32) (main_arg25 : FVec F S100000x1 .f32) (main_arg26 : FVec F S50000x1 .f32) (main_arg27 : FVec F S50000x1 .f32) (main_arg28 : FVec F S50000x1 .f32) (main_arg29 : FVec F S50000x1 .f32) (main_arg30 : FVec F S50000x1 .f32) (main_arg31 : FVec F S50000x1 .f32) (main_arg32 : IVec S200000 32) (main_arg33 : IVec S200000 32) (main_arg34 : IVec S200000 32) (main_arg35 : IVec S200000 32) (main_arg36 : IVec S200000 32) (main_arg37 : IVec S200000 32) (main_arg38 : IVec S300000 32) (main_arg39 : IVec S300000 32) (main_arg40 : IVec S300000 32) (main_arg41 : IVec S300000 32) (main_arg42 : IVec S500000 32) (main_arg43 : IVec S500000 32) (main_arg44 : IVec S500000x3 32) (main_arg45 : IVec S500000 32) (main_arg46 : IVec S500000 32) (main_arg47 : IVec S500000x3 32) (main_arg48 : IVec S300000 32) (main_arg49 : IVec S300000 32) (main_arg50 : IVec S300000 32) (main_arg51 : IVec S300000 32) (main_arg52 : IVec S300000 32) (main_arg53 : IVec S300000 32) : IVec S_ 1 :=
  let main_v0 : FVec F S150000x64 .f32 := Host.absf main_arg0
  let main_cst : FVec F S_ .f32 := constant S_ .f32 0x7F800000#32
  let main_v1 : FVec F S150000x64 .f32 := broadcastInDim S150000x64 ![] bcast_S_S150000x64 main_cst
  let main_v2 : IVec S150000x64 1 := cmpf .olt main_v0 main_v1
  let main_c : IVec S_ 1 := constantI S_ 1 1#1
  let main_v3 : IVec S_ 1 := (fun x v => Host.reduce IntOp.andi x v reducesTo_S150000x64_S_d0_1 h_S_) main_v2 main_c
  let main_v4 : FVec F S150000x64 .f32 := Host.absf main_arg1
  let main_cst_0 : FVec F S_ .f32 := constant S_ .f32 0x7F800000#32
  let main_v5 : FVec F S150000x64 .f32 := broadcastInDim S150000x64 ![] bcast_S_S150000x64 main_cst_0
  let main_v6 : IVec S150000x64 1 := cmpf .olt main_v4 main_v5
  let main_c_1 : IVec S_ 1 := constantI S_ 1 1#1
  let main_v7 : IVec S_ 1 := (fun x v => Host.reduce IntOp.andi x v reducesTo_S150000x64_S_d0_1 h_S_) main_v6 main_c_1
  let main_v8 : IVec S_ 1 := andi main_v3 main_v7
  let main_v9 : FVec F S500x64 .f32 := Host.absf main_arg2
  let main_cst_2 : FVec F S_ .f32 := constant S_ .f32 0x7F800000#32
  let main_v10 : FVec F S500x64 .f32 := broadcastInDim S500x64 ![] bcast_S_S500x64 main_cst_2
  let main_v11 : IVec S500x64 1 := cmpf .olt main_v9 main_v10
  let main_c_3 : IVec S_ 1 := constantI S_ 1 1#1
  let main_v12 : IVec S_ 1 := (fun x v => Host.reduce IntOp.andi x v reducesTo_S500x64_S_d0_1 h_S_) main_v11 main_c_3
  let main_v13 : IVec S_ 1 := andi main_v8 main_v12
  let main_v14 : FVec F S50x64 .f32 := Host.absf main_arg3
  let main_cst_4 : FVec F S_ .f32 := constant S_ .f32 0x7F800000#32
  let main_v15 : FVec F S50x64 .f32 := broadcastInDim S50x64 ![] bcast_S_S50x64 main_cst_4
  let main_v16 : IVec S50x64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v13 main_v16
-- ==== Kernel.lean ====
abbrev S150000x64 : Shape := ⟨2, ![150000, 64]⟩
abbrev S500x64 : Shape := ⟨2, ![500, 64]⟩
abbrev S50x64 : Shape := ⟨2, ![50, 64]⟩
abbrev S768x64 : Shape := ⟨2, ![768, 64]⟩
abbrev S64x64 : Shape := ⟨2, ![64, 64]⟩
abbrev S5x256 : Shape := ⟨2, ![5, 256]⟩
abbrev S200000x768 : Shape := ⟨2, ![200000, 768]⟩
abbrev S300000x64 : Shape := ⟨2, ![300000, 64]⟩
abbrev S500x1 : Shape := ⟨2, ![500, 1]⟩
abbrev S100000x1 : Shape := ⟨2, ![100000, 1]⟩
abbrev S50000x1 : Shape := ⟨2, ![50000, 1]⟩
abbrev S200000 : Shape := ⟨1, ![200000]⟩
abbrev S300000 : Shape := ⟨1, ![300000]⟩
abbrev S500000 : Shape := ⟨1, ![500000]⟩
abbrev S500000x3 : Shape := ⟨2, ![500000, 3]⟩
abbrev S100000x64 : Shape := ⟨2, ![100000, 64]⟩
abbrev S50000x64 : Shape := ⟨2, ![50000, 64]⟩
abbrev S3000x64 : Shape := ⟨2, ![3000, 64]⟩
abbrev S_ : Shape := ⟨0, ![]⟩
abbrev S300000x1 : Shape := ⟨2, ![300000, 1]⟩
abbrev S500000x1 : Shape := ⟨2, ![500000, 1]⟩
abbrev S500000x64 : Shape := ⟨2, ![500000, 64]⟩
abbrev S100000x192 : Shape := ⟨2, ![100000, 192]⟩
abbrev S50000x192 : Shape := ⟨2, ![50000, 192]⟩
abbrev S200000x64 : Shape := ⟨2, ![200000, 64]⟩
abbrev S2000x768 : Shape := ⟨2, ![2000, 768]⟩
abbrev S2000x64 : Shape := ⟨2, ![2000, 64]⟩
abbrev S200000x1 : Shape := ⟨2, ![200000, 1]⟩
abbrev S200000x192 : Shape := ⟨2, ![200000, 192]⟩
abbrev S200000x256 : Shape := ⟨2, ![200000, 256]⟩
abbrev S100000x256 : Shape := ⟨2, ![100000, 256]⟩
abbrev S50000x256 : Shape := ⟨2, ![50000, 256]⟩
abbrev S150000x256 : Shape := ⟨2, ![150000, 256]⟩

abbrev nBuf : Space → Nat
  | .hbm => 425
  | .vmem => 20
  | .smem => 0
  | _ => 0

abbrev hbmTy0_0 (i : Nat) : BufTy := match i % 128 with
  | 0 => ⟨S150000x64, .f32⟩
  | 1 => ⟨S150000x64, .f32⟩
  | 2 => ⟨S500x64, .f32⟩
  | 3 => ⟨S50x64, .f32⟩
  | 4 => ⟨S768x64, .f32⟩
  | 5 => ⟨S768x64, .f32⟩
  | 6 => ⟨S64x64, .f32⟩
  | 7 => ⟨S64x64, .f32⟩
  | 8 => ⟨S64x64, .f32⟩
  | 9 => ⟨S64x64, .f32⟩
  | 10 => ⟨S64x64, .f32⟩
  | 11 => ⟨S64x64, .f32⟩
  | 12 => ⟨S5x256, .f32⟩
  | 13 => ⟨S5x256, .f32⟩
  | 14 => ⟨S200000x768, .f32⟩
  | 15 => ⟨S200000x768, .f32⟩
  | 16 => ⟨S300000x64, .f32⟩
  | 17 => ⟨S300000x64, .f32⟩
  | 18 => ⟨S500x1, .f32⟩
  | 19 => ⟨S500x1, .f32⟩
  | 20 => ⟨S100000x1, .f32⟩
  | 21 => ⟨S100000x1, .f32⟩
  | 22 => ⟨S100000x1, .f32⟩
  | 23 => ⟨S100000x1, .f32⟩
  | 24 => ⟨S100000x1, .f32⟩
  | 25 => ⟨S100000x1, .f32⟩
  | 26 => ⟨S50000x1, .f32⟩
  | 27 => ⟨S50000x1, .f32⟩
  | 28 => ⟨S50000x1, .f32⟩
  | 29 => ⟨S50000x1, .f32⟩
  | 30 => ⟨S50000x1, .f32⟩
  | 31 => ⟨S50000x1, .f32⟩
  | 32 => ⟨S200000, .i32⟩
  | 33 => ⟨S200000, .i32⟩
  | 34 => ⟨S200000, .i32⟩
  | 35 => ⟨S200000, .i32⟩
  | 36 => ⟨S200000, .i32⟩
  | 37 => ⟨S200000, .i32⟩
  | 38 => ⟨S300000, .i32⟩
  | 39 => ⟨S300000, .i32⟩
  | 40 => ⟨S300000, .i32⟩
  | 41 => ⟨S300000, .i32⟩
  | 42 => ⟨S500000, .i32⟩
  | 43 => ⟨S500000, .i32⟩
  | 44 => ⟨S500000x3, .i32⟩
  | 45 => ⟨S500000, .i32⟩
  | 46 => ⟨S500000, .i32⟩
  | 47 => ⟨S500000x3, .i32⟩
  | 48 => ⟨S300000, .i32⟩
  | 49 => ⟨S300000, .i32⟩
  | 50 => ⟨S300000, .i32⟩
  | 51 => ⟨S300000, .i32⟩
  | 52 => ⟨S300000, .i32⟩
  | 53 => ⟨S300000, .i32⟩
  | 54 => ⟨S100000x64, .f32⟩
  | 55 => ⟨S50000x64, .f32⟩
  | 56 => ⟨S100000x64, .f32⟩
  | 57 => ⟨S50000x64, .f32⟩
  | 58 => ⟨S500x64, .f32⟩
  | 59 => ⟨S500x64, .f32⟩
  | 60 => ⟨S300000x64, .f32⟩
  | 61 => ⟨S300000x64, .f32⟩
  | 62 => ⟨S_, .i32⟩
  | 63 => ⟨S300000, .i32⟩
  | 64 => ⟨S300000, .i1⟩
  | 65 => ⟨S_, .i32⟩
  | 66 => ⟨S300000, .i32⟩
  | 67 => ⟨S300000, .i32⟩
  | 68 => ⟨S300000, .i32⟩
  | 69 => ⟨S300000x1, .i32⟩
  | 70 => ⟨S300000x64, .f32⟩
  | 71 => ⟨S300000x64, .f32⟩
  | 72 => ⟨S_, .i32⟩
  | 73 => ⟨S300000, .i32⟩
  | 74 => ⟨S300000, .i1⟩
  | 75 => ⟨S_, .i32⟩
  | 76 => ⟨S300000, .i32⟩
  | 77 => ⟨S300000, .i32⟩
  | 78 => ⟨S300000, .i32⟩
  | 79 => ⟨S300000x1, .i32⟩
  | 80 => ⟨S300000x1, .f32⟩
  | 81 => ⟨S300000x64, .f32⟩
  | 82 => ⟨S300000x64, .f32⟩
  | 83 => ⟨S_, .f32⟩
  | 84 => ⟨S100000x64, .f32⟩
  | 85 => ⟨S300000x1, .i32⟩
  | 86 => ⟨S100000x64, .f32⟩
  | 87 => ⟨S_, .i32⟩
  | 88 => ⟨S300000, .i32⟩
  | 89 => ⟨S300000, .i1⟩
  | 90 => ⟨S_, .i32⟩
  | 91 => ⟨S300000, .i32⟩
  | 92 => ⟨S300000, .i32⟩
  | 93 => ⟨S300000, .i32⟩
  | 94 => ⟨S300000x1, .i32⟩
  | 95 => ⟨S300000x64, .f32⟩
  | 96 => ⟨S300000x64, .f32⟩
  | 97 => ⟨S_, .i32⟩
  | 98 => ⟨S300000, .i32⟩
  | 99 => ⟨S300000, .i1⟩
  | 100 => ⟨S_, .i32⟩
  | 101 => ⟨S300000, .i32⟩
  | 102 => ⟨S300000, .i32⟩
  | 103 => ⟨S300000, .i32⟩
  | 104 => ⟨S300000x1, .i32⟩
  | 105 => ⟨S300000x1, .f32⟩
  | 106 => ⟨S300000x64, .f32⟩
  | 107 => ⟨S300000x64, .f32⟩
  | 108 => ⟨S_, .f32⟩
  | 109 => ⟨S50000x64, .f32⟩
  | 110 => ⟨S300000x1, .i32⟩
  | 111 => ⟨S50000x64, .f32⟩
  | 112 => ⟨S50x64, .f32⟩
  | 113 => ⟨S50x64, .f32⟩
  | 114 => ⟨S500000x1, .i32⟩
  | 115 => ⟨S500000, .i32⟩
  | 116 => ⟨S_, .i32⟩
  | 117 => ⟨S500000, .i32⟩
  | 118 => ⟨S500000, .i1⟩
  | 119 => ⟨S_, .i32⟩
  | 120 => ⟨S500000, .i32⟩
  | 121 => ⟨S500000, .i32⟩
  | 122 => ⟨S500000, .i32⟩
  | 123 => ⟨S500000x1, .i32⟩
  | 124 => ⟨S500000x64, .f32⟩
  | 125 => ⟨S500000x1, .i32⟩
  | 126 => ⟨S500000, .i32⟩
  | 127 => ⟨S_, .i32⟩
  | _ => ⟨S150000x64, .f32⟩

abbrev hbmTy0_1 (i : Nat) : BufTy := match i % 128 with
  | 0 => ⟨S500000, .i32⟩
  | 1 => ⟨S500000, .i1⟩
  | 2 => ⟨S_, .i32⟩
  | 3 => ⟨S500000, .i32⟩
  | 4 => ⟨S500000, .i32⟩
  | 5 => ⟨S500000, .i32⟩
  | 6 => ⟨S500000x1, .i32⟩
  | 7 => ⟨S500000x64, .f32⟩
  | 8 => ⟨S500000x64, .f32⟩
  | 9 => ⟨S500000x64, .f32⟩
  | 10 => ⟨S500000x64, .f32⟩
  | 11 => ⟨S_, .f32⟩
  | 12 => ⟨S500000x64, .f32⟩
  | 13 => ⟨S500000x64, .f32⟩
  | 14 => ⟨S_, .f32⟩
  | 15 => ⟨S500000x64, .f32⟩
  | 16 => ⟨S500000x64, .f32⟩
  | 17 => ⟨S_, .i32⟩
  | 18 => ⟨S500000, .i32⟩
  | 19 => ⟨S500000, .i1⟩
  | 20 => ⟨S_, .i32⟩
  | 21 => ⟨S500000, .i32⟩
  | 22 => ⟨S500000, .i32⟩
  | 23 => ⟨S500000, .i32⟩
  | 24 => ⟨S500000x1, .i32⟩
  | 25 => ⟨S500000x64, .f32⟩
  | 26 => ⟨S500000x1, .i32⟩
  | 27 => ⟨S500000, .i32⟩
  | 28 => ⟨S_, .i32⟩
  | 29 => ⟨S500000, .i32⟩
  | 30 => ⟨S500000, .i1⟩
  | 31 => ⟨S_, .i32⟩
  | 32 => ⟨S500000, .i32⟩
  | 33 => ⟨S500000, .i32⟩
  | 34 => ⟨S500000, .i32⟩
  | 35 => ⟨S500000x1, .i32⟩
  | 36 => ⟨S500000x64, .f32⟩
  | 37 => ⟨S500000x64, .f32⟩
  | 38 => ⟨S500000x64, .f32⟩
  | 39 => ⟨S_, .i32⟩
  | 40 => ⟨S500000, .i32⟩
  | 41 => ⟨S500000, .i1⟩
  | 42 => ⟨S_, .i32⟩
  | 43 => ⟨S500000, .i32⟩
  | 44 => ⟨S500000, .i32⟩
  | 45 => ⟨S500000, .i32⟩
  | 46 => ⟨S500000x1, .i32⟩
  | 47 => ⟨S500000x1, .f32⟩
  | 48 => ⟨S500000x64, .f32⟩
  | 49 => ⟨S500000x64, .f32⟩
  | 50 => ⟨S_, .f32⟩
  | 51 => ⟨S100000x64, .f32⟩
  | 52 => ⟨S500000x1, .i32⟩
  | 53 => ⟨S100000x64, .f32⟩
  | 54 => ⟨S500000x1, .i32⟩
  | 55 => ⟨S500000, .i32⟩
  | 56 => ⟨S_, .i32⟩
  | 57 => ⟨S500000, .i32⟩
  | 58 => ⟨S500000, .i1⟩
  | 59 => ⟨S_, .i32⟩
  | 60 => ⟨S500000, .i32⟩
  | 61 => ⟨S500000, .i32⟩
  | 62 => ⟨S500000, .i32⟩
  | 63 => ⟨S500000x1, .i32⟩
  | 64 => ⟨S500000x64, .f32⟩
  | 65 => ⟨S500000x1, .i32⟩
  | 66 => ⟨S500000, .i32⟩
  | 67 => ⟨S_, .i32⟩
  | 68 => ⟨S500000, .i32⟩
  | 69 => ⟨S500000, .i1⟩
  | 70 => ⟨S_, .i32⟩
  | 71 => ⟨S500000, .i32⟩
  | 72 => ⟨S500000, .i32⟩
  | 73 => ⟨S500000, .i32⟩
  | 74 => ⟨S500000x1, .i32⟩
  | 75 => ⟨S500000x64, .f32⟩
  | 76 => ⟨S500000x64, .f32⟩
  | 77 => ⟨S500000x64, .f32⟩
  | 78 => ⟨S500000x64, .f32⟩
  | 79 => ⟨S_, .f32⟩
  | 80 => ⟨S500000x64, .f32⟩
  | 81 => ⟨S500000x64, .f32⟩
  | 82 => ⟨S_, .f32⟩
  | 83 => ⟨S500000x64, .f32⟩
  | 84 => ⟨S500000x64, .f32⟩
  | 85 => ⟨S_, .i32⟩
  | 86 => ⟨S500000, .i32⟩
  | 87 => ⟨S500000, .i1⟩
  | 88 => ⟨S_, .i32⟩
  | 89 => ⟨S500000, .i32⟩
  | 90 => ⟨S500000, .i32⟩
  | 91 => ⟨S500000, .i32⟩
  | 92 => ⟨S500000x1, .i32⟩
  | 93 => ⟨S500000x64, .f32⟩
  | 94 => ⟨S500000x1, .i32⟩
  | 95 => ⟨S500000, .i32⟩
  | 96 => ⟨S_, .i32⟩
  | 97 => ⟨S500000, .i32⟩
  | 98 => ⟨S500000, .i1⟩
  | 99 => ⟨S_, .i32⟩
  | 100 => ⟨S500000, .i32⟩
  | 101 => ⟨S500000, .i32⟩
  | 102 => ⟨S500000, .i32⟩
  | 103 => ⟨S500000x1, .i32⟩
  | 104 => ⟨S500000x64, .f32⟩
  | 105 => ⟨S500000x64, .f32⟩
  | 106 => ⟨S500000x64, .f32⟩
  | 107 => ⟨S_, .i32⟩
  | 108 => ⟨S500000, .i32⟩
  | 109 => ⟨S500000, .i1⟩
  | 110 => ⟨S_, .i32⟩
  | 111 => ⟨S500000, .i32⟩
  | 112 => ⟨S500000, .i32⟩
  | 113 => ⟨S500000, .i32⟩
  | 114 => ⟨S500000x1, .i32⟩
  | 115 => ⟨S500000x1, .f32⟩
  | 116 => ⟨S500000x64, .f32⟩
  | 117 => ⟨S500000x64, .f32⟩
  | 118 => ⟨S_, .f32⟩
  | 119 => ⟨S50000x64, .f32⟩
  | 120 => ⟨S500000x1, .i32⟩
  | 121 => ⟨S50000x64, .f32⟩
  | 122 => ⟨S_, .i32⟩
  | 123 => ⟨S300000, .i32⟩
  | 124 => ⟨S300000, .i1⟩
  | 125 => ⟨S_, .i32⟩
  | 126 => ⟨S300000, .i32⟩
  | 127 => ⟨S300000, .i32⟩
  | _ => ⟨S150000x64, .f32⟩

abbrev hbmTy0_2 (i : Nat) : BufTy := match i % 128 with
  | 0 => ⟨S300000, .i32⟩
  | 1 => ⟨S300000x1, .i32⟩
  | 2 => ⟨S300000x64, .f32⟩
  | 3 => ⟨S_, .i32⟩
  | 4 => ⟨S300000, .i32⟩
  | 5 => ⟨S300000, .i1⟩
  | 6 => ⟨S_, .i32⟩
  | 7 => ⟨S300000, .i32⟩
  | 8 => ⟨S300000, .i32⟩
  | 9 => ⟨S300000, .i32⟩
  | 10 => ⟨S300000x1, .i32⟩
  | 11 => ⟨S300000x64, .f32⟩
  | 12 => ⟨S300000x64, .f32⟩
  | 13 => ⟨S_, .i32⟩
  | 14 => ⟨S300000, .i32⟩
  | 15 => ⟨S300000, .i1⟩
  | 16 => ⟨S_, .i32⟩
  | 17 => ⟨S300000, .i32⟩
  | 18 => ⟨S300000, .i32⟩
  | 19 => ⟨S300000, .i32⟩
  | 20 => ⟨S300000x1, .i32⟩
  | 21 => ⟨S300000x1, .f32⟩
  | 22 => ⟨S300000x64, .f32⟩
  | 23 => ⟨S300000x64, .f32⟩
  | 24 => ⟨S_, .f32⟩
  | 25 => ⟨S50000x64, .f32⟩
  | 26 => ⟨S300000x1, .i32⟩
  | 27 => ⟨S50000x64, .f32⟩
  | 28 => ⟨S_, .i32⟩
  | 29 => ⟨S300000, .i32⟩
  | 30 => ⟨S300000, .i1⟩
  | 31 => ⟨S_, .i32⟩
  | 32 => ⟨S300000, .i32⟩
  | 33 => ⟨S300000, .i32⟩
  | 34 => ⟨S300000, .i32⟩
  | 35 => ⟨S300000x1, .i32⟩
  | 36 => ⟨S300000x64, .f32⟩
  | 37 => ⟨S_, .i32⟩
  | 38 => ⟨S300000, .i32⟩
  | 39 => ⟨S300000, .i1⟩
  | 40 => ⟨S_, .i32⟩
  | 41 => ⟨S300000, .i32⟩
  | 42 => ⟨S300000, .i32⟩
  | 43 => ⟨S300000, .i32⟩
  | 44 => ⟨S300000x1, .i32⟩
  | 45 => ⟨S300000x64, .f32⟩
  | 46 => ⟨S300000x64, .f32⟩
  | 47 => ⟨S_, .i32⟩
  | 48 => ⟨S300000, .i32⟩
  | 49 => ⟨S300000, .i1⟩
  | 50 => ⟨S_, .i32⟩
  | 51 => ⟨S300000, .i32⟩
  | 52 => ⟨S300000, .i32⟩
  | 53 => ⟨S300000, .i32⟩
  | 54 => ⟨S300000x1, .i32⟩
  | 55 => ⟨S300000x1, .f32⟩
  | 56 => ⟨S300000x64, .f32⟩
  | 57 => ⟨S300000x64, .f32⟩
  | 58 => ⟨S_, .f32⟩
  | 59 => ⟨S100000x64, .f32⟩
  | 60 => ⟨S300000x1, .i32⟩
  | 61 => ⟨S100000x64, .f32⟩
  | 62 => ⟨S100000x64, .f32⟩
  | 63 => ⟨S100000x64, .f32⟩
  | 64 => ⟨S100000x64, .f32⟩
  | 65 => ⟨S100000x64, .f32⟩
  | 66 => ⟨S100000x64, .f32⟩
  | 67 => ⟨S100000x64, .f32⟩
  | 68 => ⟨S100000x192, .f32⟩
  | 69 => ⟨S50000x64, .f32⟩
  | 70 => ⟨S50000x64, .f32⟩
  | 71 => ⟨S50000x64, .f32⟩
  | 72 => ⟨S50000x64, .f32⟩
  | 73 => ⟨S50000x64, .f32⟩
  | 74 => ⟨S50000x64, .f32⟩
  | 75 => ⟨S50000x192, .f32⟩
  | 76 => ⟨S200000x64, .f32⟩
  | 77 => ⟨S_, .i32⟩
  | 78 => ⟨S200000, .i32⟩
  | 79 => ⟨S200000, .i1⟩
  | 80 => ⟨S_, .i32⟩
  | 81 => ⟨S200000, .i32⟩
  | 82 => ⟨S200000, .i32⟩
  | 83 => ⟨S200000, .i32⟩
  | 84 => ⟨S200000x1, .i32⟩
  | 85 => ⟨S200000x192, .f32⟩
  | 86 => ⟨S200000x256, .f32⟩
  | 87 => ⟨S_, .i32⟩
  | 88 => ⟨S200000, .i32⟩
  | 89 => ⟨S200000, .i1⟩
  | 90 => ⟨S_, .i32⟩
  | 91 => ⟨S200000, .i32⟩
  | 92 => ⟨S200000, .i32⟩
  | 93 => ⟨S200000, .i32⟩
  | 94 => ⟨S200000x1, .i32⟩
  | 95 => ⟨S200000x256, .f32⟩
  | 96 => ⟨S200000x256, .f32⟩
  | 97 => ⟨S200000x256, .f32⟩
  | 98 => ⟨S_, .f32⟩
  | 99 => ⟨S200000x256, .f32⟩
  | 100 => ⟨S200000x256, .f32⟩
  | 101 => ⟨S_, .f32⟩
  | 102 => ⟨S200000x256, .f32⟩
  | 103 => ⟨S200000x256, .f32⟩
  | 104 => ⟨S200000x256, .f32⟩
  | 105 => ⟨S_, .i32⟩
  | 106 => ⟨S200000, .i32⟩
  | 107 => ⟨S200000, .i1⟩
  | 108 => ⟨S_, .i32⟩
  | 109 => ⟨S200000, .i32⟩
  | 110 => ⟨S200000, .i32⟩
  | 111 => ⟨S200000, .i32⟩
  | 112 => ⟨S200000x1, .i32⟩
  | 113 => ⟨S200000x1, .f32⟩
  | 114 => ⟨S200000x256, .f32⟩
  | 115 => ⟨S200000x256, .f32⟩
  | 116 => ⟨S_, .f32⟩
  | 117 => ⟨S100000x256, .f32⟩
  | 118 => ⟨S200000x1, .i32⟩
  | 119 => ⟨S100000x256, .f32⟩
  | 120 => ⟨S100000x256, .f32⟩
  | 121 => ⟨S100000x256, .f32⟩
  | 122 => ⟨S200000x64, .f32⟩
  | 123 => ⟨S_, .i32⟩
  | 124 => ⟨S200000, .i32⟩
  | 125 => ⟨S200000, .i1⟩
  | 126 => ⟨S_, .i32⟩
  | 127 => ⟨S200000, .i32⟩
  | _ => ⟨S150000x64, .f32⟩

abbrev hbmTy0_3 (i : Nat) : BufTy := match i % 128 with
  | 0 => ⟨S200000, .i32⟩
  | 1 => ⟨S200000, .i32⟩
  | 2 => ⟨S200000x1, .i32⟩
  | 3 => ⟨S200000x192, .f32⟩
  | 4 => ⟨S200000x256, .f32⟩
  | 5 => ⟨S_, .i32⟩
  | 6 => ⟨S200000, .i32⟩
  | 7 => ⟨S200000, .i1⟩
  | 8 => ⟨S_, .i32⟩
  | 9 => ⟨S200000, .i32⟩
  | 10 => ⟨S200000, .i32⟩
  | 11 => ⟨S200000, .i32⟩
  | 12 => ⟨S200000x1, .i32⟩
  | 13 => ⟨S200000x256, .f32⟩
  | 14 => ⟨S200000x256, .f32⟩
  | 15 => ⟨S200000x256, .f32⟩
  | 16 => ⟨S_, .f32⟩
  | 17 => ⟨S200000x256, .f32⟩
  | 18 => ⟨S200000x256, .f32⟩
  | 19 => ⟨S_, .f32⟩
  | 20 => ⟨S200000x256, .f32⟩
  | 21 => ⟨S200000x256, .f32⟩
  | 22 => ⟨S200000x256, .f32⟩
  | 23 => ⟨S_, .i32⟩
  | 24 => ⟨S200000, .i32⟩
  | 25 => ⟨S200000, .i1⟩
  | 26 => ⟨S_, .i32⟩
  | 27 => ⟨S200000, .i32⟩
  | 28 => ⟨S200000, .i32⟩
  | 29 => ⟨S200000, .i32⟩
  | 30 => ⟨S200000x1, .i32⟩
  | 31 => ⟨S200000x1, .f32⟩
  | 32 => ⟨S200000x256, .f32⟩
  | 33 => ⟨S200000x256, .f32⟩
  | 34 => ⟨S_, .f32⟩
  | 35 => ⟨S50000x256, .f32⟩
  | 36 => ⟨S200000x1, .i32⟩
  | 37 => ⟨S50000x256, .f32⟩
  | 38 => ⟨S50000x256, .f32⟩
  | 39 => ⟨S50000x256, .f32⟩
  | 40 => ⟨S150000x256, .f32⟩
  | _ => ⟨S150000x64, .f32⟩

abbrev hbmTy (i : Nat) : BufTy := match i / 128 with
  | 0 => hbmTy0_0 i
  | 1 => hbmTy0_1 i
  | 2 => hbmTy0_2 i
  | 3 => hbmTy0_3 i
  | _ => ⟨S150000x64, .f32⟩

abbrev bufTy : (tb : Table) → Fin (tcTables nBuf tb) → BufTy
  | .hbm, ⟨i, _⟩ => hbmTy i
  | .local _ .vmem, ⟨0, _⟩ => ⟨S3000x64, .f32⟩
  | .local _ .vmem, ⟨1, _⟩ => ⟨S3000x64, .f32⟩
  | .local _ .vmem, ⟨2, _⟩ => ⟨S64x64, .f32⟩
  | .local _ .vmem, ⟨3, _⟩ => ⟨S3000x64, .f32⟩
  | .local _ .vmem, ⟨4, _⟩ => ⟨S3000x64, .f32⟩
  | .local _ .vmem, ⟨5, _⟩ => ⟨S3000x64, .f32⟩
  | .local _ .vmem, ⟨6, _⟩ => ⟨S3000x64, .f32⟩
  | .local _ .vmem, ⟨7, _⟩ => ⟨S64x64, .f32⟩
  | .local _ .vmem, ⟨8, _⟩ => ⟨S3000x64, .f32⟩
  | .local _ .vmem, ⟨9, _⟩ => ⟨S3000x64, .f32⟩
  | .local _ .vmem, ⟨10, _⟩ => ⟨S2000x768, .f32⟩
  | .local _ .vmem, ⟨11, _⟩ => ⟨S2000x768, .f32⟩
  | .local _ .vmem, ⟨12, _⟩ => ⟨S768x64, .f32⟩
  | .local _ .vmem, ⟨13, _⟩ => ⟨S2000x64, .f32⟩
  | .local _ .vmem, ⟨14, _⟩ => ⟨S2000x64, .f32⟩
  | .local _ .vmem, ⟨15, _⟩ => ⟨S2000x768, .f32⟩
  | .local _ .vmem, ⟨16, _⟩ => ⟨S2000x768, .f32⟩
  | .local _ .vmem, ⟨17, _⟩ => ⟨S768x64, .f32⟩
  | .local _ .vmem, ⟨18, _⟩ => ⟨S2000x64, .f32⟩
  | .local _ .vmem, ⟨19, _⟩ => ⟨S2000x64, .f32⟩
  | _, _ => ⟨S150000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_v0 : Ref sig .tc := ⟨.hbm, 54, rfl⟩
abbrev main_v1 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_c : Ref sig .tc := ⟨.hbm, 62, rfl⟩
abbrev main_v8 : Ref sig .tc := ⟨.hbm, 63, rfl⟩
abbrev main_v9 : Ref sig .tc := ⟨.hbm, 64, rfl⟩
abbrev main_c_0 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_c_1 : Ref sig .tc := ⟨.hbm, 72, rfl⟩
abbrev main_v16 : Ref sig .tc := ⟨.hbm, 73, rfl⟩
abbrev main_v17 : Ref sig .tc := ⟨.hbm, 74, rfl⟩
abbrev main_c_2 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_cst : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_c_3 : Ref sig .tc := ⟨.hbm, 87, rfl⟩
abbrev main_v28 : Ref sig .tc := ⟨.hbm, 88, rfl⟩
abbrev main_v29 : Ref sig .tc := ⟨.hbm, 89, rfl⟩
abbrev main_c_4 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_c_5 : Ref sig .tc := ⟨.hbm, 97, rfl⟩
abbrev main_v36 : Ref sig .tc := ⟨.hbm, 98, rfl⟩
abbrev main_v37 : Ref sig .tc := ⟨.hbm, 99, rfl⟩
abbrev main_c_6 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_cst_7 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_c_8 : Ref sig .tc := ⟨.hbm, 116, rfl⟩
abbrev main_v52 : Ref sig .tc := ⟨.hbm, 117, rfl⟩
abbrev main_v53 : Ref sig .tc := ⟨.hbm, 118, rfl⟩
abbrev main_c_9 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_c_10 : Ref sig .tc := ⟨.hbm, 127, rfl⟩
abbrev main_v61 : Ref sig .tc := ⟨.hbm, 128, rfl⟩
abbrev main_v62 : Ref sig .tc := ⟨.hbm, 129, rfl⟩
abbrev main_c_11 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_cst_12 : Ref sig .tc := ⟨.hbm, 139, rfl⟩
abbrev main_v71 : Ref sig .tc := ⟨.hbm, 140, rfl⟩
abbrev main_v72 : Ref sig .tc := ⟨.hbm, 141, rfl⟩
abbrev main_cst_13 : Ref sig .tc := ⟨.hbm, 142, rfl⟩
abbrev main_v73 : Ref sig .tc := ⟨.hbm, 143, rfl⟩
abbrev main_v74 : Ref sig .tc := ⟨.hbm, 144, rfl⟩
abbrev main_c_14 : Ref sig .tc := ⟨.hbm, 145, rfl⟩
abbrev main_v75 : Ref sig .tc := ⟨.hbm, 146, rfl⟩
abbrev main_v76 : Ref sig .tc := ⟨.hbm, 147, rfl⟩
abbrev main_c_15 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_c_16 : Ref sig .tc := ⟨.hbm, 156, rfl⟩
abbrev main_v84 : Ref sig .tc := ⟨.hbm, 157, rfl⟩
abbrev main_v85 : Ref sig .tc := ⟨.hbm, 158, rfl⟩
abbrev main_c_17 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_c_18 : Ref sig .tc := ⟨.hbm, 167, rfl⟩
abbrev main_v93 : Ref sig .tc := ⟨.hbm, 168, rfl⟩
abbrev main_v94 : Ref sig .tc := ⟨.hbm, 169, rfl⟩
abbrev main_c_19 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_cst_20 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_c_21 : Ref sig .tc := ⟨.hbm, 184, rfl⟩
abbrev main_v107 : Ref sig .tc := ⟨.hbm, 185, rfl⟩
abbrev main_v108 : Ref sig .tc := ⟨.hbm, 186, rfl⟩
abbrev main_c_22 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_c_23 : Ref sig .tc := ⟨.hbm, 195, rfl⟩
abbrev main_v116 : Ref sig .tc := ⟨.hbm, 196, rfl⟩
abbrev main_v117 : Ref sig .tc := ⟨.hbm, 197, rfl⟩
abbrev main_c_24 : Ref sig .tc := ⟨.hbm, 198, rfl⟩
abbrev main_v118 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_cst_25 : Ref sig .tc := ⟨.hbm, 207, rfl⟩
abbrev main_v126 : Ref sig .tc := ⟨.hbm, 208, rfl⟩
abbrev main_v127 : Ref sig .tc := ⟨.hbm, 209, rfl⟩
abbrev main_cst_26 : Ref sig .tc := ⟨.hbm, 210, rfl⟩
abbrev main_v128 : Ref sig .tc := ⟨.hbm, 211, rfl⟩
abbrev main_v129 : Ref sig .tc := ⟨.hbm, 212, rfl⟩
abbrev main_c_27 : Ref sig .tc := ⟨.hbm, 213, rfl⟩
abbrev main_v130 : Ref sig .tc := ⟨.hbm, 214, rfl⟩
abbrev main_v131 : Ref sig .tc := ⟨.hbm, 215, rfl⟩
abbrev main_c_28 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_v137 : Ref sig .tc := ⟨.hbm, 222, rfl⟩
abbrev main_v138 : Ref sig .tc := ⟨.hbm, 223, rfl⟩
abbrev main_c_29 : Ref sig .tc := ⟨.hbm, 224, rfl⟩
abbrev main_v139 : Ref sig .tc := ⟨.hbm, 225, rfl⟩
abbrev main_v140 : Ref sig .tc := ⟨.hbm, 226, rfl⟩
abbrev main_c_30 : Ref sig .tc := ⟨.hbm, 227, rfl⟩
abbrev main_v141 : Ref sig .tc := ⟨.hbm, 228, rfl⟩
abbrev main_v142 : Ref sig .tc := ⟨.hbm, 229, rfl⟩
abbrev main_v143 : Ref sig .tc := ⟨.hbm, 230, rfl⟩
abbrev main_v144 : Ref sig .tc := ⟨.hbm, 231, rfl⟩
abbrev main_v145 : Ref sig .tc := ⟨.hbm, 232, rfl⟩
abbrev main_v146 : Ref sig .tc := ⟨.hbm, 233, rfl⟩
abbrev main_v147 : Ref sig .tc := ⟨.hbm, 234, rfl⟩
abbrev main_c_31 : Ref sig .tc := ⟨.hbm, 235, rfl⟩
abbrev main_v148 : Ref sig .tc := ⟨.hbm, 236, rfl⟩
abbrev main_v149 : Ref sig .tc := ⟨.hbm, 237, rfl⟩
abbrev main_c_32 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_cst_33 : Ref sig .tc := ⟨.hbm, 246, rfl⟩
abbrev main_v157 : Ref sig .tc := ⟨.hbm, 247, rfl⟩
abbrev main_v158 : Ref sig .tc := ⟨.hbm, 248, rfl⟩
abbrev main_v159 : Ref sig .tc := ⟨.hbm, 249, rfl⟩
abbrev main_c_34 : Ref sig .tc := ⟨.hbm, 250, rfl⟩
abbrev main_v160 : Ref sig .tc := ⟨.hbm, 251, rfl⟩
abbrev main_v161 : Ref sig .tc := ⟨.hbm, 252, rfl⟩
abbrev main_c_35 : Ref sig .tc := ⟨.hbm, 253, rfl⟩
abbrev main_v162 : Ref sig .tc := ⟨.hbm, 254, rfl⟩
abbrev main_v163 : Ref sig .tc := ⟨.hbm, 255, rfl⟩
abbrev main_v164 : Ref sig .tc := ⟨.hbm, 256, rfl⟩
abbrev main_v165 : Ref sig .tc := ⟨.hbm, 257, rfl⟩
abbrev main_v166 : Ref sig .tc := ⟨.hbm, 258, rfl⟩
abbrev main_c_36 : Ref sig .tc := ⟨.hbm, 259, rfl⟩
abbrev main_v167 : Ref sig .tc := ⟨.hbm, 260, rfl⟩
abbrev main_v168 : Ref sig .tc := ⟨.hbm, 261, rfl⟩
abbrev main_c_37 : Ref sig .tc := ⟨.hbm, 262, rfl⟩
abbrev main_v169 : Ref sig .tc := ⟨.hbm, 263, rfl⟩
abbrev main_v170 : Ref sig .tc := ⟨.hbm, 264, rfl⟩
abbrev main_v171 : Ref sig .tc := ⟨.hbm, 265, rfl⟩
abbrev main_v172 : Ref sig .tc := ⟨.hbm, 266, rfl⟩
abbrev main_v173 : Ref sig .tc := ⟨.hbm, 267, rfl⟩
abbrev main_v174 : Ref sig .tc := ⟨.hbm, 268, rfl⟩
abbrev main_c_38 : Ref sig .tc := ⟨.hbm, 269, rfl⟩
abbrev main_v175 : Ref sig .tc := ⟨.hbm, 270, rfl⟩
abbrev main_v176 : Ref sig .tc := ⟨.hbm, 271, rfl⟩
abbrev main_c_39 : Ref sig .tc := ⟨.hbm, 272, rfl⟩
abbrev main_v177 : Ref sig .tc := ⟨.hbm, 273, rfl⟩
abbrev main_v178 : Ref sig .tc := ⟨.hbm, 274, rfl⟩
abbrev main_v179 : Ref sig .tc := ⟨.hbm, 275, rfl⟩
abbrev main_v180 : Ref sig .tc := ⟨.hbm, 276, rfl⟩
abbrev main_v181 : Ref sig .tc := ⟨.hbm, 277, rfl⟩
abbrev main_v182 : Ref sig .tc := ⟨.hbm, 278, rfl⟩
abbrev main_v183 : Ref sig .tc := ⟨.hbm, 279, rfl⟩
abbrev main_cst_40 : Ref sig .tc := ⟨.hbm, 280, rfl⟩
abbrev main_v184 : Ref sig .tc := ⟨.hbm, 281, rfl⟩
abbrev main_v185 : Ref sig .tc := ⟨.hbm, 282, rfl⟩
abbrev main_v186 : Ref sig .tc := ⟨.hbm, 283, rfl⟩
abbrev main_c_41 : Ref sig .tc := ⟨.hbm, 284, rfl⟩
abbrev main_v187 : Ref sig .tc := ⟨.hbm, 285, rfl⟩
abbrev main_v188 : Ref sig .tc := ⟨.hbm, 286, rfl⟩
abbrev main_c_42 : Ref sig .tc := ⟨.hbm, 287, rfl⟩
abbrev main_v189 : Ref sig .tc := ⟨.hbm, 288, rfl⟩
abbrev main_v190 : Ref sig .tc := ⟨.hbm, 289, rfl⟩
abbrev main_v191 : Ref sig .tc := ⟨.hbm, 290, rfl⟩
abbrev main_v192 : Ref sig .tc := ⟨.hbm, 291, rfl⟩
abbrev main_v193 : Ref sig .tc := ⟨.hbm, 292, rfl⟩
abbrev main_c_43 : Ref sig .tc := ⟨.hbm, 293, rfl⟩
abbrev main_v194 : Ref sig .tc := ⟨.hbm, 294, rfl⟩
abbrev main_v195 : Ref sig .tc := ⟨.hbm, 295, rfl⟩
abbrev main_c_44 : Ref sig .tc := ⟨.hbm, 296, rfl⟩
abbrev main_v196 : Ref sig .tc := ⟨.hbm, 297, rfl⟩
abbrev main_v197 : Ref sig .tc := ⟨.hbm, 298, rfl⟩
abbrev main_v198 : Ref sig .tc := ⟨.hbm, 299, rfl⟩
abbrev main_v199 : Ref sig .tc := ⟨.hbm, 300, rfl⟩
abbrev main_v200 : Ref sig .tc := ⟨.hbm, 301, rfl⟩
abbrev main_v201 : Ref sig .tc := ⟨.hbm, 302, rfl⟩
abbrev main_c_45 : Ref sig .tc := ⟨.hbm, 303, rfl⟩
abbrev main_v202 : Ref sig .tc := ⟨.hbm, 304, rfl⟩
abbrev main_v203 : Ref sig .tc := ⟨.hbm, 305, rfl⟩
abbrev main_c_46 : Ref sig .tc := ⟨.hbm, 306, rfl⟩
abbrev main_v204 : Ref sig .tc := ⟨.hbm, 307, rfl⟩
abbrev main_v205 : Ref sig .tc := ⟨.hbm, 308, rfl⟩
abbrev main_v206 : Ref sig .tc := ⟨.hbm, 309, rfl⟩
abbrev main_v207 : Ref sig .tc := ⟨.hbm, 310, rfl⟩
abbrev main_v208 : Ref sig .tc := ⟨.hbm, 311, rfl⟩
abbrev main_v209 : Ref sig .tc := ⟨.hbm, 312, rfl⟩
abbrev main_v210 : Ref sig .tc := ⟨.hbm, 313, rfl⟩
abbrev main_cst_47 : Ref sig .tc := ⟨.hbm, 314, rfl⟩
abbrev main_v211 : Ref sig .tc := ⟨.hbm, 315, rfl⟩
abbrev main_v212 : Ref sig .tc := ⟨.hbm, 316, rfl⟩
abbrev main_v213 : Ref sig .tc := ⟨.hbm, 317, rfl⟩
abbrev main_v214 : Ref sig .tc := ⟨.hbm, 318, rfl⟩
abbrev main_v215 : Ref sig .tc := ⟨.hbm, 319, rfl⟩
abbrev main_v216 : Ref sig .tc := ⟨.hbm, 320, rfl⟩
abbrev main_v217 : Ref sig .tc := ⟨.hbm, 321, rfl⟩
abbrev main_v218 : Ref sig .tc := ⟨.hbm, 322, rfl⟩
abbrev main_v219 : Ref sig .tc := ⟨.hbm, 323, rfl⟩
abbrev main_v220 : Ref sig .tc := ⟨.hbm, 324, rfl⟩
abbrev main_v221 : Ref sig .tc := ⟨.hbm, 325, rfl⟩
abbrev main_v222 : Ref sig .tc := ⟨.hbm, 326, rfl⟩
abbrev main_v223 : Ref sig .tc := ⟨.hbm, 327, rfl⟩
abbrev main_v224 : Ref sig .tc := ⟨.hbm, 328, rfl⟩
abbrev main_v225 : Ref sig .tc := ⟨.hbm, 329, rfl⟩
abbrev main_v226 : Ref sig .tc := ⟨.hbm, 330, rfl⟩
abbrev main_v227 : Ref sig .tc := ⟨.hbm, 331, rfl⟩
abbrev main_v228 : Ref sig .tc := ⟨.hbm, 332, rfl⟩
abbrev main_c_48 : Ref sig .tc := ⟨.hbm, 333, rfl⟩
abbrev main_v229 : Ref sig .tc := ⟨.hbm, 334, rfl⟩
abbrev main_v230 : Ref sig .tc := ⟨.hbm, 335, rfl⟩
abbrev main_c_49 : Ref sig .tc := ⟨.hbm, 336, rfl⟩
abbrev main_v231 : Ref sig .tc := ⟨.hbm, 337, rfl⟩
abbrev main_v232 : Ref sig .tc := ⟨.hbm, 338, rfl⟩
abbrev main_v233 : Ref sig .tc := ⟨.hbm, 339, rfl⟩
abbrev main_v234 : Ref sig .tc := ⟨.hbm, 340, rfl⟩
abbrev main_v235 : Ref sig .tc := ⟨.hbm, 341, rfl⟩
abbrev main_v236 : Ref sig .tc := ⟨.hbm, 342, rfl⟩
abbrev main_c_50 : Ref sig .tc := ⟨.hbm, 343, rfl⟩
abbrev main_v237 : Ref sig .tc := ⟨.hbm, 344, rfl⟩
abbrev main_v238 : Ref sig .tc := ⟨.hbm, 345, rfl⟩
abbrev main_c_51 : Ref sig .tc := ⟨.hbm, 346, rfl⟩
abbrev main_v239 : Ref sig .tc := ⟨.hbm, 347, rfl⟩
abbrev main_v240 : Ref sig .tc := ⟨.hbm, 348, rfl⟩
abbrev main_v241 : Ref sig .tc := ⟨.hbm, 349, rfl⟩
abbrev main_v242 : Ref sig .tc := ⟨.hbm, 350, rfl⟩
abbrev main_v243 : Ref sig .tc := ⟨.hbm, 351, rfl⟩
abbrev main_v244 : Ref sig .tc := ⟨.hbm, 352, rfl⟩
abbrev main_v245 : Ref sig .tc := ⟨.hbm, 353, rfl⟩
abbrev main_cst_52 : Ref sig .tc := ⟨.hbm, 354, rfl⟩
abbrev main_v246 : Ref sig .tc := ⟨.hbm, 355, rfl⟩
abbrev main_v247 : Ref sig .tc := ⟨.hbm, 356, rfl⟩
abbrev main_cst_53 : Ref sig .tc := ⟨.hbm, 357, rfl⟩
abbrev main_v248 : Ref sig .tc := ⟨.hbm, 358, rfl⟩
abbrev main_v249 : Ref sig .tc := ⟨.hbm, 359, rfl⟩
abbrev main_v250 : Ref sig .tc := ⟨.hbm, 360, rfl⟩
abbrev main_c_54 : Ref sig .tc := ⟨.hbm, 361, rfl⟩
abbrev main_v251 : Ref sig .tc := ⟨.hbm, 362, rfl⟩
abbrev main_v252 : Ref sig .tc := ⟨.hbm, 363, rfl⟩
abbrev main_c_55 : Ref sig .tc := ⟨.hbm, 364, rfl⟩
abbrev main_v253 : Ref sig .tc := ⟨.hbm, 365, rfl⟩
abbrev main_v254 : Ref sig .tc := ⟨.hbm, 366, rfl⟩
abbrev main_v255 : Ref sig .tc := ⟨.hbm, 367, rfl⟩
abbrev main_v256 : Ref sig .tc := ⟨.hbm, 368, rfl⟩
abbrev main_v257 : Ref sig .tc := ⟨.hbm, 369, rfl⟩
abbrev main_v258 : Ref sig .tc := ⟨.hbm, 370, rfl⟩
abbrev main_v259 : Ref sig .tc := ⟨.hbm, 371, rfl⟩
abbrev main_cst_56 : Ref sig .tc := ⟨.hbm, 372, rfl⟩
abbrev main_v260 : Ref sig .tc := ⟨.hbm, 373, rfl⟩
abbrev main_v261 : Ref sig .tc := ⟨.hbm, 374, rfl⟩
abbrev main_v262 : Ref sig .tc := ⟨.hbm, 375, rfl⟩
abbrev main_v263 : Ref sig .tc := ⟨.hbm, 376, rfl⟩
abbrev main_v264 : Ref sig .tc := ⟨.hbm, 377, rfl⟩
abbrev main_v265 : Ref sig .tc := ⟨.hbm, 378, rfl⟩
abbrev main_c_57 : Ref sig .tc := ⟨.hbm, 379, rfl⟩
abbrev main_v266 : Ref sig .tc := ⟨.hbm, 380, rfl⟩
abbrev main_v267 : Ref sig .tc := ⟨.hbm, 381, rfl⟩
abbrev main_c_58 : Ref sig .tc := ⟨.hbm, 382, rfl⟩
abbrev main_v268 : Ref sig .tc := ⟨.hbm, 383, rfl⟩
abbrev main_v269 : Ref sig .tc := ⟨.hbm, 384, rfl⟩
abbrev main_v270 : Ref sig .tc := ⟨.hbm, 385, rfl⟩
abbrev main_v271 : Ref sig .tc := ⟨.hbm, 386, rfl⟩
abbrev main_v272 : Ref sig .tc := ⟨.hbm, 387, rfl⟩
abbrev main_v273 : Ref sig .tc := ⟨.hbm, 388, rfl⟩
abbrev main_c_59 : Ref sig .tc := ⟨.hbm, 389, rfl⟩
abbrev main_v274 : Ref sig .tc := ⟨.hbm, 390, rfl⟩
abbrev main_v275 : Ref sig .tc := ⟨.hbm, 391, rfl⟩
abbrev main_c_60 : Ref sig .tc := ⟨.hbm, 392, rfl⟩
abbrev main_v276 : Ref sig .tc := ⟨.hbm, 393, rfl⟩
abbrev main_v277 : Ref sig .tc := ⟨.hbm, 394, rfl⟩
abbrev main_v278 : Ref sig .tc := ⟨.hbm, 395, rfl⟩
abbrev main_v279 : Ref sig .tc := ⟨.hbm, 396, rfl⟩
abbrev main_v280 : Ref sig .tc := ⟨.hbm, 397, rfl⟩
abbrev main_v281 : Ref sig .tc := ⟨.hbm, 398, rfl⟩
abbrev main_v282 : Ref sig .tc := ⟨.hbm, 399, rfl⟩
abbrev main_cst_61 : Ref sig .tc := ⟨.hbm, 400, rfl⟩
abbrev main_v283 : Ref sig .tc := ⟨.hbm, 401, rfl⟩
abbrev main_v284 : Ref sig .tc := ⟨.hbm, 402, rfl⟩
abbrev main_cst_62 : Ref sig .tc := ⟨.hbm, 403, rfl⟩
abbrev main_v285 : Ref sig .tc := ⟨.hbm, 404, rfl⟩
abbrev main_v286 : Ref sig .tc := ⟨.hbm, 405, rfl⟩
abbrev main_v287 : Ref sig .tc := ⟨.hbm, 406, rfl⟩
abbrev main_c_63 : Ref sig .tc := ⟨.hbm, 407, rfl⟩
abbrev main_v288 : Ref sig .tc := ⟨.hbm, 408, rfl⟩
abbrev main_v289 : Ref sig .tc := ⟨.hbm, 409, rfl⟩
abbrev main_c_64 : Ref sig .tc := ⟨.hbm, 410, rfl⟩
abbrev main_v290 : Ref sig .tc := ⟨.hbm, 411, rfl⟩
abbrev main_v291 : Ref sig .tc := ⟨.hbm, 412, rfl⟩
abbrev main_v292 : Ref sig .tc := ⟨.hbm, 413, rfl⟩
abbrev main_v293 : Ref sig .tc := ⟨.hbm, 414, rfl⟩
abbrev main_v294 : Ref sig .tc := ⟨.hbm, 415, rfl⟩
abbrev main_v295 : Ref sig .tc := ⟨.hbm, 416, rfl⟩
abbrev main_v296 : Ref sig .tc := ⟨.hbm, 417, rfl⟩
abbrev main_cst_65 : Ref sig .tc := ⟨.hbm, 418, rfl⟩
abbrev main_v297 : Ref sig .tc := ⟨.hbm, 419, rfl⟩
abbrev main_v298 : Ref sig .tc := ⟨.hbm, 420, rfl⟩
abbrev main_v299 : Ref sig .tc := ⟨.hbm, 421, rfl⟩
abbrev main_v300 : Ref sig .tc := ⟨.hbm, 422, rfl⟩
abbrev main_v301 : Ref sig .tc := ⟨.hbm, 423, rfl⟩
abbrev main_v302 : Ref sig .tc := ⟨.hbm, 424, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S3000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x768 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S768x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S150000x64_S100000x64_0_0 : S150000x64.Slices ![0, 0] S100000x64
  slices_S150000x64_S50000x64_100000_0 : S150000x64.Slices ![100000, 0] S50000x64
  inb_S3000x64_S3000x64_0_0 : ∀ a, (![0, 0] : Fin 2 → Nat) a + S3000x64.size a ≤ S3000x64.size a
  h_S3000x64 : 0 < S3000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S300000 : S_.BroadcastsInDim S300000 (![] : Fin 0 → Fin S300000.rank)
  bcast_S300000_S300000x1_0 : S300000.BroadcastsInDim S300000x1 (![0] : Fin 1 → Fin S300000x1.rank)
  bcast_S300000x1_S300000x64_0_1 : S300000x1.BroadcastsInDim S300000x64 (![0, 1] : Fin 2 → Fin S300000x64.rank)
  bcast_S_S100000x64 : S_.BroadcastsInDim S100000x64 (![] : Fin 0 → Fin S100000x64.rank)
  bcast_S_S50000x64 : S_.BroadcastsInDim S50000x64 (![] : Fin 0 → Fin S50000x64.rank)
  slices_S500000x3_S500000x1_0_1 : S500000x3.Slices ![0, 1] S500000x1
  shapeCasts_S500000x1_S500000 : S500000x1.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S500000x3_S500000x1_0_2 : S500000x3.Slices ![0, 2] S500000x1
  bcast_S_S500000x64 : S_.BroadcastsInDim S500000x64 (![] : Fin 0 → Fin S500000x64.rank)
  slices_S500000x3_S500000x1_0_0 : S500000x3.Slices ![0, 0] S500000x1
  bcast_S500000x1_S500000x64_0_1 : S500000x1.BroadcastsInDim S500000x64 (![0, 1] : Fin 2 → Fin S500000x64.rank)
  bcast_S100000x1_S100000x64_0_1 : S100000x1.BroadcastsInDim S100000x64 (![0, 1] : Fin 2 → Fin S100000x64.rank)
  concatenates_S100000x64_S100000x64_S100000x64_S100000x192_d1 : Shape.Concatenates [S100000x64, S100000x64, S100000x64] S100000x192 1
  bcast_S50000x1_S50000x64_0_1 : S50000x1.BroadcastsInDim S50000x64 (![0, 1] : Fin 2 → Fin S50000x64.rank)
  concatenates_S50000x64_S50000x64_S50000x64_S50000x192_d1 : Shape.Concatenates [S50000x64, S50000x64, S50000x64] S50000x192 1
  inb_S2000x768_S2000x768_0_0 : ∀ a, (![0, 0] : Fin 2 → Nat) a + S2000x768.size a ≤ S2000x768.size a
  h_S2000x768 : 0 < S2000x768.numel
  inb_S768x64_S768x64_0_0 : ∀ a, (![0, 0] : Fin 2 → Nat) a + S768x64.size a ≤ S768x64.size a
  h_S768x64 : 0 < S768x64.numel
  inb_S2000x64_S2000x64_0_0 : ∀ a, (![0, 0] : Fin 2 → Nat) a + S2000x64.size a ≤ S2000x64.size a
  h_S2000x64 : 0 < S2000x64.numel
  bcast_S_S200000 : S_.BroadcastsInDim S200000 (![] : Fin 0 → Fin S200000.rank)
  bcast_S200000_S200000x1_0 : S200000.BroadcastsInDim S200000x1 (![0] : Fin 1 → Fin S200000x1.rank)
  concatenates_S200000x192_S200000x64_S200000x256_d1 : Shape.Concatenates [S200000x192, S200000x64] S200000x256 1
  bcast_S_S200000x256 : S_.BroadcastsInDim S200000x256 (![] : Fin 0 → Fin S200000x256.rank)
  bcast_S200000x1_S200000x256_0_1 : S200000x1.BroadcastsInDim S200000x256 (![0, 1] : Fin 2 → Fin S200000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  concatenates_S100000x256_S50000x256_S150000x256_d0 : Shape.Concatenates [S100000x256, S50000x256] S150000x256 0
  dot_S500x64_S64x64_S500x64_1_0_0_1_n_n_wf : DotDims.WF S500x64 S64x64 S500x64 [1] [0] [0] [1] [] []
  dot_S3000x64_S64x64_S3000x64_1_0_0_1_n_n_wf : DotDims.WF S3000x64 S64x64 S3000x64 [1] [0] [0] [1] [] []
  gather_S500x64_S300000x1_S300000x64_1_0_n_n_0_1_164_wf : GatherDims.WF S500x64 S300000x1 S300000x64 [1] [0] [] [0] [] 1 ![1, 64]
  gather_S500x1_S300000x1_S300000x1_1_0_n_n_0_1_11_wf : GatherDims.WF S500x1 S300000x1 S300000x1 [1] [0] [] [0] [] 1 ![1, 1]
  scatter_S100000x64_S300000x1_S300000x64_1_0_0_1_wf : ScatterDims.WF S100000x64 S300000x1 S300000x64 [1] [0] [0] 1
  scatter_S50000x64_S300000x1_S300000x64_1_0_0_1_wf : ScatterDims.WF S50000x64 S300000x1 S300000x64 [1] [0] [0] 1
  dot_S50x64_S64x64_S50x64_1_0_0_1_n_n_wf : DotDims.WF S50x64 S64x64 S50x64 [1] [0] [0] [1] [] []
  gather_S50x64_S500000x1_S500000x64_1_0_n_n_0_1_164_wf : GatherDims.WF S50x64 S500000x1 S500000x64 [1] [0] [] [0] [] 1 ![1, 64]
  gather_S100000x64_S500000x1_S500000x64_1_0_n_n_0_1_164_wf : GatherDims.WF S100000x64 S500000x1 S500000x64 [1] [0] [] [0] [] 1 ![1, 64]
  gather_S500x64_S500000x1_S500000x64_1_0_n_n_0_1_164_wf : GatherDims.WF S500x64 S500000x1 S500000x64 [1] [0] [] [0] [] 1 ![1, 64]
  gather_S100000x1_S500000x1_S500000x1_1_0_n_n_0_1_11_wf : GatherDims.WF S100000x1 S500000x1 S500000x1 [1] [0] [] [0] [] 1 ![1, 1]
  scatter_S100000x64_S500000x1_S500000x64_1_0_0_1_wf : ScatterDims.WF S100000x64 S500000x1 S500000x64 [1] [0] [0] 1
  gather_S50000x64_S500000x1_S500000x64_1_0_n_n_0_1_164_wf : GatherDims.WF S50000x64 S500000x1 S500000x64 [1] [0] [] [0] [] 1 ![1, 64]
  gather_S50000x1_S500000x1_S500000x1_1_0_n_n_0_1_11_wf : GatherDims.WF S50000x1 S500000x1 S500000x1 [1] [0] [] [0] [] 1 ![1, 1]
  scatter_S50000x64_S500000x1_S500000x64_1_0_0_1_wf : ScatterDims.WF S50000x64 S500000x1 S500000x64 [1] [0] [0] 1
  gather_S100000x64_S300000x1_S300000x64_1_0_n_n_0_1_164_wf : GatherDims.WF S100000x64 S300000x1 S300000x64 [1] [0] [] [0] [] 1 ![1, 64]
  gather_S100000x1_S300000x1_S300000x1_1_0_n_n_0_1_11_wf : GatherDims.WF S100000x1 S300000x1 S300000x1 [1] [0] [] [0] [] 1 ![1, 1]
  gather_S50000x64_S300000x1_S300000x64_1_0_n_n_0_1_164_wf : GatherDims.WF S50000x64 S300000x1 S300000x64 [1] [0] [] [0] [] 1 ![1, 64]
  gather_S50000x1_S300000x1_S300000x1_1_0_n_n_0_1_11_wf : GatherDims.WF S50000x1 S300000x1 S300000x1 [1] [0] [] [0] [] 1 ![1, 1]
  dot_S2000x768_S768x64_S2000x64_1_0_0_1_n_n_wf : DotDims.WF S2000x768 S768x64 S2000x64 [1] [0] [0] [1] [] []
  gather_S50000x192_S200000x1_S200000x192_1_0_n_n_0_1_1192_wf : GatherDims.WF S50000x192 S200000x1 S200000x192 [1] [0] [] [0] [] 1 ![1, 192]
  gather_S5x256_S200000x1_S200000x256_1_0_n_n_0_1_1256_wf : GatherDims.WF S5x256 S200000x1 S200000x256 [1] [0] [] [0] [] 1 ![1, 256]
  gather_S50000x1_S200000x1_S200000x1_1_0_n_n_0_1_11_wf : GatherDims.WF S50000x1 S200000x1 S200000x1 [1] [0] [] [0] [] 1 ![1, 1]
  scatter_S100000x256_S200000x1_S200000x256_1_0_0_1_wf : ScatterDims.WF S100000x256 S200000x1 S200000x256 [1] [0] [0] 1
  gather_S100000x192_S200000x1_S200000x192_1_0_n_n_0_1_1192_wf : GatherDims.WF S100000x192 S200000x1 S200000x192 [1] [0] [] [0] [] 1 ![1, 192]
  gather_S100000x1_S200000x1_S200000x1_1_0_n_n_0_1_11_wf : GatherDims.WF S100000x1 S200000x1 S200000x1 [1] [0] [] [0] [] 1 ![1, 1]
  scatter_S50000x256_S200000x1_S200000x256_1_0_0_1_wf : ScatterDims.WF S50000x256 S200000x1 S200000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x64.size a ≤ S300000x64.size a
  hwx0_0 : ∀ i : grid0.Coords, EltTy.bits .f32 = 32 ∨ (Rect.block (s := S300000x64) S3000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x64.size a ≤ S300000x64.size a
  hwx0_2 : ∀ i : grid0.Coords, EltTy.bits .f32 = 32 ∨ (Rect.block (s := S300000x64) S3000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x64.size a ≤ S300000x64.size a
  hwx1_0 : ∀ i : grid1.Coords, EltTy.bits .f32 = 32 ∨ (Rect.block (s := S300000x64) S3000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3000x64.size a ≤ S300000x64.size a
  hwx1_2 : ∀ i : grid1.Coords, EltTy.bits .f32 = 32 ∨ (Rect.block (s := S300000x64) S3000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x768.size a ≤ S200000x768.size a
  hwx2_0 : ∀ i : grid2.Coords, EltTy.bits .f32 = 32 ∨ (Rect.block (s := S200000x768) S2000x768.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x64.size a ≤ S768x64.size a
  hwx2_1 : ∀ i : grid2.Coords, EltTy.bits .f32 = 32 ∨ (Rect.block (s := S768x64) S768x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S200000x64.size a
  hwx2_2 : ∀ i : grid2.Coords, EltTy.bits .f32 = 32 ∨ (Rect.block (s := S200000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x768.size a ≤ S200000x768.size a
  hwx3_0 : ∀ i : grid3.Coords, EltTy.bits .f32 = 32 ∨ (Rect.block (s := S200000x768) S2000x768.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S768x64.size a ≤ S768x64.size a
  hwx3_1 : ∀ i : grid3.Coords, EltTy.bits .f32 = 32 ∨ (Rect.block (s := S768x64) S768x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S200000x64.size a
  hwx3_2 : ∀ i : grid3.Coords, EltTy.bits .f32 = 32 ∨ (Rect.block (s := S200000x64) S2000x64.size (cc3_transform_2 i) (hinb3_2 i)).WholeWords (EltTy.packing .f32)

variable [Facts₀]

def dot_S500x64_S64x64_S500x64_1_0_0_1_n_n : DotDims S500x64 S64x64 S500x64 where
  lhsContracting := [1]
  rhsContracting := [0]
  lhsNonContracting := [0]
  rhsNonContracting := [1]
  lhsBatch := []
  rhsBatch := []
  wf := dot_S500x64_S64x64_S500x64_1_0_0_1_n_n_wf
def dot_S3000x64_S64x64_S3000x64_1_0_0_1_n_n : DotDims S3000x64 S64x64 S3000x64 where
  lhsContracting := [1]
  rhsContracting := [0]
  lhsNonContracting := [0]
  rhsNonContracting := [1]
  lhsBatch := []
  rhsBatch := []
  wf := dot_S3000x64_S64x64_S3000x64_1_0_0_1_n_n_wf
def gather_S500x64_S300000x1_S300000x64_1_0_n_n_0_1_164 : GatherDims S500x64 S300000x1 S300000x64 where
  offsetDims := [1]
  collapsedSliceDims := [0]
  operandBatchingDims := []
  startIndicesBatchingDims := []
  startIndexMap := [0]
  indexVectorDim := 1
  sliceSizes := ![1, 64]
  wf := gather_S500x64_S300000x1_S300000x64_1_0_n_n_0_1_164_wf
def gather_S500x1_S300000x1_S300000x1_1_0_n_n_0_1_11 : GatherDims S500x1 S300000x1 S300000x1 where
  offsetDims := [1]
  collapsedSliceDims := [0]
  operandBatchingDims := []
  startIndicesBatchingDims := []
  startIndexMap := [0]
  indexVectorDim := 1
  sliceSizes := ![1, 1]
  wf := gather_S500x1_S300000x1_S300000x1_1_0_n_n_0_1_11_wf
def scatter_S100000x64_S300000x1_S300000x64_1_0_0_1 : ScatterDims S100000x64 S300000x1 S300000x64 where
  updateWindowDims := [1]
  insertedWindowDims := [0]
  scatterDimsToOperandDims := [0]
  indexVectorDim := 1
  wf := scatter_S100000x64_S300000x1_S300000x64_1_0_0_1_wf
def scatter_S50000x64_S300000x1_S300000x64_1_0_0_1 : ScatterDims S50000x64 S300000x1 S300000x64 where
  updateWindowDims := [1]
  insertedWindowDims := [0]
  scatterDimsToOperandDims := [0]
  indexVectorDim := 1
  wf := scatter_S50000x64_S300000x1_S300000x64_1_0_0_1_wf
def dot_S50x64_S64x64_S50x64_1_0_0_1_n_n : DotDims S50x64 S64x64 S50x64 where
  lhsContracting := [1]
  rhsContracting := [0]
  lhsNonContracting := [0]
  rhsNonContracting := [1]
  lhsBatch := []
  rhsBatch := []
  wf := dot_S50x64_S64x64_S50x64_1_0_0_1_n_n_wf
def gather_S50x64_S500000x1_S500000x64_1_0_n_n_0_1_164 : GatherDims S50x64 S500000x1 S500000x64 where
  offsetDims := [1]
  collapsedSliceDims := [0]
  operandBatchingDims := []
  startIndicesBatchingDims := []
  startIndexMap := [0]
  indexVectorDim := 1
  sliceSizes := ![1, 64]
  wf := gather_S50x64_S500000x1_S500000x64_1_0_n_n_0_1_164_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def gather_S500x64_S500000x1_S500000x64_1_0_n_n_0_1_164 : GatherDims S500x64 S500000x1 S500000x64 where
  offsetDims := [1]
  collapsedSliceDims := [0]
  operandBatchingDims := []
  startIndicesBatchingDims := []
  startIndexMap := [0]
  indexVectorDim := 1
  sliceSizes := ![1, 64]
  wf := gather_S500x64_S500000x1_S500000x64_1_0_n_n_0_1_164_wf
def gather_S100000x1_S500000x1_S500000x1_1_0_n_n_0_1_11 : GatherDims S100000x1 S500000x1 S500000x1 where
  offsetDims := [1]
  collapsedSliceDims := [0]
  operandBatchingDims := []
  startIndicesBatchingDims := []
  startIndexMap := [0]
  indexVectorDim := 1
  sliceSizes := ![1, 1]
  wf := gather_S100000x1_S500000x1_S500000x1_1_0_n_n_0_1_11_wf
def scatter_S100000x64_S500000x1_S500000x64_1_0_0_1 : ScatterDims S100000x64 S500000x1 S500000x64 where
  updateWindowDims := [1]
  insertedWindowDims := [0]
  scatterDimsToOperandDims := [0]
  indexVectorDim := 1
  wf := scatter_S100000x64_S500000x1_S500000x64_1_0_0_1_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def gather_S50000x1_S500000x1_S500000x1_1_0_n_n_0_1_11 : GatherDims S50000x1 S500000x1 S500000x1 where
  offsetDims := [1]
  collapsedSliceDims := [0]
  operandBatchingDims := []
  startIndicesBatchingDims := []
  startIndexMap := [0]
  indexVectorDim := 1
  sliceSizes := ![1, 1]
  wf := gather_S50000x1_S500000x1_S500000x1_1_0_n_n_0_1_11_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf
def gather_S100000x64_S300000x1_S300000x64_1_0_n_n_0_1_164 : GatherDims S100000x64 S300000x1 S300000x64 where
  offsetDims := [1]
  collapsedSliceDims := [0]
  operandBatchingDims := []
  startIndicesBatchingDims := []
  startIndexMap := [0]
  indexVectorDim := 1
  sliceSizes := ![1, 64]
  wf := gather_S100000x64_S300000x1_S300000x64_1_0_n_n_0_1_164_wf
def gather_S100000x1_S300000x1_S300000x1_1_0_n_n_0_1_11 : GatherDims S100000x1 S300000x1 S300000x1 where
  offsetDims := [1]
  collapsedSliceDims := [0]
  operandBatchingDims := []
  startIndicesBatchingDims := []
  startIndexMap := [0]
  indexVectorDim := 1
  sliceSizes := ![1, 1]
  wf := gather_S100000x1_S300000x1_S300000x1_1_0_n_n_0_1_11_wf
def gather_S50000x64_S300000x1_S300000x64_1_0_n_n_0_1_164 : GatherDims S50000x64 S300000x1 S300000x64 where
  offsetDims := [1]
  collapsedSliceDims := [0]
  operandBatchingDims := []
  startIndicesBatchingDims := []
  startIndexMap := [0]
  indexVectorDim := 1
  sliceSizes := ![1, 64]
  wf := gather_S50000x64_S300000x1_S300000x64_1_0_n_n_0_1_164_wf
def gather_S50000x1_S300000x1_S300000x1_1_0_n_n_0_1_11 : GatherDims S50000x1 S300000x1 S300000x1 where
  offsetDims := [1]
  collapsedSliceDims := [0]
  operandBatchingDims := []
  startIndicesBatchingDims := []
  startIndexMap := [0]
  indexVectorDim := 1
  sliceSizes := ![1, 1]
  wf := gather_S50000x1_S300000x1_S300000x1_1_0_n_n_0_1_11_wf
def dot_S2000x768_S768x64_S2000x64_1_0_0_1_n_n : DotDims S2000x768 S768x64 S2000x64 where
  lhsContracting := [1]
  rhsContracting := [0]
  lhsNonContracting := [0]
  rhsNonContracting := [1]
  lhsBatch := []
  rhsBatch := []
  wf := dot_S2000x768_S768x64_S2000x64_1_0_0_1_n_n_wf
def gather_S50000x192_S200000x1_S200000x192_1_0_n_n_0_1_1192 : GatherDims S50000x192 S200000x1 S200000x192 where
  offsetDims := [1]
  collapsedSliceDims := [0]
  operandBatchingDims := []
  startIndicesBatchingDims := []
  startIndexMap := [0]
  indexVectorDim := 1
  sliceSizes := ![1, 192]
  wf := gather_S50000x192_S200000x1_S200000x192_1_0_n_n_0_1_1192_wf
def gather_S5x256_S200000x1_S200000x256_1_0_n_n_0_1_1256 : GatherDims S5x256 S200000x1 S200000x256 where
  offsetDims := [1]
  collapsedSliceDims := [0]
  operandBatchingDims := []
  startIndicesBatchingDims := []
  startIndexMap := [0]
  indexVectorDim := 1
  sliceSizes := ![1, 256]
  wf := gather_S5x256_S200000x1_S200000x256_1_0_n_n_0_1_1256_wf
def gather_S50000x1_S200000x1_S200000x1_1_0_n_n_0_1_11 : GatherDims S50000x1 S200000x1 S200000x1 where
  offsetDims := [1]
  collapsedSliceDims := [0]
  operandBatchingDims := []
  startIndicesBatchingDims := []
  startIndexMap := [0]
  indexVectorDim := 1
  sliceSizes := ![1, 1]
  wf := gather_S50000x1_S200000x1_S200000x1_1_0_n_n_0_1_11_wf
def scatter_S100000x256_S200000x1_S200000x256_1_0_0_1 : ScatterDims S100000x256 S200000x1 S200000x256 where
  updateWindowDims := [1]
  insertedWindowDims := [0]
  scatterDimsToOperandDims := [0]
  indexVectorDim := 1
  wf := scatter_S100000x256_S200000x1_S200000x256_1_0_0_1_wf
def gather_S100000x192_S200000x1_S200000x192_1_0_n_n_0_1_1192 : GatherDims S100000x192 S200000x1 S200000x192 where
  offsetDims := [1]
  collapsedSliceDims := [0]
  operandBatchingDims := []
  startIndicesBatchingDims := []
  startIndexMap := [0]
  indexVectorDim := 1
  sliceSizes := ![1, 192]
  wf := gather_S100000x192_S200000x1_S200000x192_1_0_n_n_0_1_1192_wf
def gather_S100000x1_S200000x1_S200000x1_1_0_n_n_0_1_11 : GatherDims S100000x1 S200000x1 S200000x1 where
  offsetDims := [1]
  collapsedSliceDims := [0]
  operandBatchingDims := []
  startIndicesBatchingDims := []
  startIndexMap := [0]
  indexVectorDim := 1
  sliceSizes := ![1, 1]
  wf := gather_S100000x1_S200000x1_S200000x1_1_0_n_n_0_1_11_wf
def scatter_S50000x256_S200000x1_S200000x256_1_0_0_1 : ScatterDims S50000x256 S200000x1 S200000x256 where
  updateWindowDims := [1]
  insertedWindowDims := [0]
  scatterDimsToOperandDims := [0]
  indexVectorDim := 1
  wf := scatter_S50000x256_S200000x1_S200000x256_1_0_0_1_wf

abbrev win0_0 : Pipeline.Window sig grid0 :=
  Pipeline.Window.ofSpec (Memref.whole main_arg16) S3000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S3000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg17) S3000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S3000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg14) S2000x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S768x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v228) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg15) S2000x768.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S768x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v265) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S150000x64 : Shape := ⟨2, ![150000, 64]⟩
abbrev S500x64 : Shape := ⟨2, ![500, 64]⟩
abbrev S50x64 : Shape := ⟨2, ![50, 64]⟩
abbrev S768x64 : Shape := ⟨2, ![768, 64]⟩
abbrev S64x64 : Shape := ⟨2, ![64, 64]⟩
abbrev S5x256 : Shape := ⟨2, ![5, 256]⟩
abbrev S200000x768 : Shape := ⟨2, ![200000, 768]⟩
abbrev S300000x64 : Shape := ⟨2, ![300000, 64]⟩
abbrev S500x1 : Shape := ⟨2, ![500, 1]⟩
abbrev S100000x1 : Shape := ⟨2, ![100000, 1]⟩
abbrev S50000x1 : Shape := ⟨2, ![50000, 1]⟩
abbrev S200000 : Shape := ⟨1, ![200000]⟩
abbrev S300000 : Shape := ⟨1, ![300000]⟩
abbrev S500000 : Shape := ⟨1, ![500000]⟩
abbrev S500000x3 : Shape := ⟨2, ![500000, 3]⟩
abbrev S100000x64 : Shape := ⟨2, ![100000, 64]⟩
abbrev S50000x64 : Shape := ⟨2, ![50000, 64]⟩
abbrev S_ : Shape := ⟨0, ![]⟩
abbrev S300000x1 : Shape := ⟨2, ![300000, 1]⟩
abbrev S500000x1 : Shape := ⟨2, ![500000, 1]⟩
abbrev S500000x64 : Shape := ⟨2, ![500000, 64]⟩
abbrev S100000x192 : Shape := ⟨2, ![100000, 192]⟩
abbrev S50000x192 : Shape := ⟨2, ![50000, 192]⟩
abbrev S200000x64 : Shape := ⟨2, ![200000, 64]⟩
abbrev S200000x1 : Shape := ⟨2, ![200000, 1]⟩
abbrev S200000x192 : Shape := ⟨2, ![200000, 192]⟩
abbrev S200000x256 : Shape := ⟨2, ![200000, 256]⟩
abbrev S100000x256 : Shape := ⟨2, ![100000, 256]⟩
abbrev S50000x256 : Shape := ⟨2, ![50000, 256]⟩
abbrev S150000x256 : Shape := ⟨2, ![150000, 256]⟩

abbrev nBuf : Space → Nat
  | .hbm => 425
  | .vmem => 0
  | .smem => 0
  | _ => 0

abbrev hbmTy0_0 (i : Nat) : BufTy := match i % 128 with
  | 0 => ⟨S150000x64, .f32⟩
  | 1 => ⟨S150000x64, .f32⟩
  | 2 => ⟨S500x64, .f32⟩
  | 3 => ⟨S50x64, .f32⟩
  | 4 => ⟨S768x64, .f32⟩
  | 5 => ⟨S768x64, .f32⟩
  | 6 => ⟨S64x64, .f32⟩
  | 7 => ⟨S64x64, .f32⟩
  | 8 => ⟨S64x64, .f32⟩
  | 9 => ⟨S64x64, .f32⟩
  | 10 => ⟨S64x64, .f32⟩
  | 11 => ⟨S64x64, .f32⟩
  | 12 => ⟨S5x256, .f32⟩
  | 13 => ⟨S5x256, .f32⟩
  | 14 => ⟨S200000x768, .f32⟩
  | 15 => ⟨S200000x768, .f32⟩
  | 16 => ⟨S300000x64, .f32⟩
  | 17 => ⟨S300000x64, .f32⟩
  | 18 => ⟨S500x1, .f32⟩
  | 19 => ⟨S500x1, .f32⟩
  | 20 => ⟨S100000x1, .f32⟩
  | 21 => ⟨S100000x1, .f32⟩
  | 22 => ⟨S100000x1, .f32⟩
  | 23 => ⟨S100000x1, .f32⟩
  | 24 => ⟨S100000x1, .f32⟩
  | 25 => ⟨S100000x1, .f32⟩
  | 26 => ⟨S50000x1, .f32⟩
  | 27 => ⟨S50000x1, .f32⟩
  | 28 => ⟨S50000x1, .f32⟩
  | 29 => ⟨S50000x1, .f32⟩
  | 30 => ⟨S50000x1, .f32⟩
  | 31 => ⟨S50000x1, .f32⟩
  | 32 => ⟨S200000, .i32⟩
  | 33 => ⟨S200000, .i32⟩
  | 34 => ⟨S200000, .i32⟩
  | 35 => ⟨S200000, .i32⟩
  | 36 => ⟨S200000, .i32⟩
  | 37 => ⟨S200000, .i32⟩
  | 38 => ⟨S300000, .i32⟩
  | 39 => ⟨S300000, .i32⟩
  | 40 => ⟨S300000, .i32⟩
  | 41 => ⟨S300000, .i32⟩
  | 42 => ⟨S500000, .i32⟩
  | 43 => ⟨S500000, .i32⟩
  | 44 => ⟨S500000x3, .i32⟩
  | 45 => ⟨S500000, .i32⟩
  | 46 => ⟨S500000, .i32⟩
  | 47 => ⟨S500000x3, .i32⟩
  | 48 => ⟨S300000, .i32⟩
  | 49 => ⟨S300000, .i32⟩
  | 50 => ⟨S300000, .i32⟩
  | 51 => ⟨S300000, .i32⟩
  | 52 => ⟨S300000, .i32⟩
  | 53 => ⟨S300000, .i32⟩
  | 54 => ⟨S100000x64, .f32⟩
  | 55 => ⟨S50000x64, .f32⟩
  | 56 => ⟨S100000x64, .f32⟩
  | 57 => ⟨S50000x64, .f32⟩
  | 58 => ⟨S500x64, .f32⟩
  | 59 => ⟨S500x64, .f32⟩
  | 60 => ⟨S_, .i32⟩
  | 61 => ⟨S300000, .i32⟩
  | 62 => ⟨S300000, .i1⟩
  | 63 => ⟨S_, .i32⟩
  | 64 => ⟨S300000, .i32⟩
  | 65 => ⟨S300000, .i32⟩
  | 66 => ⟨S300000, .i32⟩
  | 67 => ⟨S300000x1, .i32⟩
  | 68 => ⟨S300000x64, .f32⟩
  | 69 => ⟨S300000x64, .f32⟩
  | 70 => ⟨S300000x64, .f32⟩
  | 71 => ⟨S_, .i32⟩
  | 72 => ⟨S300000, .i32⟩
  | 73 => ⟨S300000, .i1⟩
  | 74 => ⟨S_, .i32⟩
  | 75 => ⟨S300000, .i32⟩
  | 76 => ⟨S300000, .i32⟩
  | 77 => ⟨S300000, .i32⟩
  | 78 => ⟨S300000x1, .i32⟩
  | 79 => ⟨S300000x1, .f32⟩
  | 80 => ⟨S300000x64, .f32⟩
  | 81 => ⟨S300000x64, .f32⟩
  | 82 => ⟨S_, .f32⟩
  | 83 => ⟨S100000x64, .f32⟩
  | 84 => ⟨S300000x1, .i32⟩
  | 85 => ⟨S100000x64, .f32⟩
  | 86 => ⟨S_, .i32⟩
  | 87 => ⟨S300000, .i32⟩
  | 88 => ⟨S300000, .i1⟩
  | 89 => ⟨S_, .i32⟩
  | 90 => ⟨S300000, .i32⟩
  | 91 => ⟨S300000, .i32⟩
  | 92 => ⟨S300000, .i32⟩
  | 93 => ⟨S300000x1, .i32⟩
  | 94 => ⟨S300000x64, .f32⟩
  | 95 => ⟨S300000x64, .f32⟩
  | 96 => ⟨S300000x64, .f32⟩
  | 97 => ⟨S_, .i32⟩
  | 98 => ⟨S300000, .i32⟩
  | 99 => ⟨S300000, .i1⟩
  | 100 => ⟨S_, .i32⟩
  | 101 => ⟨S300000, .i32⟩
  | 102 => ⟨S300000, .i32⟩
  | 103 => ⟨S300000, .i32⟩
  | 104 => ⟨S300000x1, .i32⟩
  | 105 => ⟨S300000x1, .f32⟩
  | 106 => ⟨S300000x64, .f32⟩
  | 107 => ⟨S300000x64, .f32⟩
  | 108 => ⟨S_, .f32⟩
  | 109 => ⟨S50000x64, .f32⟩
  | 110 => ⟨S300000x1, .i32⟩
  | 111 => ⟨S50000x64, .f32⟩
  | 112 => ⟨S50x64, .f32⟩
  | 113 => ⟨S50x64, .f32⟩
  | 114 => ⟨S500000x1, .i32⟩
  | 115 => ⟨S500000, .i32⟩
  | 116 => ⟨S_, .i32⟩
  | 117 => ⟨S500000, .i32⟩
  | 118 => ⟨S500000, .i1⟩
  | 119 => ⟨S_, .i32⟩
  | 120 => ⟨S500000, .i32⟩
  | 121 => ⟨S500000, .i32⟩
  | 122 => ⟨S500000, .i32⟩
  | 123 => ⟨S500000x1, .i32⟩
  | 124 => ⟨S500000x64, .f32⟩
  | 125 => ⟨S500000x1, .i32⟩
  | 126 => ⟨S500000, .i32⟩
  | 127 => ⟨S_, .i32⟩
  | _ => ⟨S150000x64, .f32⟩

abbrev hbmTy0_1 (i : Nat) : BufTy := match i % 128 with
  | 0 => ⟨S500000, .i32⟩
  | 1 => ⟨S500000, .i1⟩
  | 2 => ⟨S_, .i32⟩
  | 3 => ⟨S500000, .i32⟩
  | 4 => ⟨S500000, .i32⟩
  | 5 => ⟨S500000, .i32⟩
  | 6 => ⟨S500000x1, .i32⟩
  | 7 => ⟨S500000x64, .f32⟩
  | 8 => ⟨S500000x64, .f32⟩
  | 9 => ⟨S500000x64, .f32⟩
  | 10 => ⟨S500000x64, .f32⟩
  | 11 => ⟨S_, .f32⟩
  | 12 => ⟨S500000x64, .f32⟩
  | 13 => ⟨S500000x64, .f32⟩
  | 14 => ⟨S_, .f32⟩
  | 15 => ⟨S500000x64, .f32⟩
  | 16 => ⟨S500000x64, .f32⟩
  | 17 => ⟨S_, .i32⟩
  | 18 => ⟨S500000, .i32⟩
  | 19 => ⟨S500000, .i1⟩
  | 20 => ⟨S_, .i32⟩
  | 21 => ⟨S500000, .i32⟩
  | 22 => ⟨S500000, .i32⟩
  | 23 => ⟨S500000, .i32⟩
  | 24 => ⟨S500000x1, .i32⟩
  | 25 => ⟨S500000x64, .f32⟩
  | 26 => ⟨S500000x1, .i32⟩
  | 27 => ⟨S500000, .i32⟩
  | 28 => ⟨S_, .i32⟩
  | 29 => ⟨S500000, .i32⟩
  | 30 => ⟨S500000, .i1⟩
  | 31 => ⟨S_, .i32⟩
  | 32 => ⟨S500000, .i32⟩
  | 33 => ⟨S500000, .i32⟩
  | 34 => ⟨S500000, .i32⟩
  | 35 => ⟨S500000x1, .i32⟩
  | 36 => ⟨S500000x64, .f32⟩
  | 37 => ⟨S500000x64, .f32⟩
  | 38 => ⟨S500000x64, .f32⟩
  | 39 => ⟨S_, .i32⟩
  | 40 => ⟨S500000, .i32⟩
  | 41 => ⟨S500000, .i1⟩
  | 42 => ⟨S_, .i32⟩
  | 43 => ⟨S500000, .i32⟩
  | 44 => ⟨S500000, .i32⟩
  | 45 => ⟨S500000, .i32⟩
  | 46 => ⟨S500000x1, .i32⟩
  | 47 => ⟨S500000x1, .f32⟩
  | 48 => ⟨S500000x64, .f32⟩
  | 49 => ⟨S500000x64, .f32⟩
  | 50 => ⟨S_, .f32⟩
  | 51 => ⟨S100000x64, .f32⟩
  | 52 => ⟨S500000x1, .i32⟩
  | 53 => ⟨S100000x64, .f32⟩
  | 54 => ⟨S500000x1, .i32⟩
  | 55 => ⟨S500000, .i32⟩
  | 56 => ⟨S_, .i32⟩
  | 57 => ⟨S500000, .i32⟩
  | 58 => ⟨S500000, .i1⟩
  | 59 => ⟨S_, .i32⟩
  | 60 => ⟨S500000, .i32⟩
  | 61 => ⟨S500000, .i32⟩
  | 62 => ⟨S500000, .i32⟩
  | 63 => ⟨S500000x1, .i32⟩
  | 64 => ⟨S500000x64, .f32⟩
  | 65 => ⟨S500000x1, .i32⟩
  | 66 => ⟨S500000, .i32⟩
  | 67 => ⟨S_, .i32⟩
  | 68 => ⟨S500000, .i32⟩
  | 69 => ⟨S500000, .i1⟩
  | 70 => ⟨S_, .i32⟩
  | 71 => ⟨S500000, .i32⟩
  | 72 => ⟨S500000, .i32⟩
  | 73 => ⟨S500000, .i32⟩
  | 74 => ⟨S500000x1, .i32⟩
  | 75 => ⟨S500000x64, .f32⟩
  | 76 => ⟨S500000x64, .f32⟩
  | 77 => ⟨S500000x64, .f32⟩
  | 78 => ⟨S500000x64, .f32⟩
  | 79 => ⟨S_, .f32⟩
  | 80 => ⟨S500000x64, .f32⟩
  | 81 => ⟨S500000x64, .f32⟩
  | 82 => ⟨S_, .f32⟩
  | 83 => ⟨S500000x64, .f32⟩
  | 84 => ⟨S500000x64, .f32⟩
  | 85 => ⟨S_, .i32⟩
  | 86 => ⟨S500000, .i32⟩
  | 87 => ⟨S500000, .i1⟩
  | 88 => ⟨S_, .i32⟩
  | 89 => ⟨S500000, .i32⟩
  | 90 => ⟨S500000, .i32⟩
  | 91 => ⟨S500000, .i32⟩
  | 92 => ⟨S500000x1, .i32⟩
  | 93 => ⟨S500000x64, .f32⟩
  | 94 => ⟨S500000x1, .i32⟩
  | 95 => ⟨S500000, .i32⟩
  | 96 => ⟨S_, .i32⟩
  | 97 => ⟨S500000, .i32⟩
  | 98 => ⟨S500000, .i1⟩
  | 99 => ⟨S_, .i32⟩
  | 100 => ⟨S500000, .i32⟩
  | 101 => ⟨S500000, .i32⟩
  | 102 => ⟨S500000, .i32⟩
  | 103 => ⟨S500000x1, .i32⟩
  | 104 => ⟨S500000x64, .f32⟩
  | 105 => ⟨S500000x64, .f32⟩
  | 106 => ⟨S500000x64, .f32⟩
  | 107 => ⟨S_, .i32⟩
  | 108 => ⟨S500000, .i32⟩
  | 109 => ⟨S500000, .i1⟩
  | 110 => ⟨S_, .i32⟩
  | 111 => ⟨S500000, .i32⟩
  | 112 => ⟨S500000, .i32⟩
  | 113 => ⟨S500000, .i32⟩
  | 114 => ⟨S500000x1, .i32⟩
  | 115 => ⟨S500000x1, .f32⟩
  | 116 => ⟨S500000x64, .f32⟩
  | 117 => ⟨S500000x64, .f32⟩
  | 118 => ⟨S_, .f32⟩
  | 119 => ⟨S50000x64, .f32⟩
  | 120 => ⟨S500000x1, .i32⟩
  | 121 => ⟨S50000x64, .f32⟩
  | 122 => ⟨S_, .i32⟩
  | 123 => ⟨S300000, .i32⟩
  | 124 => ⟨S300000, .i1⟩
  | 125 => ⟨S_, .i32⟩
  | 126 => ⟨S300000, .i32⟩
  | 127 => ⟨S300000, .i32⟩
  | _ => ⟨S150000x64, .f32⟩

abbrev hbmTy0_2 (i : Nat) : BufTy := match i % 128 with
  | 0 => ⟨S300000, .i32⟩
  | 1 => ⟨S300000x1, .i32⟩
  | 2 => ⟨S300000x64, .f32⟩
  | 3 => ⟨S_, .i32⟩
  | 4 => ⟨S300000, .i32⟩
  | 5 => ⟨S300000, .i1⟩
  | 6 => ⟨S_, .i32⟩
  | 7 => ⟨S300000, .i32⟩
  | 8 => ⟨S300000, .i32⟩
  | 9 => ⟨S300000, .i32⟩
  | 10 => ⟨S300000x1, .i32⟩
  | 11 => ⟨S300000x64, .f32⟩
  | 12 => ⟨S300000x64, .f32⟩
  | 13 => ⟨S_, .i32⟩
  | 14 => ⟨S300000, .i32⟩
  | 15 => ⟨S300000, .i1⟩
  | 16 => ⟨S_, .i32⟩
  | 17 => ⟨S300000, .i32⟩
  | 18 => ⟨S300000, .i32⟩
  | 19 => ⟨S300000, .i32⟩
  | 20 => ⟨S300000x1, .i32⟩
  | 21 => ⟨S300000x1, .f32⟩
  | 22 => ⟨S300000x64, .f32⟩
  | 23 => ⟨S300000x64, .f32⟩
  | 24 => ⟨S_, .f32⟩
  | 25 => ⟨S50000x64, .f32⟩
  | 26 => ⟨S300000x1, .i32⟩
  | 27 => ⟨S50000x64, .f32⟩
  | 28 => ⟨S_, .i32⟩
  | 29 => ⟨S300000, .i32⟩
  | 30 => ⟨S300000, .i1⟩
  | 31 => ⟨S_, .i32⟩
  | 32 => ⟨S300000, .i32⟩
  | 33 => ⟨S300000, .i32⟩
  | 34 => ⟨S300000, .i32⟩
  | 35 => ⟨S300000x1, .i32⟩
  | 36 => ⟨S300000x64, .f32⟩
  | 37 => ⟨S_, .i32⟩
  | 38 => ⟨S300000, .i32⟩
  | 39 => ⟨S300000, .i1⟩
  | 40 => ⟨S_, .i32⟩
  | 41 => ⟨S300000, .i32⟩
  | 42 => ⟨S300000, .i32⟩
  | 43 => ⟨S300000, .i32⟩
  | 44 => ⟨S300000x1, .i32⟩
  | 45 => ⟨S300000x64, .f32⟩
  | 46 => ⟨S300000x64, .f32⟩
  | 47 => ⟨S_, .i32⟩
  | 48 => ⟨S300000, .i32⟩
  | 49 => ⟨S300000, .i1⟩
  | 50 => ⟨S_, .i32⟩
  | 51 => ⟨S300000, .i32⟩
  | 52 => ⟨S300000, .i32⟩
  | 53 => ⟨S300000, .i32⟩
  | 54 => ⟨S300000x1, .i32⟩
  | 55 => ⟨S300000x1, .f32⟩
  | 56 => ⟨S300000x64, .f32⟩
  | 57 => ⟨S300000x64, .f32⟩
  | 58 => ⟨S_, .f32⟩
  | 59 => ⟨S100000x64, .f32⟩
  | 60 => ⟨S300000x1, .i32⟩
  | 61 => ⟨S100000x64, .f32⟩
  | 62 => ⟨S100000x64, .f32⟩
  | 63 => ⟨S100000x64, .f32⟩
  | 64 => ⟨S100000x64, .f32⟩
  | 65 => ⟨S100000x64, .f32⟩
  | 66 => ⟨S100000x64, .f32⟩
  | 67 => ⟨S100000x64, .f32⟩
  | 68 => ⟨S100000x192, .f32⟩
  | 69 => ⟨S50000x64, .f32⟩
  | 70 => ⟨S50000x64, .f32⟩
  | 71 => ⟨S50000x64, .f32⟩
  | 72 => ⟨S50000x64, .f32⟩
  | 73 => ⟨S50000x64, .f32⟩
  | 74 => ⟨S50000x64, .f32⟩
  | 75 => ⟨S50000x192, .f32⟩
  | 76 => ⟨S200000x64, .f32⟩
  | 77 => ⟨S_, .i32⟩
  | 78 => ⟨S200000, .i32⟩
  | 79 => ⟨S200000, .i1⟩
  | 80 => ⟨S_, .i32⟩
  | 81 => ⟨S200000, .i32⟩
  | 82 => ⟨S200000, .i32⟩
  | 83 => ⟨S200000, .i32⟩
  | 84 => ⟨S200000x1, .i32⟩
  | 85 => ⟨S200000x192, .f32⟩
  | 86 => ⟨S200000x256, .f32⟩
  | 87 => ⟨S_, .i32⟩
  | 88 => ⟨S200000, .i32⟩
  | 89 => ⟨S200000, .i1⟩
  | 90 => ⟨S_, .i32⟩
  | 91 => ⟨S200000, .i32⟩
  | 92 => ⟨S200000, .i32⟩
  | 93 => ⟨S200000, .i32⟩
  | 94 => ⟨S200000x1, .i32⟩
  | 95 => ⟨S200000x256, .f32⟩
  | 96 => ⟨S200000x256, .f32⟩
  | 97 => ⟨S200000x256, .f32⟩
  | 98 => ⟨S_, .f32⟩
  | 99 => ⟨S200000x256, .f32⟩
  | 100 => ⟨S200000x256, .f32⟩
  | 101 => ⟨S_, .f32⟩
  | 102 => ⟨S200000x256, .f32⟩
  | 103 => ⟨S200000x256, .f32⟩
  | 104 => ⟨S200000x256, .f32⟩
  | 105 => ⟨S_, .i32⟩
  | 106 => ⟨S200000, .i32⟩
  | 107 => ⟨S200000, .i1⟩
  | 108 => ⟨S_, .i32⟩
  | 109 => ⟨S200000, .i32⟩
  | 110 => ⟨S200000, .i32⟩
  | 111 => ⟨S200000, .i32⟩
  | 112 => ⟨S200000x1, .i32⟩
  | 113 => ⟨S200000x1, .f32⟩
  | 114 => ⟨S200000x256, .f32⟩
  | 115 => ⟨S200000x256, .f32⟩
  | 116 => ⟨S_, .f32⟩
  | 117 => ⟨S100000x256, .f32⟩
  | 118 => ⟨S200000x1, .i32⟩
  | 119 => ⟨S100000x256, .f32⟩
  | 120 => ⟨S100000x256, .f32⟩
  | 121 => ⟨S100000x256, .f32⟩
  | 122 => ⟨S200000x64, .f32⟩
  | 123 => ⟨S_, .i32⟩
  | 124 => ⟨S200000, .i32⟩
  | 125 => ⟨S200000, .i1⟩
  | 126 => ⟨S_, .i32⟩
  | 127 => ⟨S200000, .i32⟩
  | _ => ⟨S150000x64, .f32⟩

abbrev hbmTy0_3 (i : Nat) : BufTy := match i % 128 with
  | 0 => ⟨S200000, .i32⟩
  | 1 => ⟨S200000, .i32⟩
  | 2 => ⟨S200000x1, .i32⟩
  | 3 => ⟨S200000x192, .f32⟩
  | 4 => ⟨S200000x256, .f32⟩
  | 5 => ⟨S_, .i32⟩
  | 6 => ⟨S200000, .i32⟩
  | 7 => ⟨S200000, .i1⟩
  | 8 => ⟨S_, .i32⟩
  | 9 => ⟨S200000, .i32⟩
  | 10 => ⟨S200000, .i32⟩
  | 11 => ⟨S200000, .i32⟩
  | 12 => ⟨S200000x1, .i32⟩
  | 13 => ⟨S200000x256, .f32⟩
  | 14 => ⟨S200000x256, .f32⟩
  | 15 => ⟨S200000x256, .f32⟩
  | 16 => ⟨S_, .f32⟩
  | 17 => ⟨S200000x256, .f32⟩
  | 18 => ⟨S200000x256, .f32⟩
  | 19 => ⟨S_, .f32⟩
  | 20 => ⟨S200000x256, .f32⟩
  | 21 => ⟨S200000x256, .f32⟩
  | 22 => ⟨S200000x256, .f32⟩
  | 23 => ⟨S_, .i32⟩
  | 24 => ⟨S200000, .i32⟩
  | 25 => ⟨S200000, .i1⟩
  | 26 => ⟨S_, .i32⟩
  | 27 => ⟨S200000, .i32⟩
  | 28 => ⟨S200000, .i32⟩
  | 29 => ⟨S200000, .i32⟩
  | 30 => ⟨S200000x1, .i32⟩
  | 31 => ⟨S200000x1, .f32⟩
  | 32 => ⟨S200000x256, .f32⟩
  | 33 => ⟨S200000x256, .f32⟩
  | 34 => ⟨S_, .f32⟩
  | 35 => ⟨S50000x256, .f32⟩
  | 36 => ⟨S200000x1, .i32⟩
  | 37 => ⟨S50000x256, .f32⟩
  | 38 => ⟨S50000x256, .f32⟩
  | 39 => ⟨S50000x256, .f32⟩
  | 40 => ⟨S150000x256, .f32⟩
  | _ => ⟨S150000x64, .f32⟩

abbrev hbmTy (i : Nat) : BufTy := match i / 128 with
  | 0 => hbmTy0_0 i
  | 1 => hbmTy0_1 i
  | 2 => hbmTy0_2 i
  | 3 => hbmTy0_3 i
  | _ => ⟨S150000x64, .f32⟩

abbrev bufTy : (tb : Table) → Fin (tcTables nBuf tb) → BufTy
  | .hbm, ⟨i, _⟩ => hbmTy i
  | _, _ => ⟨S150000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_v0 : Ref sig .tc := ⟨.hbm, 54, rfl⟩
abbrev main_v1 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_c : Ref sig .tc := ⟨.hbm, 60, rfl⟩
abbrev main_v6 : Ref sig .tc := ⟨.hbm, 61, rfl⟩
abbrev main_v7 : Ref sig .tc := ⟨.hbm, 62, rfl⟩
abbrev main_c_0 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_c_1 : Ref sig .tc := ⟨.hbm, 71, rfl⟩
abbrev main_v15 : Ref sig .tc := ⟨.hbm, 72, rfl⟩
abbrev main_v16 : Ref sig .tc := ⟨.hbm, 73, rfl⟩
abbrev main_c_2 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_cst : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_c_3 : Ref sig .tc := ⟨.hbm, 86, rfl⟩
abbrev main_v27 : Ref sig .tc := ⟨.hbm, 87, rfl⟩
abbrev main_v28 : Ref sig .tc := ⟨.hbm, 88, rfl⟩
abbrev main_c_4 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_c_5 : Ref sig .tc := ⟨.hbm, 97, rfl⟩
abbrev main_v36 : Ref sig .tc := ⟨.hbm, 98, rfl⟩
abbrev main_v37 : Ref sig .tc := ⟨.hbm, 99, rfl⟩
abbrev main_c_6 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_cst_7 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_c_8 : Ref sig .tc := ⟨.hbm, 116, rfl⟩
abbrev main_v52 : Ref sig .tc := ⟨.hbm, 117, rfl⟩
abbrev main_v53 : Ref sig .tc := ⟨.hbm, 118, rfl⟩
abbrev main_c_9 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_c_10 : Ref sig .tc := ⟨.hbm, 127, rfl⟩
abbrev main_v61 : Ref sig .tc := ⟨.hbm, 128, rfl⟩
abbrev main_v62 : Ref sig .tc := ⟨.hbm, 129, rfl⟩
abbrev main_c_11 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_cst_12 : Ref sig .tc := ⟨.hbm, 139, rfl⟩
abbrev main_v71 : Ref sig .tc := ⟨.hbm, 140, rfl⟩
abbrev main_v72 : Ref sig .tc := ⟨.hbm, 141, rfl⟩
abbrev main_cst_13 : Ref sig .tc := ⟨.hbm, 142, rfl⟩
abbrev main_v73 : Ref sig .tc := ⟨.hbm, 143, rfl⟩
abbrev main_v74 : Ref sig .tc := ⟨.hbm, 144, rfl⟩
abbrev main_c_14 : Ref sig .tc := ⟨.hbm, 145, rfl⟩
abbrev main_v75 : Ref sig .tc := ⟨.hbm, 146, rfl⟩
abbrev main_v76 : Ref sig .tc := ⟨.hbm, 147, rfl⟩
abbrev main_c_15 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_c_16 : Ref sig .tc := ⟨.hbm, 156, rfl⟩
abbrev main_v84 : Ref sig .tc := ⟨.hbm, 157, rfl⟩
abbrev main_v85 : Ref sig .tc := ⟨.hbm, 158, rfl⟩
abbrev main_c_17 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_c_18 : Ref sig .tc := ⟨.hbm, 167, rfl⟩
abbrev main_v93 : Ref sig .tc := ⟨.hbm, 168, rfl⟩
abbrev main_v94 : Ref sig .tc := ⟨.hbm, 169, rfl⟩
abbrev main_c_19 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_cst_20 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_c_21 : Ref sig .tc := ⟨.hbm, 184, rfl⟩
abbrev main_v107 : Ref sig .tc := ⟨.hbm, 185, rfl⟩
abbrev main_v108 : Ref sig .tc := ⟨.hbm, 186, rfl⟩
abbrev main_c_22 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_c_23 : Ref sig .tc := ⟨.hbm, 195, rfl⟩
abbrev main_v116 : Ref sig .tc := ⟨.hbm, 196, rfl⟩
abbrev main_v117 : Ref sig .tc := ⟨.hbm, 197, rfl⟩
abbrev main_c_24 : Ref sig .tc := ⟨.hbm, 198, rfl⟩
abbrev main_v118 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_cst_25 : Ref sig .tc := ⟨.hbm, 207, rfl⟩
abbrev main_v126 : Ref sig .tc := ⟨.hbm, 208, rfl⟩
abbrev main_v127 : Ref sig .tc := ⟨.hbm, 209, rfl⟩
abbrev main_cst_26 : Ref sig .tc := ⟨.hbm, 210, rfl⟩
abbrev main_v128 : Ref sig .tc := ⟨.hbm, 211, rfl⟩
abbrev main_v129 : Ref sig .tc := ⟨.hbm, 212, rfl⟩
abbrev main_c_27 : Ref sig .tc := ⟨.hbm, 213, rfl⟩
abbrev main_v130 : Ref sig .tc := ⟨.hbm, 214, rfl⟩
abbrev main_v131 : Ref sig .tc := ⟨.hbm, 215, rfl⟩
abbrev main_c_28 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_v137 : Ref sig .tc := ⟨.hbm, 222, rfl⟩
abbrev main_v138 : Ref sig .tc := ⟨.hbm, 223, rfl⟩
abbrev main_c_29 : Ref sig .tc := ⟨.hbm, 224, rfl⟩
abbrev main_v139 : Ref sig .tc := ⟨.hbm, 225, rfl⟩
abbrev main_v140 : Ref sig .tc := ⟨.hbm, 226, rfl⟩
abbrev main_c_30 : Ref sig .tc := ⟨.hbm, 227, rfl⟩
abbrev main_v141 : Ref sig .tc := ⟨.hbm, 228, rfl⟩
abbrev main_v142 : Ref sig .tc := ⟨.hbm, 229, rfl⟩
abbrev main_v143 : Ref sig .tc := ⟨.hbm, 230, rfl⟩
abbrev main_v144 : Ref sig .tc := ⟨.hbm, 231, rfl⟩
abbrev main_v145 : Ref sig .tc := ⟨.hbm, 232, rfl⟩
abbrev main_v146 : Ref sig .tc := ⟨.hbm, 233, rfl⟩
abbrev main_v147 : Ref sig .tc := ⟨.hbm, 234, rfl⟩
abbrev main_c_31 : Ref sig .tc := ⟨.hbm, 235, rfl⟩
abbrev main_v148 : Ref sig .tc := ⟨.hbm, 236, rfl⟩
abbrev main_v149 : Ref sig .tc := ⟨.hbm, 237, rfl⟩
abbrev main_c_32 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_cst_33 : Ref sig .tc := ⟨.hbm, 246, rfl⟩
abbrev main_v157 : Ref sig .tc := ⟨.hbm, 247, rfl⟩
abbrev main_v158 : Ref sig .tc := ⟨.hbm, 248, rfl⟩
abbrev main_v159 : Ref sig .tc := ⟨.hbm, 249, rfl⟩
abbrev main_c_34 : Ref sig .tc := ⟨.hbm, 250, rfl⟩
abbrev main_v160 : Ref sig .tc := ⟨.hbm, 251, rfl⟩
abbrev main_v161 : Ref sig .tc := ⟨.hbm, 252, rfl⟩
abbrev main_c_35 : Ref sig .tc := ⟨.hbm, 253, rfl⟩
abbrev main_v162 : Ref sig .tc := ⟨.hbm, 254, rfl⟩
abbrev main_v163 : Ref sig .tc := ⟨.hbm, 255, rfl⟩
abbrev main_v164 : Ref sig .tc := ⟨.hbm, 256, rfl⟩
abbrev main_v165 : Ref sig .tc := ⟨.hbm, 257, rfl⟩
abbrev main_v166 : Ref sig .tc := ⟨.hbm, 258, rfl⟩
abbrev main_c_36 : Ref sig .tc := ⟨.hbm, 259, rfl⟩
abbrev main_v167 : Ref sig .tc := ⟨.hbm, 260, rfl⟩
abbrev main_v168 : Ref sig .tc := ⟨.hbm, 261, rfl⟩
abbrev main_c_37 : Ref sig .tc := ⟨.hbm, 262, rfl⟩
abbrev main_v169 : Ref sig .tc := ⟨.hbm, 263, rfl⟩
abbrev main_v170 : Ref sig .tc := ⟨.hbm, 264, rfl⟩
abbrev main_v171 : Ref sig .tc := ⟨.hbm, 265, rfl⟩
abbrev main_v172 : Ref sig .tc := ⟨.hbm, 266, rfl⟩
abbrev main_v173 : Ref sig .tc := ⟨.hbm, 267, rfl⟩
abbrev main_v174 : Ref sig .tc := ⟨.hbm, 268, rfl⟩
abbrev main_c_38 : Ref sig .tc := ⟨.hbm, 269, rfl⟩
abbrev main_v175 : Ref sig .tc := ⟨.hbm, 270, rfl⟩
abbrev main_v176 : Ref sig .tc := ⟨.hbm, 271, rfl⟩
abbrev main_c_39 : Ref sig .tc := ⟨.hbm, 272, rfl⟩
abbrev main_v177 : Ref sig .tc := ⟨.hbm, 273, rfl⟩
abbrev main_v178 : Ref sig .tc := ⟨.hbm, 274, rfl⟩
abbrev main_v179 : Ref sig .tc := ⟨.hbm, 275, rfl⟩
abbrev main_v180 : Ref sig .tc := ⟨.hbm, 276, rfl⟩
abbrev main_v181 : Ref sig .tc := ⟨.hbm, 277, rfl⟩
abbrev main_v182 : Ref sig .tc := ⟨.hbm, 278, rfl⟩
abbrev main_v183 : Ref sig .tc := ⟨.hbm, 279, rfl⟩
abbrev main_cst_40 : Ref sig .tc := ⟨.hbm, 280, rfl⟩
abbrev main_v184 : Ref sig .tc := ⟨.hbm, 281, rfl⟩
abbrev main_v185 : Ref sig .tc := ⟨.hbm, 282, rfl⟩
abbrev main_v186 : Ref sig .tc := ⟨.hbm, 283, rfl⟩
abbrev main_c_41 : Ref sig .tc := ⟨.hbm, 284, rfl⟩
abbrev main_v187 : Ref sig .tc := ⟨.hbm, 285, rfl⟩
abbrev main_v188 : Ref sig .tc := ⟨.hbm, 286, rfl⟩
abbrev main_c_42 : Ref sig .tc := ⟨.hbm, 287, rfl⟩
abbrev main_v189 : Ref sig .tc := ⟨.hbm, 288, rfl⟩
abbrev main_v190 : Ref sig .tc := ⟨.hbm, 289, rfl⟩
abbrev main_v191 : Ref sig .tc := ⟨.hbm, 290, rfl⟩
abbrev main_v192 : Ref sig .tc := ⟨.hbm, 291, rfl⟩
abbrev main_v193 : Ref sig .tc := ⟨.hbm, 292, rfl⟩
abbrev main_c_43 : Ref sig .tc := ⟨.hbm, 293, rfl⟩
abbrev main_v194 : Ref sig .tc := ⟨.hbm, 294, rfl⟩
abbrev main_v195 : Ref sig .tc := ⟨.hbm, 295, rfl⟩
abbrev main_c_44 : Ref sig .tc := ⟨.hbm, 296, rfl⟩
abbrev main_v196 : Ref sig .tc := ⟨.hbm, 297, rfl⟩
abbrev main_v197 : Ref sig .tc := ⟨.hbm, 298, rfl⟩
abbrev main_v198 : Ref sig .tc := ⟨.hbm, 299, rfl⟩
abbrev main_v199 : Ref sig .tc := ⟨.hbm, 300, rfl⟩
abbrev main_v200 : Ref sig .tc := ⟨.hbm, 301, rfl⟩
abbrev main_v201 : Ref sig .tc := ⟨.hbm, 302, rfl⟩
abbrev main_c_45 : Ref sig .tc := ⟨.hbm, 303, rfl⟩
abbrev main_v202 : Ref sig .tc := ⟨.hbm, 304, rfl⟩
abbrev main_v203 : Ref sig .tc := ⟨.hbm, 305, rfl⟩
abbrev main_c_46 : Ref sig .tc := ⟨.hbm, 306, rfl⟩
abbrev main_v204 : Ref sig .tc := ⟨.hbm, 307, rfl⟩
abbrev main_v205 : Ref sig .tc := ⟨.hbm, 308, rfl⟩
abbrev main_v206 : Ref sig .tc := ⟨.hbm, 309, rfl⟩
abbrev main_v207 : Ref sig .tc := ⟨.hbm, 310, rfl⟩
abbrev main_v208 : Ref sig .tc := ⟨.hbm, 311, rfl⟩
abbrev main_v209 : Ref sig .tc := ⟨.hbm, 312, rfl⟩
abbrev main_v210 : Ref sig .tc := ⟨.hbm, 313, rfl⟩
abbrev main_cst_47 : Ref sig .tc := ⟨.hbm, 314, rfl⟩
abbrev main_v211 : Ref sig .tc := ⟨.hbm, 315, rfl⟩
abbrev main_v212 : Ref sig .tc := ⟨.hbm, 316, rfl⟩
abbrev main_v213 : Ref sig .tc := ⟨.hbm, 317, rfl⟩
abbrev main_v214 : Ref sig .tc := ⟨.hbm, 318, rfl⟩
abbrev main_v215 : Ref sig .tc := ⟨.hbm, 319, rfl⟩
abbrev main_v216 : Ref sig .tc := ⟨.hbm, 320, rfl⟩
abbrev main_v217 : Ref sig .tc := ⟨.hbm, 321, rfl⟩
abbrev main_v218 : Ref sig .tc := ⟨.hbm, 322, rfl⟩
abbrev main_v219 : Ref sig .tc := ⟨.hbm, 323, rfl⟩
abbrev main_v220 : Ref sig .tc := ⟨.hbm, 324, rfl⟩
abbrev main_v221 : Ref sig .tc := ⟨.hbm, 325, rfl⟩
abbrev main_v222 : Ref sig .tc := ⟨.hbm, 326, rfl⟩
abbrev main_v223 : Ref sig .tc := ⟨.hbm, 327, rfl⟩
abbrev main_v224 : Ref sig .tc := ⟨.hbm, 328, rfl⟩
abbrev main_v225 : Ref sig .tc := ⟨.hbm, 329, rfl⟩
abbrev main_v226 : Ref sig .tc := ⟨.hbm, 330, rfl⟩
abbrev main_v227 : Ref sig .tc := ⟨.hbm, 331, rfl⟩
abbrev main_v228 : Ref sig .tc := ⟨.hbm, 332, rfl⟩
abbrev main_c_48 : Ref sig .tc := ⟨.hbm, 333, rfl⟩
abbrev main_v229 : Ref sig .tc := ⟨.hbm, 334, rfl⟩
abbrev main_v230 : Ref sig .tc := ⟨.hbm, 335, rfl⟩
abbrev main_c_49 : Ref sig .tc := ⟨.hbm, 336, rfl⟩
abbrev main_v231 : Ref sig .tc := ⟨.hbm, 337, rfl⟩
abbrev main_v232 : Ref sig .tc := ⟨.hbm, 338, rfl⟩
abbrev main_v233 : Ref sig .tc := ⟨.hbm, 339, rfl⟩
abbrev main_v234 : Ref sig .tc := ⟨.hbm, 340, rfl⟩
abbrev main_v235 : Ref sig .tc := ⟨.hbm, 341, rfl⟩
abbrev main_v236 : Ref sig .tc := ⟨.hbm, 342, rfl⟩
abbrev main_c_50 : Ref sig .tc := ⟨.hbm, 343, rfl⟩
abbrev main_v237 : Ref sig .tc := ⟨.hbm, 344, rfl⟩
abbrev main_v238 : Ref sig .tc := ⟨.hbm, 345, rfl⟩
abbrev main_c_51 : Ref sig .tc := ⟨.hbm, 346, rfl⟩
abbrev main_v239 : Ref sig .tc := ⟨.hbm, 347, rfl⟩
abbrev main_v240 : Ref sig .tc := ⟨.hbm, 348, rfl⟩
abbrev main_v241 : Ref sig .tc := ⟨.hbm, 349, rfl⟩
abbrev main_v242 : Ref sig .tc := ⟨.hbm, 350, rfl⟩
abbrev main_v243 : Ref sig .tc := ⟨.hbm, 351, rfl⟩
abbrev main_v244 : Ref sig .tc := ⟨.hbm, 352, rfl⟩
abbrev main_v245 : Ref sig .tc := ⟨.hbm, 353, rfl⟩
abbrev main_cst_52 : Ref sig .tc := ⟨.hbm, 354, rfl⟩
abbrev main_v246 : Ref sig .tc := ⟨.hbm, 355, rfl⟩
abbrev main_v247 : Ref sig .tc := ⟨.hbm, 356, rfl⟩
abbrev main_cst_53 : Ref sig .tc := ⟨.hbm, 357, rfl⟩
abbrev main_v248 : Ref sig .tc := ⟨.hbm, 358, rfl⟩
abbrev main_v249 : Ref sig .tc := ⟨.hbm, 359, rfl⟩
abbrev main_v250 : Ref sig .tc := ⟨.hbm, 360, rfl⟩
abbrev main_c_54 : Ref sig .tc := ⟨.hbm, 361, rfl⟩
abbrev main_v251 : Ref sig .tc := ⟨.hbm, 362, rfl⟩
abbrev main_v252 : Ref sig .tc := ⟨.hbm, 363, rfl⟩
abbrev main_c_55 : Ref sig .tc := ⟨.hbm, 364, rfl⟩
abbrev main_v253 : Ref sig .tc := ⟨.hbm, 365, rfl⟩
abbrev main_v254 : Ref sig .tc := ⟨.hbm, 366, rfl⟩
abbrev main_v255 : Ref sig .tc := ⟨.hbm, 367, rfl⟩
abbrev main_v256 : Ref sig .tc := ⟨.hbm, 368, rfl⟩
abbrev main_v257 : Ref sig .tc := ⟨.hbm, 369, rfl⟩
abbrev main_v258 : Ref sig .tc := ⟨.hbm, 370, rfl⟩
abbrev main_v259 : Ref sig .tc := ⟨.hbm, 371, rfl⟩
abbrev main_cst_56 : Ref sig .tc := ⟨.hbm, 372, rfl⟩
abbrev main_v260 : Ref sig .tc := ⟨.hbm, 373, rfl⟩
abbrev main_v261 : Ref sig .tc := ⟨.hbm, 374, rfl⟩
abbrev main_v262 : Ref sig .tc := ⟨.hbm, 375, rfl⟩
abbrev main_v263 : Ref sig .tc := ⟨.hbm, 376, rfl⟩
abbrev main_v264 : Ref sig .tc := ⟨.hbm, 377, rfl⟩
abbrev main_v265 : Ref sig .tc := ⟨.hbm, 378, rfl⟩
abbrev main_c_57 : Ref sig .tc := ⟨.hbm, 379, rfl⟩
abbrev main_v266 : Ref sig .tc := ⟨.hbm, 380, rfl⟩
abbrev main_v267 : Ref sig .tc := ⟨.hbm, 381, rfl⟩
abbrev main_c_58 : Ref sig .tc := ⟨.hbm, 382, rfl⟩
abbrev main_v268 : Ref sig .tc := ⟨.hbm, 383, rfl⟩
abbrev main_v269 : Ref sig .tc := ⟨.hbm, 384, rfl⟩
abbrev main_v270 : Ref sig .tc := ⟨.hbm, 385, rfl⟩
abbrev main_v271 : Ref sig .tc := ⟨.hbm, 386, rfl⟩
abbrev main_v272 : Ref sig .tc := ⟨.hbm, 387, rfl⟩
abbrev main_v273 : Ref sig .tc := ⟨.hbm, 388, rfl⟩
abbrev main_c_59 : Ref sig .tc := ⟨.hbm, 389, rfl⟩
abbrev main_v274 : Ref sig .tc := ⟨.hbm, 390, rfl⟩
abbrev main_v275 : Ref sig .tc := ⟨.hbm, 391, rfl⟩
abbrev main_c_60 : Ref sig .tc := ⟨.hbm, 392, rfl⟩
abbrev main_v276 : Ref sig .tc := ⟨.hbm, 393, rfl⟩
abbrev main_v277 : Ref sig .tc := ⟨.hbm, 394, rfl⟩
abbrev main_v278 : Ref sig .tc := ⟨.hbm, 395, rfl⟩
abbrev main_v279 : Ref sig .tc := ⟨.hbm, 396, rfl⟩
abbrev main_v280 : Ref sig .tc := ⟨.hbm, 397, rfl⟩
abbrev main_v281 : Ref sig .tc := ⟨.hbm, 398, rfl⟩
abbrev main_v282 : Ref sig .tc := ⟨.hbm, 399, rfl⟩
abbrev main_cst_61 : Ref sig .tc := ⟨.hbm, 400, rfl⟩
abbrev main_v283 : Ref sig .tc := ⟨.hbm, 401, rfl⟩
abbrev main_v284 : Ref sig .tc := ⟨.hbm, 402, rfl⟩
abbrev main_cst_62 : Ref sig .tc := ⟨.hbm, 403, rfl⟩
abbrev main_v285 : Ref sig .tc := ⟨.hbm, 404, rfl⟩
abbrev main_v286 : Ref sig .tc := ⟨.hbm, 405, rfl⟩
abbrev main_v287 : Ref sig .tc := ⟨.hbm, 406, rfl⟩
abbrev main_c_63 : Ref sig .tc := ⟨.hbm, 407, rfl⟩
abbrev main_v288 : Ref sig .tc := ⟨.hbm, 408, rfl⟩
abbrev main_v289 : Ref sig .tc := ⟨.hbm, 409, rfl⟩
abbrev main_c_64 : Ref sig .tc := ⟨.hbm, 410, rfl⟩
abbrev main_v290 : Ref sig .tc := ⟨.hbm, 411, rfl⟩
abbrev main_v291 : Ref sig .tc := ⟨.hbm, 412, rfl⟩
abbrev main_v292 : Ref sig .tc := ⟨.hbm, 413, rfl⟩
abbrev main_v293 : Ref sig .tc := ⟨.hbm, 414, rfl⟩
abbrev main_v294 : Ref sig .tc := ⟨.hbm, 415, rfl⟩
abbrev main_v295 : Ref sig .tc := ⟨.hbm, 416, rfl⟩
abbrev main_v296 : Ref sig .tc := ⟨.hbm, 417, rfl⟩
abbrev main_cst_65 : Ref sig .tc := ⟨.hbm, 418, rfl⟩
abbrev main_v297 : Ref sig .tc := ⟨.hbm, 419, rfl⟩
abbrev main_v298 : Ref sig .tc := ⟨.hbm, 420, rfl⟩
abbrev main_v299 : Ref sig .tc := ⟨.hbm, 421, rfl⟩
abbrev main_v300 : Ref sig .tc := ⟨.hbm, 422, rfl⟩
abbrev main_v301 : Ref sig .tc := ⟨.hbm, 423, rfl⟩
abbrev main_v302 : Ref sig .tc := ⟨.hbm, 424, rfl⟩

abbrev nD : Nat := 1
abbrev τ : Topo := Topo.v7x

variable {F : FTy → Type} [FloatOps F]

class Facts₀ : Prop where
  slices_S150000x64_S100000x64_0_0 : S150000x64.Slices ![0, 0] S100000x64
  slices_S150000x64_S50000x64_100000_0 : S150000x64.Slices ![100000, 0] S50000x64
  bcast_S_S300000 : S_.BroadcastsInDim S300000 (![] : Fin 0 → Fin S300000.rank)
  bcast_S300000_S300000x1_0 : S300000.BroadcastsInDim S300000x1 (![0] : Fin 1 → Fin S300000x1.rank)
  bcast_S300000x1_S300000x64_0_1 : S300000x1.BroadcastsInDim S300000x64 (![0, 1] : Fin 2 → Fin S300000x64.rank)
  bcast_S_S100000x64 : S_.BroadcastsInDim S100000x64 (![] : Fin 0 → Fin S100000x64.rank)
  bcast_S_S50000x64 : S_.BroadcastsInDim S50000x64 (![] : Fin 0 → Fin S50000x64.rank)
  slices_S500000x3_S500000x1_0_1 : S500000x3.Slices ![0, 1] S500000x1
  shapeCasts_S500000x1_S500000 : S500000x1.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S500000x3_S500000x1_0_2 : S500000x3.Slices ![0, 2] S500000x1
  bcast_S_S500000x64 : S_.BroadcastsInDim S500000x64 (![] : Fin 0 → Fin S500000x64.rank)
  slices_S500000x3_S500000x1_0_0 : S500000x3.Slices ![0, 0] S500000x1
  bcast_S500000x1_S500000x64_0_1 : S500000x1.BroadcastsInDim S500000x64 (![0, 1] : Fin 2 → Fin S500000x64.rank)
  bcast_S100000x1_S100000x64_0_1 : S100000x1.BroadcastsInDim S100000x64 (![0, 1] : Fin 2 → Fin S100000x64.rank)
  concatenates_S100000x64_S100000x64_S100000x64_S100000x192_d1 : Shape.Concatenates [S100000x64, S100000x64, S100000x64] S100000x192 1
  bcast_S50000x1_S50000x64_0_1 : S50000x1.BroadcastsInDim S50000x64 (![0, 1] : Fin 2 → Fin S50000x64.rank)
  concatenates_S50000x64_S50000x64_S50000x64_S50000x192_d1 : Shape.Concatenates [S50000x64, S50000x64, S50000x64] S50000x192 1
  bcast_S_S200000 : S_.BroadcastsInDim S200000 (![] : Fin 0 → Fin S200000.rank)
  bcast_S200000_S200000x1_0 : S200000.BroadcastsInDim S200000x1 (![0] : Fin 1 → Fin S200000x1.rank)
  concatenates_S200000x192_S200000x64_S200000x256_d1 : Shape.Concatenates [S200000x192, S200000x64] S200000x256 1
  bcast_S_S200000x256 : S_.BroadcastsInDim S200000x256 (![] : Fin 0 → Fin S200000x256.rank)
  bcast_S200000x1_S200000x256_0_1 : S200000x1.BroadcastsInDim S200000x256 (![0, 1] : Fin 2 → Fin S200000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  concatenates_S100000x256_S50000x256_S150000x256_d0 : Shape.Concatenates [S100000x256, S50000x256] S150000x256 0
  dot_S500x64_S64x64_S500x64_1_0_0_1_n_n_wf : DotDims.WF S500x64 S64x64 S500x64 [1] [0] [0] [1] [] []
  gather_S500x64_S300000x1_S300000x64_1_0_n_n_0_1_164_wf : GatherDims.WF S500x64 S300000x1 S300000x64 [1] [0] [] [0] [] 1 ![1, 64]
  dot_S300000x64_S64x64_S300000x64_1_0_0_1_n_n_wf : DotDims.WF S300000x64 S64x64 S300000x64 [1] [0] [0] [1] [] []
  gather_S500x1_S300000x1_S300000x1_1_0_n_n_0_1_11_wf : GatherDims.WF S500x1 S300000x1 S300000x1 [1] [0] [] [0] [] 1 ![1, 1]
  scatter_S100000x64_S300000x1_S300000x64_1_0_0_1_wf : ScatterDims.WF S100000x64 S300000x1 S300000x64 [1] [0] [0] 1
  scatter_S50000x64_S300000x1_S300000x64_1_0_0_1_wf : ScatterDims.WF S50000x64 S300000x1 S300000x64 [1] [0] [0] 1
  dot_S50x64_S64x64_S50x64_1_0_0_1_n_n_wf : DotDims.WF S50x64 S64x64 S50x64 [1] [0] [0] [1] [] []
  gather_S50x64_S500000x1_S500000x64_1_0_n_n_0_1_164_wf : GatherDims.WF S50x64 S500000x1 S500000x64 [1] [0] [] [0] [] 1 ![1, 64]
  gather_S100000x64_S500000x1_S500000x64_1_0_n_n_0_1_164_wf : GatherDims.WF S100000x64 S500000x1 S500000x64 [1] [0] [] [0] [] 1 ![1, 64]
  gather_S500x64_S500000x1_S500000x64_1_0_n_n_0_1_164_wf : GatherDims.WF S500x64 S500000x1 S500000x64 [1] [0] [] [0] [] 1 ![1, 64]
  gather_S100000x1_S500000x1_S500000x1_1_0_n_n_0_1_11_wf : GatherDims.WF S100000x1 S500000x1 S500000x1 [1] [0] [] [0] [] 1 ![1, 1]
  scatter_S100000x64_S500000x1_S500000x64_1_0_0_1_wf : ScatterDims.WF S100000x64 S500000x1 S500000x64 [1] [0] [0] 1
  gather_S50000x64_S500000x1_S500000x64_1_0_n_n_0_1_164_wf : GatherDims.WF S50000x64 S500000x1 S500000x64 [1] [0] [] [0] [] 1 ![1, 64]
  gather_S50000x1_S500000x1_S500000x1_1_0_n_n_0_1_11_wf : GatherDims.WF S50000x1 S500000x1 S500000x1 [1] [0] [] [0] [] 1 ![1, 1]
  scatter_S50000x64_S500000x1_S500000x64_1_0_0_1_wf : ScatterDims.WF S50000x64 S500000x1 S500000x64 [1] [0] [0] 1
  gather_S100000x64_S300000x1_S300000x64_1_0_n_n_0_1_164_wf : GatherDims.WF S100000x64 S300000x1 S300000x64 [1] [0] [] [0] [] 1 ![1, 64]
  gather_S100000x1_S300000x1_S300000x1_1_0_n_n_0_1_11_wf : GatherDims.WF S100000x1 S300000x1 S300000x1 [1] [0] [] [0] [] 1 ![1, 1]
  gather_S50000x64_S300000x1_S300000x64_1_0_n_n_0_1_164_wf : GatherDims.WF S50000x64 S300000x1 S300000x64 [1] [0] [] [0] [] 1 ![1, 64]
  gather_S50000x1_S300000x1_S300000x1_1_0_n_n_0_1_11_wf : GatherDims.WF S50000x1 S300000x1 S300000x1 [1] [0] [] [0] [] 1 ![1, 1]
  dot_S200000x768_S768x64_S200000x64_1_0_0_1_n_n_wf : DotDims.WF S200000x768 S768x64 S200000x64 [1] [0] [0] [1] [] []
  gather_S50000x192_S200000x1_S200000x192_1_0_n_n_0_1_1192_wf : GatherDims.WF S50000x192 S200000x1 S200000x192 [1] [0] [] [0] [] 1 ![1, 192]
  gather_S5x256_S200000x1_S200000x256_1_0_n_n_0_1_1256_wf : GatherDims.WF S5x256 S200000x1 S200000x256 [1] [0] [] [0] [] 1 ![1, 256]
  gather_S50000x1_S200000x1_S200000x1_1_0_n_n_0_1_11_wf : GatherDims.WF S50000x1 S200000x1 S200000x1 [1] [0] [] [0] [] 1 ![1, 1]
  scatter_S100000x256_S200000x1_S200000x256_1_0_0_1_wf : ScatterDims.WF S100000x256 S200000x1 S200000x256 [1] [0] [0] 1
  gather_S100000x192_S200000x1_S200000x192_1_0_n_n_0_1_1192_wf : GatherDims.WF S100000x192 S200000x1 S200000x192 [1] [0] [] [0] [] 1 ![1, 192]
  gather_S100000x1_S200000x1_S200000x1_1_0_n_n_0_1_11_wf : GatherDims.WF S100000x1 S200000x1 S200000x1 [1] [0] [] [0] [] 1 ![1, 1]
  scatter_S50000x256_S200000x1_S200000x256_1_0_0_1_wf : ScatterDims.WF S50000x256 S200000x1 S200000x256 [1] [0] [0] 1

variable [Facts₀]

def dot_S500x64_S64x64_S500x64_1_0_0_1_n_n : DotDims S500x64 S64x64 S500x64 where
  lhsContracting := [1]
  rhsContracting := [0]
  lhsNonContracting := [0]
  rhsNonContracting := [1]
  lhsBatch := []
  rhsBatch := []
  wf := dot_S500x64_S64x64_S500x64_1_0_0_1_n_n_wf
def gather_S500x64_S300000x1_S300000x64_1_0_n_n_0_1_164 : GatherDims S500x64 S300000x1 S300000x64 where
  offsetDims := [1]
  collapsedSliceDims := [0]
  operandBatchingDims := []
  startIndicesBatchingDims := []
  startIndexMap := [0]
  indexVectorDim := 1
  sliceSizes := ![1, 64]
  wf := gather_S500x64_S300000x1_S300000x64_1_0_n_n_0_1_164_wf
def dot_S300000x64_S64x64_S300000x64_1_0_0_1_n_n : DotDims S300000x64 S64x64 S300000x64 where
  lhsContracting := [1]
  rhsContracting := [0]
  lhsNonContracting := [0]
  rhsNonContracting := [1]
  lhsBatch := []
  rhsBatch := []
  wf := dot_S300000x64_S64x64_S300000x64_1_0_0_1_n_n_wf
def gather_S500x1_S300000x1_S300000x1_1_0_n_n_0_1_11 : GatherDims S500x1 S300000x1 S300000x1 where
  offsetDims := [1]
  collapsedSliceDims := [0]
  operandBatchingDims := []
  startIndicesBatchingDims := []
  startIndexMap := [0]
  indexVectorDim := 1
  sliceSizes := ![1, 1]
  wf := gather_S500x1_S300000x1_S300000x1_1_0_n_n_0_1_11_wf
def scatter_S100000x64_S300000x1_S300000x64_1_0_0_1 : ScatterDims S100000x64 S300000x1 S300000x64 where
  updateWindowDims := [1]
  insertedWindowDims := [0]
  scatterDimsToOperandDims := [0]
  indexVectorDim := 1
  wf := scatter_S100000x64_S300000x1_S300000x64_1_0_0_1_wf
def scatter_S50000x64_S300000x1_S300000x64_1_0_0_1 : ScatterDims S50000x64 S300000x1 S300000x64 where
  updateWindowDims := [1]
  insertedWindowDims := [0]
  scatterDimsToOperandDims := [0]
  indexVectorDim := 1
  wf := scatter_S50000x64_S300000x1_S300000x64_1_0_0_1_wf
def dot_S50x64_S64x64_S50x64_1_0_0_1_n_n : DotDims S50x64 S64x64 S50x64 where
  lhsContracting := [1]
  rhsContracting := [0]
  lhsNonContracting := [0]
  rhsNonContracting := [1]
  lhsBatch := []
  rhsBatch := []
  wf := dot_S50x64_S64x64_S50x64_1_0_0_1_n_n_wf
def gather_S50x64_S500000x1_S500000x64_1_0_n_n_0_1_164 : GatherDims S50x64 S500000x1 S500000x64 where
  offsetDims := [1]
  collapsedSliceDims := [0]
  operandBatchingDims := []
  startIndicesBatchingDims := []
  startIndexMap := [0]
  indexVectorDim := 1
  sliceSizes := ![1, 64]
  wf := gather_S50x64_S500000x1_S500000x64_1_0_n_n_0_1_164_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def gather_S500x64_S500000x1_S500000x64_1_0_n_n_0_1_164 : GatherDims S500x64 S500000x1 S500000x64 where
  offsetDims := [1]
  collapsedSliceDims := [0]
  operandBatchingDims := []
  startIndicesBatchingDims := []
  startIndexMap := [0]
  indexVectorDim := 1
  sliceSizes := ![1, 64]
  wf := gather_S500x64_S500000x1_S500000x64_1_0_n_n_0_1_164_wf
def gather_S100000x1_S500000x1_S500000x1_1_0_n_n_0_1_11 : GatherDims S100000x1 S500000x1 S500000x1 where
  offsetDims := [1]
  collapsedSliceDims := [0]
  operandBatchingDims := []
  startIndicesBatchingDims := []
  startIndexMap := [0]
  indexVectorDim := 1
  sliceSizes := ![1, 1]
  wf := gather_S100000x1_S500000x1_S500000x1_1_0_n_n_0_1_11_wf
def scatter_S100000x64_S500000x1_S500000x64_1_0_0_1 : ScatterDims S100000x64 S500000x1 S500000x64 where
  updateWindowDims := [1]
  insertedWindowDims := [0]
  scatterDimsToOperandDims := [0]
  indexVectorDim := 1
  wf := scatter_S100000x64_S500000x1_S500000x64_1_0_0_1_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def gather_S50000x1_S500000x1_S500000x1_1_0_n_n_0_1_11 : GatherDims S50000x1 S500000x1 S500000x1 where
  offsetDims := [1]
  collapsedSliceDims := [0]
  operandBatchingDims := []
  startIndicesBatchingDims := []
  startIndexMap := [0]
  indexVectorDim := 1
  sliceSizes := ![1, 1]
  wf := gather_S50000x1_S500000x1_S500000x1_1_0_n_n_0_1_11_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf
def gather_S100000x64_S300000x1_S300000x64_1_0_n_n_0_1_164 : GatherDims S100000x64 S300000x1 S300000x64 where
  offsetDims := [1]
  collapsedSliceDims := [0]
  operandBatchingDims := []
  startIndicesBatchingDims := []
  startIndexMap := [0]
  indexVectorDim := 1
  sliceSizes := ![1, 64]
  wf := gather_S100000x64_S300000x1_S300000x64_1_0_n_n_0_1_164_wf
def gather_S100000x1_S300000x1_S300000x1_1_0_n_n_0_1_11 : GatherDims S100000x1 S300000x1 S300000x1 where
  offsetDims := [1]
  collapsedSliceDims := [0]
  operandBatchingDims := []
  startIndicesBatchingDims := []
  startIndexMap := [0]
  indexVectorDim := 1
  sliceSizes := ![1, 1]
  wf := gather_S100000x1_S300000x1_S300000x1_1_0_n_n_0_1_11_wf
def gather_S50000x64_S300000x1_S300000x64_1_0_n_n_0_1_164 : GatherDims S50000x64 S300000x1 S300000x64 where
  offsetDims := [1]
  collapsedSliceDims := [0]
  operandBatchingDims := []
  startIndicesBatchingDims := []
  startIndexMap := [0]
  indexVectorDim := 1
  sliceSizes := ![1, 64]
  wf := gather_S50000x64_S300000x1_S300000x64_1_0_n_n_0_1_164_wf
def gather_S50000x1_S300000x1_S300000x1_1_0_n_n_0_1_11 : GatherDims S50000x1 S300000x1 S300000x1 where
  offsetDims := [1]
  collapsedSliceDims := [0]
  operandBatchingDims := []
  startIndicesBatchingDims := []
  startIndexMap := [0]
  indexVectorDim := 1
  sliceSizes := ![1, 1]
  wf := gather_S50000x1_S300000x1_S300000x1_1_0_n_n_0_1_11_wf
def dot_S200000x768_S768x64_S200000x64_1_0_0_1_n_n : DotDims S200000x768 S768x64 S200000x64 where
  lhsContracting := [1]
  rhsContracting := [0]
  lhsNonContracting := [0]
  rhsNonContracting := [1]
  lhsBatch := []
  rhsBatch := []
  wf := dot_S200000x768_S768x64_S200000x64_1_0_0_1_n_n_wf
def gather_S50000x192_S200000x1_S200000x192_1_0_n_n_0_1_1192 : GatherDims S50000x192 S200000x1 S200000x192 where
  offsetDims := [1]
  collapsedSliceDims := [0]
  operandBatchingDims := []
  startIndicesBatchingDims := []
  startIndexMap := [0]
  indexVectorDim := 1
  sliceSizes := ![1, 192]
  wf := gather_S50000x192_S200000x1_S200000x192_1_0_n_n_0_1_1192_wf
def gather_S5x256_S200000x1_S200000x256_1_0_n_n_0_1_1256 : GatherDims S5x256 S200000x1 S200000x256 where
  offsetDims := [1]
  collapsedSliceDims := [0]
  operandBatchingDims := []
  startIndicesBatchingDims := []
  startIndexMap := [0]
  indexVectorDim := 1
  sliceSizes := ![1, 256]
  wf := gather_S5x256_S200000x1_S200000x256_1_0_n_n_0_1_1256_wf
def gather_S50000x1_S200000x1_S200000x1_1_0_n_n_0_1_11 : GatherDims S50000x1 S200000x1 S200000x1 where
  offsetDims := [1]
  collapsedSliceDims := [0]
  operandBatchingDims := []
  startIndicesBatchingDims := []
  startIndexMap := [0]
  indexVectorDim := 1
  sliceSizes := ![1, 1]
  wf := gather_S50000x1_S200000x1_S200000x1_1_0_n_n_0_1_11_wf
def scatter_S100000x256_S200000x1_S200000x256_1_0_0_1 : ScatterDims S100000x256 S200000x1 S200000x256 where
  updateWindowDims := [1]
  insertedWindowDims := [0]
  scatterDimsToOperandDims := [0]
  indexVectorDim := 1
  wf := scatter_S100000x256_S200000x1_S200000x256_1_0_0_1_wf
def gather_S100000x192_S200000x1_S200000x192_1_0_n_n_0_1_1192 : GatherDims S100000x192 S200000x1 S200000x192 where
  offsetDims := [1]
  collapsedSliceDims := [0]
  operandBatchingDims := []
  startIndicesBatchingDims := []
  startIndexMap := [0]
  indexVectorDim := 1
  sliceSizes := ![1, 192]
  wf := gather_S100000x192_S200000x1_S200000x192_1_0_n_n_0_1_1192_wf
def gather_S100000x1_S200000x1_S200000x1_1_0_n_n_0_1_11 : GatherDims S100000x1 S200000x1 S200000x1 where
  offsetDims := [1]
  collapsedSliceDims := [0]
  operandBatchingDims := []
  startIndicesBatchingDims := []
  startIndexMap := [0]
  indexVectorDim := 1
  sliceSizes := ![1, 1]
  wf := gather_S100000x1_S200000x1_S200000x1_1_0_n_n_0_1_11_wf
def scatter_S50000x256_S200000x1_S200000x256_1_0_0_1 : ScatterDims S50000x256 S200000x1 S200000x256 where
  updateWindowDims := [1]
  insertedWindowDims := [0]
  scatterDimsToOperandDims := [0]
  indexVectorDim := 1
  wf := scatter_S50000x256_S200000x1_S200000x256_1_0_0_1_wf

class Facts : Prop extends Facts₀ where

variable [Facts]
-- ==== Proof.KernelBody.lean ====
/-
  The word-level kernel: each of its regions multiplies a block of rows of a tall matrix by a small square-or-tall right factor
  held whole, and writes the block of the product back. Stated here, at any contents `V` the region is entered from:
  what the body leaves in the product's staging buffer (the product of the two loaded blocks, its one store), the
  body's triple, and the pipeline's proof data with its obligation at every grid point.
-/
import proofs.«161673_j22832046146035_1_alg».proof.Proof.Gen.Kernel.Launch
import proofs.«161673_j22832046146035_1_alg».proof.Proof.Gen.Kernel.Skeleton
import proofs.«161673_j22832046146035_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the matrix product of one row block, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block's staging buffer holds the block of the left factor at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The right factor's staging buffer holds the whole right factor at every point, fetched there or not: its index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S3000x64 := Rect.unit (s := S3000x64) ![0, 0] S3000x64.size inb_S3000x64_S3000x64_0_0
abbrev r0_1 : Rect S64x64 := Rect.unit (s := S64x64) ![0, 0] S64x64.size inb_S64x64_S64x64_0_0
abbrev r0_2 : Rect S3000x64 := Rect.unit (s := S3000x64) ![0, 0] S3000x64.size inb_S3000x64_S3000x64_0_0

/-- What the body leaves in the product's staging buffer: its one whole store, of the product of the two loaded blocks. -/
def out0_2 (x0 : Vec F S3000x64 .f32) (x1 : Vec F S64x64 .f32) : Vec F S3000x64 .f32 :=
  View.canon [⟨r0_2, k0_pay1 (View.ld x0 r0_0) (View.ld x1 r0_1)⟩]

/-- The one store covers the buffer. -/
theorem cover0_2 (p0 : Vec F S3000x64 .f32) (y : S3000x64.Idx) :
    ∃ pc ∈ ([⟨r0_2, p0⟩] : List (View.Piece (Elt F) S3000x64 .f32)), y ∈ pc.1.set :=
  View.cover_of_tiled [⟨r0_2, p0⟩] S3000x64.size (by rfl) y

set_option maxHeartbeats 1000000 in
/-- The body on whole staging memrefs: the two factors' buffers are read and kept, the product's buffer (read once, its value unused)
    ends at the product of the two. -/
theorem sound_kernel0 (c : Dev nD) (E : Set ℕ) (i : grid0.Coords) (arg0 : Memref sig .tc .vmem S3000x64 .f32) (harg0 : arg0.IsWhole) (arg1 : Memref sig .tc .vmem S64x64 .f32) (harg1 : arg1.IsWhole) (arg2 : Memref sig .tc .vmem S3000x64 .f32) (harg2 : arg2.IsWhole)
    (x0 : Vec F S3000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__dense_matmul_kernel i arg0 harg0 arg1 harg1 arg2 harg2) K := by
  simp only [cc0__dense_matmul_kernel_eq_skeleton]; unfold cc0__dense_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body each factor's buffer at its block,
    the product's at the product of the blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the matrix product of one row block, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block's staging buffer holds the block of the left factor at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The right factor's staging buffer holds the whole right factor at every point, fetched there or not: its index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S3000x64 := Rect.unit (s := S3000x64) ![0, 0] S3000x64.size inb_S3000x64_S3000x64_0_0
abbrev r1_1 : Rect S64x64 := Rect.unit (s := S64x64) ![0, 0] S64x64.size inb_S64x64_S64x64_0_0
abbrev r1_2 : Rect S3000x64 := Rect.unit (s := S3000x64) ![0, 0] S3000x64.size inb_S3000x64_S3000x64_0_0

/-- What the body leaves in the product's staging buffer: its one whole store, of the product of the two loaded blocks. -/
def out1_2 (x0 : Vec F S3000x64 .f32) (x1 : Vec F S64x64 .f32) : Vec F S3000x64 .f32 :=
  View.canon [⟨r1_2, k1_pay1 (View.ld x0 r1_0) (View.ld x1 r1_1)⟩]

/-- The one store covers the buffer. -/
theorem cover1_2 (p0 : Vec F S3000x64 .f32) (y : S3000x64.Idx) :
    ∃ pc ∈ ([⟨r1_2, p0⟩] : List (View.Piece (Elt F) S3000x64 .f32)), y ∈ pc.1.set :=
  View.cover_of_tiled [⟨r1_2, p0⟩] S3000x64.size (by rfl) y

set_option maxHeartbeats 1000000 in
/-- The body on whole staging memrefs: the two factors' buffers are read and kept, the product's buffer (read once, its value unused)
    ends at the product of the two. -/
theorem sound_kernel1 (c : Dev nD) (E : Set ℕ) (i : grid1.Coords) (arg0 : Memref sig .tc .vmem S3000x64 .f32) (harg0 : arg0.IsWhole) (arg1 : Memref sig .tc .vmem S64x64 .f32) (harg1 : arg1.IsWhole) (arg2 : Memref sig .tc .vmem S3000x64 .f32) (harg2 : arg2.IsWhole)
    (x0 : Vec F S3000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__dense_matmul_kernel i arg0 harg0 arg1 harg1 arg2 harg2) K := by
  simp only [cc1__dense_matmul_kernel_eq_skeleton]; unfold cc1__dense_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core `c`: the arrays as the region finds them; after the body each factor's buffer at its block,
    the product's at the product of the blocks; the scoped rest and the generator register untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

/-! # Region 2: the matrix product of one row block, at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block's staging buffer holds the block of the left factor at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The right factor's staging buffer holds the whole right factor at every point, fetched there or not: its index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S2000x768 := Rect.unit (s := S2000x768) ![0, 0] S2000x768.size inb_S2000x768_S2000x768_0_0
abbrev r2_1 : Rect S768x64 := Rect.unit (s := S768x64) ![0, 0] S768x64.size inb_S768x64_S768x64_0_0
abbrev r2_2 : Rect S2000x64 := Rect.unit (s := S2000x64) ![0, 0] S2000x64.size inb_S2000x64_S2000x64_0_0

/-- What the body leaves in the product's staging buffer: its one whole store, of the product of the two loaded blocks. -/
def out2_2 (x0 : Vec F S2000x768 .f32) (x1 : Vec F S768x64 .f32) : Vec F S2000x64 .f32 :=
  View.canon [⟨r2_2, k2_pay1 (View.ld x0 r2_0) (View.ld x1 r2_1)⟩]

/-- The one store covers the buffer. -/
theorem cover2_2 (p0 : Vec F S2000x64 .f32) (y : S2000x64.Idx) :
    ∃ pc ∈ ([⟨r2_2, p0⟩] : List (View.Piece (Elt F) S2000x64 .f32)), y ∈ pc.1.set :=
  View.cover_of_tiled [⟨r2_2, p0⟩] S2000x64.size (by rfl) y

set_option maxHeartbeats 1000000 in
/-- The body on whole staging memrefs: the two factors' buffers are read and kept, the product's buffer (read once, its value unused)
    ends at the product of the two. -/
theorem sound_kernel2 (c : Dev nD) (E : Set ℕ) (i : grid2.Coords) (arg0 : Memref sig .tc .vmem S2000x768 .f32) (harg0 : arg0.IsWhole) (arg1 : Memref sig .tc .vmem S768x64 .f32) (harg1 : arg1.IsWhole) (arg2 : Memref sig .tc .vmem S2000x64 .f32) (harg2 : arg2.IsWhole)
    (x0 : Vec F S2000x768 .f32) (x1 : Vec F S768x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__dense_matmul_kernel i arg0 harg0 arg1 harg1 arg2 harg2) K := by
  simp only [cc2__dense_matmul_kernel_eq_skeleton]; unfold cc2__dense_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core `c`: the arrays as the region finds them; after the body each factor's buffer at its block,
    the product's at the product of the blocks; the scoped rest and the generator register untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

/-! # Region 3: the matrix product of one row block, at the entry contents `V` -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row block's staging buffer holds the block of the left factor at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The right factor's staging buffer holds the whole right factor at every point, fetched there or not: its index never moves. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S2000x768 := Rect.unit (s := S2000x768) ![0, 0] S2000x768.size inb_S2000x768_S2000x768_0_0
abbrev r3_1 : Rect S768x64 := Rect.unit (s := S768x64) ![0, 0] S768x64.size inb_S768x64_S768x64_0_0
abbrev r3_2 : Rect S2000x64 := Rect.unit (s := S2000x64) ![0, 0] S2000x64.size inb_S2000x64_S2000x64_0_0

/-- What the body leaves in the product's staging buffer: its one whole store, of the product of the two loaded blocks. -/
def out3_2 (x0 : Vec F S2000x768 .f32) (x1 : Vec F S768x64 .f32) : Vec F S2000x64 .f32 :=
  View.canon [⟨r3_2, k3_pay1 (View.ld x0 r3_0) (View.ld x1 r3_1)⟩]

/-- The one store covers the buffer. -/
theorem cover3_2 (p0 : Vec F S2000x64 .f32) (y : S2000x64.Idx) :
    ∃ pc ∈ ([⟨r3_2, p0⟩] : List (View.Piece (Elt F) S2000x64 .f32)), y ∈ pc.1.set :=
  View.cover_of_tiled [⟨r3_2, p0⟩] S2000x64.size (by rfl) y

set_option maxHeartbeats 1000000 in
/-- The body on whole staging memrefs: the two factors' buffers are read and kept, the product's buffer (read once, its value unused)
    ends at the product of the two. -/
theorem sound_kernel3 (c : Dev nD) (E : Set ℕ) (i : grid3.Coords) (arg0 : Memref sig .tc .vmem S2000x768 .f32) (harg0 : arg0.IsWhole) (arg1 : Memref sig .tc .vmem S768x64 .f32) (harg1 : arg1.IsWhole) (arg2 : Memref sig .tc .vmem S2000x64 .f32) (harg2 : arg2.IsWhole)
    (x0 : Vec F S2000x768 .f32) (x1 : Vec F S768x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__dense_matmul_kernel i arg0 harg0 arg1 harg1 arg2 harg2) K := by
  simp only [cc3__dense_matmul_kernel_eq_skeleton]; unfold cc3__dense_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of pipeline 3 on core `c`: the arrays as the region finds them; after the body each factor's buffer at its block,
    the product's at the product of the blocks; the scoped rest and the generator register untouched; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KernelFold.lean ====
/-
  The buffer contents at each boundary of the program's main function: the launch memory folded through the host
  operations before the first region, each region (its two factors kept, its product written), and the host
  operations between and after the regions. A buffer that no host operation of a stretch writes, and that is no
  region's product, keeps its contents through it: in particular every argument array ends as launched.
-/
import proofs.«161673_j22832046146035_1_alg».proof.Proof.KernelBody

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the operations of `hostOps0` write. -/
abbrev hostOps0_W : List (Ref sig .tc) := [main_v0, main_v1, main_v2, main_v3, main_v4, main_v5]
set_option maxRecDepth 65536 in
set_option maxHeartbeats 4000000 in
theorem hostOps0_writes : (hostOps0 : List (HloOp τ sig (Elt F))).Forall fun op => op.writes ⊆ ((hostOps0_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
set_option maxRecDepth 65536 in
set_option maxHeartbeats 4000000 in
/-- No operation of `hostOps0` allocates a buffer. -/
theorem hostOps0_fresh : (hostOps0 : List (HloOp τ sig (Elt F))).Forall fun op => op.fresh = ∅ := by
  simp only [List.Forall]; repeat' constructor

/-- The buffers the operations of `hostOps2` write. -/
abbrev hostOps2_W : List (Ref sig .tc) := [main_c, main_v8, main_v9, main_c_0, main_v10, main_v11, main_v12, main_v13, main_v14, main_v15, main_c_1, main_v16, main_v17, main_c_2, main_v18, main_v19, main_v20, main_v21, main_v22, main_v23, main_v24, main_cst, main_v25, main_v26, main_v27, main_c_3, main_v28, main_v29, main_c_4, main_v30, main_v31, main_v32, main_v33, main_v34, main_v35, main_c_5, main_v36, main_v37, main_c_6, main_v38, main_v39, main_v40, main_v41, main_v42, main_v43, main_v44, main_cst_7, main_v45, main_v46, main_v47, main_v48, main_v49, main_v50, main_v51, main_c_8, main_v52, main_v53, main_c_9, main_v54, main_v55, main_v56, main_v57, main_v58, main_v59, main_v60, main_c_10, main_v61, main_v62, main_c_11, main_v63, main_v64, main_v65, main_v66, main_v67, main_v68, main_v69, main_v70, main_cst_12, main_v71, main_v72, main_cst_13, main_v73, main_v74, main_c_14, main_v75, main_v76, main_c_15, main_v77, main_v78, main_v79, main_v80, main_v81, main_v82, main_v83, main_c_16, main_v84, main_v85, main_c_17, main_v86, main_v87, main_v88, main_v89, main_v90, main_v91, main_v92, main_c_18, main_v93, main_v94, main_c_19, main_v95, main_v96, main_v97, main_v98, main_v99, main_v100, main_v101, main_cst_20, main_v102, main_v103, main_v104, main_v105, main_v106, main_c_21, main_v107, main_v108, main_c_22, main_v109, main_v110, main_v111, main_v112, main_v113, main_v114, main_v115, main_c_23, main_v116, main_v117, main_c_24, main_v118, main_v119, main_v120, main_v121, main_v122, main_v123, main_v124, main_v125, main_cst_25, main_v126, main_v127, main_cst_26, main_v128, main_v129, main_c_27, main_v130, main_v131, main_c_28, main_v132, main_v133, main_v134, main_v135, main_v136, main_v137, main_v138, main_c_29, main_v139, main_v140, main_c_30, main_v141, main_v142, main_v143, main_v144, main_v145, main_v146, main_v147, main_c_31, main_v148, main_v149, main_c_32, main_v150, main_v151, main_v152, main_v153, main_v154, main_v155, main_v156, main_cst_33, main_v157, main_v158, main_v159, main_c_34, main_v160, main_v161, main_c_35, main_v162, main_v163, main_v164, main_v165, main_v166, main_c_36, main_v167, main_v168, main_c_37, main_v169, main_v170, main_v171, main_v172, main_v173, main_v174, main_c_38, main_v175, main_v176, main_c_39, main_v177, main_v178, main_v179, main_v180, main_v181, main_v182, main_v183, main_cst_40, main_v184, main_v185, main_v186, main_c_41, main_v187, main_v188, main_c_42, main_v189, main_v190, main_v191, main_v192, main_v193, main_c_43, main_v194, main_v195, main_c_44, main_v196, main_v197, main_v198, main_v199, main_v200, main_v201, main_c_45, main_v202, main_v203, main_c_46, main_v204, main_v205, main_v206, main_v207, main_v208, main_v209, main_v210, main_cst_47, main_v211, main_v212, main_v213, main_v214, main_v215, main_v216, main_v217, main_v218, main_v219, main_v220, main_v221, main_v222, main_v223, main_v224, main_v225, main_v226, main_v227]
set_option maxRecDepth 65536 in
set_option maxHeartbeats 4000000 in
theorem hostOps2_writes : (hostOps2 : List (HloOp τ sig (Elt F))).Forall fun op => op.writes ⊆ ((hostOps2_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
set_option maxRecDepth 65536 in
set_option maxHeartbeats 4000000 in
/-- No operation of `hostOps2` allocates a buffer. -/
theorem hostOps2_fresh : (hostOps2 : List (HloOp τ sig (Elt F))).Forall fun op => op.fresh = ∅ := by
  simp only [List.Forall]; repeat' constructor

/-- The buffers the operations of `hostOps3` write. -/
abbrev hostOps3_W : List (Ref sig .tc) := [main_c_48, main_v229, main_v230, main_c_49, main_v231, main_v232, main_v233, main_v234, main_v235, main_v236, main_c_50, main_v237, main_v238, main_c_51, main_v239, main_v240, main_v241, main_v242, main_v243, main_v244, main_v245, main_cst_52, main_v246, main_v247, main_cst_53, main_v248, main_v249, main_v250, main_c_54, main_v251, main_v252, main_c_55, main_v253, main_v254, main_v255, main_v256, main_v257, main_v258, main_v259, main_cst_56, main_v260, main_v261, main_v262, main_v263, main_v264]
set_option maxRecDepth 65536 in
set_option maxHeartbeats 4000000 in
theorem hostOps3_writes : (hostOps3 : List (HloOp τ sig (Elt F))).Forall fun op => op.writes ⊆ ((hostOps3_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
set_option maxRecDepth 65536 in
set_option maxHeartbeats 4000000 in
/-- No operation of `hostOps3` allocates a buffer. -/
theorem hostOps3_fresh : (hostOps3 : List (HloOp τ sig (Elt F))).Forall fun op => op.fresh = ∅ := by
  simp only [List.Forall]; repeat' constructor

/-- The buffers the operations of `hostOps4` write. -/
abbrev hostOps4_W : List (Ref sig .tc) := [main_c_57, main_v266, main_v267, main_c_58, main_v268, main_v269, main_v270, main_v271, main_v272, main_v273, main_c_59, main_v274, main_v275, main_c_60, main_v276, main_v277, main_v278, main_v279, main_v280, main_v281, main_v282, main_cst_61, main_v283, main_v284, main_cst_62, main_v285, main_v286, main_v287, main_c_63, main_v288, main_v289, main_c_64, main_v290, main_v291, main_v292, main_v293, main_v294, main_v295, main_v296, main_cst_65, main_v297, main_v298, main_v299, main_v300, main_v301, main_v302]
set_option maxRecDepth 65536 in
set_option maxHeartbeats 4000000 in
theorem hostOps4_writes : (hostOps4 : List (HloOp τ sig (Elt F))).Forall fun op => op.writes ⊆ ((hostOps4_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
set_option maxRecDepth 65536 in
set_option maxHeartbeats 4000000 in
/-- No operation of `hostOps4` allocates a buffer. -/
theorem hostOps4_fresh : (hostOps4 : List (HloOp τ sig (Elt F))).Forall fun op => op.fresh = ∅ := by
  simp only [List.Forall]; repeat' constructor

/-- Core `c`'s buffers at launch. -/
abbrev W0 : Dev nD → Valuation τ sig (Elt F) := fun c b => (s₀ m ρ).mem ((c : Dev nD), b)
/-- After the first host operations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the factors as entered, the product's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Region 0 changes one buffer only, the product's: a factor's array ends as entered, any other buffer is not its array at all. -/
theorem W2_keep (c : Dev nD) (b : Ref sig .tc) (hb : b ≠ main_v6) :
    W2 m ρ c (Proc.devRef .tc b) = W1 m ρ c (Proc.devRef .tc b) := by
  by_cases h0 : b = main_arg16
  · subst h0
    exact (W2_arr m ρ c 0).trans (((dat0 (V1 m ρ) c).arrAt_in 0 rfl _).trans (A_eq0 (V1 m ρ) c 0))
  by_cases h1 : b = main_arg8
  · subst h1
    exact (W2_arr m ρ c 1).trans (((dat0 (V1 m ρ) c).arrAt_in 1 rfl _).trans (A_eq0 (V1 m ρ) c 1))
  exact W2_of_ne m ρ c b fun w => match w with
    | ⟨0, _⟩ => fun e => h0 e.symm
    | ⟨1, _⟩ => fun e => h1 e.symm
    | ⟨2, _⟩ => fun e => hb e.symm
/-- The product's buffer at the exit is what the pipeline's write-backs leave. -/
theorem W2_out (c : Dev nD) : W2 m ρ c (Proc.devRef .tc main_v6) = (dat0 (V1 m ρ) c).arrAt 2 cfg0.N :=
  W2_arr m ρ c 2

/-- At region 1's exit: its arrays at what the pipeline leaves (the factors as entered, the product's write-backs folded),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- Region 1 changes one buffer only, the product's: a factor's array ends as entered, any other buffer is not its array at all. -/
theorem W3_keep (c : Dev nD) (b : Ref sig .tc) (hb : b ≠ main_v7) :
    W3 m ρ c (Proc.devRef .tc b) = W2 m ρ c (Proc.devRef .tc b) := by
  by_cases h0 : b = main_arg17
  · subst h0
    exact (W3_arr m ρ c 0).trans (((dat1 (V2 m ρ) c).arrAt_in 0 rfl _).trans (A_eq1 (V2 m ρ) c 0))
  by_cases h1 : b = main_arg9
  · subst h1
    exact (W3_arr m ρ c 1).trans (((dat1 (V2 m ρ) c).arrAt_in 1 rfl _).trans (A_eq1 (V2 m ρ) c 1))
  exact W3_of_ne m ρ c b fun w => match w with
    | ⟨0, _⟩ => fun e => h0 e.symm
    | ⟨1, _⟩ => fun e => h1 e.symm
    | ⟨2, _⟩ => fun e => hb e.symm
/-- The product's buffer at the exit is what the pipeline's write-backs leave. -/
theorem W3_out (c : Dev nD) : W3 m ρ c (Proc.devRef .tc main_v7) = (dat1 (V2 m ρ) c).arrAt 2 cfg1.N :=
  W3_arr m ρ c 2

/-- After the long stretch of host operations (region 2's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- At region 2's exit: its arrays at what the pipeline leaves (the factors as entered, the product's write-backs folded),
    every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- Region 2 changes one buffer only, the product's: a factor's array ends as entered, any other buffer is not its array at all. -/
theorem W5_keep (c : Dev nD) (b : Ref sig .tc) (hb : b ≠ main_v228) :
    W5 m ρ c (Proc.devRef .tc b) = W4 m ρ c (Proc.devRef .tc b) := by
  by_cases h0 : b = main_arg14
  · subst h0
    exact (W5_arr m ρ c 0).trans (((dat2 (V4 m ρ) c).arrAt_in 0 rfl _).trans (A_eq2 (V4 m ρ) c 0))
  by_cases h1 : b = main_arg4
  · subst h1
    exact (W5_arr m ρ c 1).trans (((dat2 (V4 m ρ) c).arrAt_in 1 rfl _).trans (A_eq2 (V4 m ρ) c 1))
  exact W5_of_ne m ρ c b fun w => match w with
    | ⟨0, _⟩ => fun e => h0 e.symm
    | ⟨1, _⟩ => fun e => h1 e.symm
    | ⟨2, _⟩ => fun e => hb e.symm
/-- The product's buffer at the exit is what the pipeline's write-backs leave. -/
theorem W5_out (c : Dev nD) : W5 m ρ c (Proc.devRef .tc main_v228) = (dat2 (V4 m ρ) c).arrAt 2 cfg2.N :=
  W5_arr m ρ c 2

/-- After the host operations between the last two regions (region 3's entry). -/
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b

/-- At region 3's exit: its arrays at what the pipeline leaves (the factors as entered, the product's write-backs folded),
    every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- Region 3 changes one buffer only, the product's: a factor's array ends as entered, any other buffer is not its array at all. -/
theorem W7_keep (c : Dev nD) (b : Ref sig .tc) (hb : b ≠ main_v265) :
    W7 m ρ c (Proc.devRef .tc b) = W6 m ρ c (Proc.devRef .tc b) := by
  by_cases h0 : b = main_arg15
  · subst h0
    exact (W7_arr m ρ c 0).trans (((dat3 (V6 m ρ) c).arrAt_in 0 rfl _).trans (A_eq3 (V6 m ρ) c 0))
  by_cases h1 : b = main_arg5
  · subst h1
    exact (W7_arr m ρ c 1).trans (((dat3 (V6 m ρ) c).arrAt_in 1 rfl _).trans (A_eq3 (V6 m ρ) c 1))
  exact W7_of_ne m ρ c b fun w => match w with
    | ⟨0, _⟩ => fun e => h0 e.symm
    | ⟨1, _⟩ => fun e => h1 e.symm
    | ⟨2, _⟩ => fun e => hb e.symm
/-- The product's buffer at the exit is what the pipeline's write-backs leave. -/
theorem W7_out (c : Dev nD) : W7 m ρ c (Proc.devRef .tc main_v265) = (dat3 (V6 m ρ) c).arrAt 2 cfg3.N :=
  W7_arr m ρ c 2

/-- After the last host operations: the contents the program returns with. -/
abbrev W8 : Dev nD → Valuation τ sig (Elt F) := fun c => StableHlo.after hostOps4 (W7 m ρ c)

theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
theorem W4_keep (c : Dev nD) (r : Ref sig .tc) (h : r ∉ hostOps2_W) : W4 m ρ c (Proc.devRef .tc r) = W3 m ρ c (Proc.devRef .tc r) :=
  StableHlo.after_of_writes_sub hostOps2 _ hostOps2_writes h
theorem W6_keep (c : Dev nD) (r : Ref sig .tc) (h : r ∉ hostOps3_W) : W6 m ρ c (Proc.devRef .tc r) = W5 m ρ c (Proc.devRef .tc r) :=
  StableHlo.after_of_writes_sub hostOps3 _ hostOps3_writes h
theorem W8_keep (c : Dev nD) (r : Ref sig .tc) (h : r ∉ hostOps4_W) : W8 m ρ c (Proc.devRef .tc r) = W7 m ρ c (Proc.devRef .tc r) :=
  StableHlo.after_of_writes_sub hostOps4 _ hostOps4_writes h

/-- A buffer that no host operation writes and that is no region's product ends as launched. -/
theorem W8_launch (c : Dev nD) (r : Ref sig .tc) (h0 : r ∉ hostOps0_W) (h2 : r ∉ hostOps2_W) (h3 : r ∉ hostOps3_W) (h4 : r ∉ hostOps4_W)
    (k0 : r ≠ main_v6) (k1 : r ≠ main_v7) (k2 : r ≠ main_v228) (k3 : r ≠ main_v265) :
    W8 m ρ c (Proc.devRef .tc r) = m ((c : Thread nD τ).loc r) :=
  (W8_keep m ρ c r h4).trans <| (W7_keep m ρ c r k3).trans <| (W6_keep m ρ c r h3).trans <| (W5_keep m ρ c r k2).trans <|
    (W4_keep m ρ c r h2).trans <| (W3_keep m ρ c r k1).trans <| (W2_keep m ρ c r k0).trans <| (W1_keep m ρ c r h0).trans rfl

end Cert.Kernel.Fr

end
-- ==== Proof.KernelRun.lean ====
/-
  The run of the program's main function: eight segments in order — host operations, the first two regions back to back, the
  long stretch of host operations, the third region, host operations, the fourth region, the last host operations —
  each entered from the buffer contents the one before it leaves. Every weakly fair execution terminates without a
  fault, and every unscoped buffer ends at the last boundary's contents; the argument arrays therefore end as launched.
-/
import proofs.«161673_j22832046146035_1_alg».proof.Proof.KernelFold

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V6 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W8 m ρ c) ∗ ∃ r, prngReg c r)

set_option backward.isDefEq.respectTransparency.types false in
/-- Region 0 over the thread state: entered with every unscoped buffer at `W1`, left with them at `W2`; its arrays are
    split out of the unscoped buffers at entry and put back at exit, the generator register goes into the invariant and
    comes back, nothing is owed, and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`; its arrays are
    split out of the unscoped buffers at entry and put back at exit, the generator register goes into the invariant and
    comes back, nothing is owed, and the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W4`, left with them at `W5`; its arrays are
    split out of the unscoped buffers at entry and put back at exit, the generator register goes into the invariant and
    comes back, nothing is owed, and the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W6`, left with them at `W7`; its arrays are
    split out of the unscoped buffers at entry and put back at exit, the generator register goes into the invariant and
    comes back, nothing is owed, and the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The segments of the main function, in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)),
    .region (reg3 m ρ),
    .host (hseg hostOps4 hostOps4_sub hostOps4_fresh (W7 m ρ)) ]
/-- The main function is the run of the segments. -/
theorem main_run (c : Dev nD) : main (F := F) c = Pipeline.Seg.run (segs m ρ) := (main_chain c).trans (by chain_rfl)

set_option backward.isDefEq.respectTransparency.types false in
/-- From any memory with zero counters every weakly fair execution of the main function terminates, nothing faulting,
    and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m ρ c) ∗ R c) ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- Every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)
      ∧ r.2.mem ((c.tc : Thread nD τ).loc main_arg44) = m ((c.tc : Thread nD τ).loc main_arg44)
      ∧ r.2.mem ((c.tc : Thread nD τ).loc main_arg45) = m ((c.tc : Thread nD τ).loc main_arg45)
      ∧ r.2.mem ((c.tc : Thread nD τ).loc main_arg46) = m ((c.tc : Thread nD τ).loc main_arg46)
      ∧ r.2.mem ((c.tc : Thread nD τ).loc main_arg47) = m ((c.tc : Thread nD τ).loc main_arg47)
      ∧ r.2.mem ((c.tc : Thread nD τ).loc main_arg48) = m ((c.tc : Thread nD τ).loc main_arg48)
      ∧ r.2.mem ((c.tc : Thread nD τ).loc main_arg49) = m ((c.tc : Thread nD τ).loc main_arg49)
      ∧ r.2.mem ((c.tc : Thread nD τ).loc main_arg50) = m ((c.tc : Thread nD τ).loc main_arg50)
      ∧ r.2.mem ((c.tc : Thread nD τ).loc main_arg51) = m ((c.tc : Thread nD τ).loc main_arg51)
      ∧ r.2.mem ((c.tc : Thread nD τ).loc main_arg52) = m ((c.tc : Thread nD τ).loc main_arg52)
      ∧ r.2.mem ((c.tc : Thread nD τ).loc main_arg53) = m ((c.tc : Thread nD τ).loc main_arg53)) :=
  (θ_run defs _ _).mono (fun _ h c => ⟨(h c _ (mem_uc main_arg0 (by decide))).trans (W8_launch m ρ c main_arg0 (by decide) (by decide) (by decide) (by decide) (by decide) (by decide) (by decide) (by decide)),
      (h c _ (mem_uc main_arg1 (by decide))).trans (W8_launch m ρ c main_arg1 (by decide) (by decide) (by decide) (by decide) (by decide) (by decide) (by decide) (by decide)),
      (h c _ (mem_uc main_arg2 (by decide))).trans (W8_launch m ρ c main_arg2 (by decide) (by decide) (by decide) (by decide) (by decide) (by decide) (by decide) (by decide)),
      (h c _ (mem_uc main_arg3 (by decide))).trans (W8_launch m ρ c main_arg3 (by decide) (by decide) (by decide) (by decide) (by decide) (by decide) (by decide) (by decide)),
      (h c _ (mem_uc main_arg4 (by decide))).trans (W8_launch m ρ c main_arg4 (by decide) (by decide) (by decide) (by decide) (by decide) (by decide) (by decide) (by decide)),
      (h c _ (mem_uc main_arg5 (by decide))).trans (W8_launch m ρ c main_arg5 (by decide) (by decide) (by decide) (by decide) (by decide) (by decide) (by decide) (by decide)),
      (h c _ (mem_uc main_arg6 (by decide))).trans (W8_launch m ρ c main_arg6 (by decide) (by decide) (by decide) (by decide) (by decide) (by decide) (by decide) (by decide)),
      (h c _ (mem_uc main_arg7 (by decide))).trans (W8_launch m ρ c main_arg7 (by decide) (by decide) (by decide) (by decide) (by decide) (by decide) (by decide) (by decide)),
      (h c _ (mem_uc main_arg8 (by decide))).trans (W8_launch m ρ c main_arg8 (by decide) (by decide) (by decide) (by decide) (by decide) (by decide) (by decide) (by decide)),
      (h c _ (mem_uc main_arg9 (by decide))).trans (W8_launch m ρ c main_arg9 (by decide) (by decide) (by decide) (by decide) (by decide) (by decide) (by decide) (by decide)),
      (h c _ (mem_uc main_arg10 (by decide))).trans (W8_launch m ρ c main_arg10 (by decide) (by decide) (by decide) (by decide) (by decide) (by decide) (by decide) (by decide)),
      (h c _ (mem_uc main_arg11 (by decide))).trans (W8_launch m ρ c main_arg11 (by decide) (by decide) (by decide) (by decide) (by decide) (by decide) (by decide) (by decide)),
      (h c _ (mem_uc main_arg12 (by decide))).trans (W8_launch m ρ c main_arg12 (by decide) (by decide) (by decide) (by decide) (by decide) (by decide) (by decide) (by decide)),
      (h c _ (mem_uc main_arg13 (by decide))).trans (W8_launch m ρ c main_arg13 (by decide) (by decide) (by decide) (by decide) (by decide) (by decide) (by decide) (by decide)),
      (h c _ (mem_uc main_arg14 (by decide))).trans (W8_launch m ρ c main_arg14 (by decide) (by decide) (by decide) (by decide) (by decide) (by decide) (by decide) (by decide)),
      (h c _ (mem_uc main_arg15 (by decide))).trans (W8_launch m ρ c main_arg15 (by decide) (by decide) (by decide) (by decide) (by decide) (by decide) (by decide) (by decide)),
      (h c _ (mem_uc main_arg16 (by decide))).trans (W8_launch m ρ c main_arg16 (by decide) (by decide) (by decide) (by decide) (by decide) (by decide) (by decide) (by decide)),
      (h c _ (mem_uc main_arg17 (by decide))).trans (W8_launch m ρ c main_arg17 (by decide) (by decide) (by decide) (by decide) (by decide) (by decide) (by decide) (by decide)),
      (h c _ (mem_uc main_arg18 (by decide))).trans (W8_launch m ρ c main_arg18 (by decide) (by decide) (by decide) (by decide) (by decide) (by decide) (by decide) (by decide)),
      (h c _ (mem_uc main_arg19 (by decide))).trans (W8_launch m ρ c main_arg19 (by decide) (by decide) (by decide) (by decide) (by decide) (by decide) (by decide) (by decide)),
      (h c _ (mem_uc main_arg20 (by decide))).trans (W8_launch m ρ c main_arg20 (by decide) (by decide) (by decide) (by decide) (by decide) (by decide) (by decide) (by decide)),
      (h c _ (mem_uc main_arg21 (by decide))).trans (W8_launch m ρ c main_arg21 (by decide) (by decide) (by decide) (by decide) (by decide) (by decide) (by decide) (by decide)),
      (h c _ (mem_uc main_arg22 (by decide))).trans (W8_launch m ρ c main_arg22 (by decide) (by decide) (by decide) (by decide) (by decide) (by decide) (by decide) (by decide)),
      (h c _ (mem_uc main_arg23 (by decide))).trans (W8_launch m ρ c main_arg23 (by decide) (by decide) (by decide) (by decide) (by decide) (by decide) (by decide) (by decide)),
      (h c _ (mem_uc main_arg24 (by decide))).trans (W8_launch m ρ c main_arg24 (by decide) (by decide) (by decide) (by decide) (by decide) (by decide) (by decide) (by decide)),
      (h c _ (mem_uc main_arg25 (by decide))).trans (W8_launch m ρ c main_arg25 (by decide) (by decide) (by decide) (by decide) (by decide) (by decide) (by decide) (by decide)),
      (h c _ (mem_uc main_arg26 (by decide))).trans (W8_launch m ρ c main_arg26 (by decide) (by decide) (by decide) (by decide) (by decide) (by decide) (by decide) (by decide)),
      (h c _ (mem_uc main_arg27 (by decide))).trans (W8_launch m ρ c main_arg27 (by decide) (by decide) (by decide) (by decide) (by decide) (by decide) (by decide) (by decide)),
      (h c _ (mem_uc main_arg28 (by decide))).trans (W8_launch m ρ c main_arg28 (by decide) (by decide) (by decide) (by decide) (by decide) (by decide) (by decide) (by decide)),
      (h c _ (mem_uc main_arg29 (by decide))).trans (W8_launch m ρ c main_arg29 (by decide) (by decide) (by decide) (by decide) (by decide) (by decide) (by decide) (by decide)),
      (h c _ (mem_uc main_arg30 (by decide))).trans (W8_launch m ρ c main_arg30 (by decide) (by decide) (by decide) (by decide) (by decide) (by decide) (by decide) (by decide)),
      (h c _ (mem_uc main_arg31 (by decide))).trans (W8_launch m ρ c main_arg31 (by decide) (by decide) (by decide) (by decide) (by decide) (by decide) (by decide) (by decide)),
      (h c _ (mem_uc main_arg32 (by decide))).trans (W8_launch m ρ c main_arg32 (by decide) (by decide) (by decide) (by decide) (by decide) (by decide) (by decide) (by decide)),
      (h c _ (mem_uc main_arg33 (by decide))).trans (W8_launch m ρ c main_arg33 (by decide) (by decide) (by decide) (by decide) (by decide) (by decide) (by decide) (by decide)),
      (h c _ (mem_uc main_arg34 (by decide))).trans (W8_launch m ρ c main_arg34 (by decide) (by decide) (by decide) (by decide) (by decide) (by decide) (by decide) (by decide)),
      (h c _ (mem_uc main_arg35 (by decide))).trans (W8_launch m ρ c main_arg35 (by decide) (by decide) (by decide) (by decide) (by decide) (by decide) (by decide) (by decide)),
      (h c _ (mem_uc main_arg36 (by decide))).trans (W8_launch m ρ c main_arg36 (by decide) (by decide) (by decide) (by decide) (by decide) (by decide) (by decide) (by decide)),
      (h c _ (mem_uc main_arg37 (by decide))).trans (W8_launch m ρ c main_arg37 (by decide) (by decide) (by decide) (by decide) (by decide) (by decide) (by decide) (by decide)),
      (h c _ (mem_uc main_arg38 (by decide))).trans (W8_launch m ρ c main_arg38 (by decide) (by decide) (by decide) (by decide) (by decide) (by decide) (by decide) (by decide)),
      (h c _ (mem_uc main_arg39 (by decide))).trans (W8_launch m ρ c main_arg39 (by decide) (by decide) (by decide) (by decide) (by decide) (by decide) (by decide) (by decide)),
      (h c _ (mem_uc main_arg40 (by decide))).trans (W8_launch m ρ c main_arg40 (by decide) (by decide) (by decide) (by decide) (by decide) (by decide) (by decide) (by decide)),
      (h c _ (mem_uc main_arg41 (by decide))).trans (W8_launch m ρ c main_arg41 (by decide) (by decide) (by decide) (by decide) (by decide) (by decide) (by decide) (by decide)),
      (h c _ (mem_uc main_arg42 (by decide))).trans (W8_launch m ρ c main_arg42 (by decide) (by decide) (by decide) (by decide) (by decide) (by decide) (by decide) (by decide)),
      (h c _ (mem_uc main_arg43 (by decide))).trans (W8_launch m ρ c main_arg43 (by decide) (by decide) (by decide) (by decide) (by decide) (by decide) (by decide) (by decide)),
      (h c _ (mem_uc main_arg44 (by decide))).trans (W8_launch m ρ c main_arg44 (by decide) (by decide) (by decide) (by decide) (by decide) (by decide) (by decide) (by decide)),
      (h c _ (mem_uc main_arg45 (by decide))).trans (W8_launch m ρ c main_arg45 (by decide) (by decide) (by decide) (by decide) (by decide) (by decide) (by decide) (by decide)),
      (h c _ (mem_uc main_arg46 (by decide))).trans (W8_launch m ρ c main_arg46 (by decide) (by decide) (by decide) (by decide) (by decide) (by decide) (by decide) (by decide)),
      (h c _ (mem_uc main_arg47 (by decide))).trans (W8_launch m ρ c main_arg47 (by decide) (by decide) (by decide) (by decide) (by decide) (by decide) (by decide) (by decide)),
      (h c _ (mem_uc main_arg48 (by decide))).trans (W8_launch m ρ c main_arg48 (by decide) (by decide) (by decide) (by decide) (by decide) (by decide) (by decide) (by decide)),
      (h c _ (mem_uc main_arg49 (by decide))).trans (W8_launch m ρ c main_arg49 (by decide) (by decide) (by decide) (by decide) (by decide) (by decide) (by decide) (by decide)),
      (h c _ (mem_uc main_arg50 (by decide))).trans (W8_launch m ρ c main_arg50 (by decide) (by decide) (by decide) (by decide) (by decide) (by decide) (by decide) (by decide)),
      (h c _ (mem_uc main_arg51 (by decide))).trans (W8_launch m ρ c main_arg51 (by decide) (by decide) (by decide) (by decide) (by decide) (by decide) (by decide) (by decide)),
      (h c _ (mem_uc main_arg52 (by decide))).trans (W8_launch m ρ c main_arg52 (by decide) (by decide) (by decide) (by decide) (by decide) (by decide) (by decide) (by decide)),
      (h c _ (mem_uc main_arg53 (by decide))).trans (W8_launch m ρ c main_arg53 (by decide) (by decide) (by decide) (by decide) (by decide) (by decide) (by decide) (by decide))⟩)
    (run_all m ρ)

end Cert.Kernel.Fr

end
-- ==== Proof.KernelIdealBody.lean ====
/-
  The idealized kernel: each of its regions multiplies a block of rows of a tall matrix by a small square-or-tall right factor
  held whole, and writes the block of the product back. Stated here, at any contents `V` the region is entered from:
  what the body leaves in the product's staging buffer (the product of the two loaded blocks, its one store), the
  body's triple, and the pipeline's proof data with its obligation at every grid point.
-/
import proofs.«161673_j22832046146035_1_alg».proof.Proof.Gen.KernelIdeal.Launch
import proofs.«161673_j22832046146035_1_alg».proof.Proof.Gen.KernelIdeal.Skeleton
import proofs.«161673_j22832046146035_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the matrix product of one row block, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block's staging buffer holds the block of the left factor at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The right factor's staging buffer holds the whole right factor at every point, fetched there or not: its index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S3000x64 := Rect.unit (s := S3000x64) ![0, 0] S3000x64.size inb_S3000x64_S3000x64_0_0
abbrev r0_1 : Rect S64x64 := Rect.unit (s := S64x64) ![0, 0] S64x64.size inb_S64x64_S64x64_0_0
abbrev r0_2 : Rect S3000x64 := Rect.unit (s := S3000x64) ![0, 0] S3000x64.size inb_S3000x64_S3000x64_0_0

/-- What the body leaves in the product's staging buffer: its one whole store, of the product of the two loaded blocks. -/
def out0_2 (x0 : Vec F S3000x64 .f32) (x1 : Vec F S64x64 .f32) : Vec F S3000x64 .f32 :=
  View.canon [⟨r0_2, k0_pay1 (View.ld x0 r0_0) (View.ld x1 r0_1)⟩]

/-- The one store covers the buffer. -/
theorem cover0_2 (p0 : Vec F S3000x64 .f32) (y : S3000x64.Idx) :
    ∃ pc ∈ ([⟨r0_2, p0⟩] : List (View.Piece (Elt F) S3000x64 .f32)), y ∈ pc.1.set :=
  View.cover_of_tiled [⟨r0_2, p0⟩] S3000x64.size (by rfl) y

set_option maxHeartbeats 1000000 in
/-- The body on whole staging memrefs: the two factors' buffers are read and kept, the product's buffer (read once, its value unused)
    ends at the product of the two. -/
theorem sound_kernel0 (c : Dev nD) (E : Set ℕ) (i : grid0.Coords) (arg0 : Memref sig .tc .vmem S3000x64 .f32) (harg0 : arg0.IsWhole) (arg1 : Memref sig .tc .vmem S64x64 .f32) (harg1 : arg1.IsWhole) (arg2 : Memref sig .tc .vmem S3000x64 .f32) (harg2 : arg2.IsWhole)
    (x0 : Vec F S3000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__dense_matmul_kernel i arg0 harg0 arg1 harg1 arg2 harg2) K := by
  simp only [cc0__dense_matmul_kernel_eq_skeleton]; unfold cc0__dense_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body each factor's buffer at its block,
    the product's at the product of the blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the matrix product of one row block, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block's staging buffer holds the block of the left factor at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The right factor's staging buffer holds the whole right factor at every point, fetched there or not: its index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S3000x64 := Rect.unit (s := S3000x64) ![0, 0] S3000x64.size inb_S3000x64_S3000x64_0_0
abbrev r1_1 : Rect S64x64 := Rect.unit (s := S64x64) ![0, 0] S64x64.size inb_S64x64_S64x64_0_0
abbrev r1_2 : Rect S3000x64 := Rect.unit (s := S3000x64) ![0, 0] S3000x64.size inb_S3000x64_S3000x64_0_0

/-- What the body leaves in the product's staging buffer: its one whole store, of the product of the two loaded blocks. -/
def out1_2 (x0 : Vec F S3000x64 .f32) (x1 : Vec F S64x64 .f32) : Vec F S3000x64 .f32 :=
  View.canon [⟨r1_2, k1_pay1 (View.ld x0 r1_0) (View.ld x1 r1_1)⟩]

/-- The one store covers the buffer. -/
theorem cover1_2 (p0 : Vec F S3000x64 .f32) (y : S3000x64.Idx) :
    ∃ pc ∈ ([⟨r1_2, p0⟩] : List (View.Piece (Elt F) S3000x64 .f32)), y ∈ pc.1.set :=
  View.cover_of_tiled [⟨r1_2, p0⟩] S3000x64.size (by rfl) y

set_option maxHeartbeats 1000000 in
/-- The body on whole staging memrefs: the two factors' buffers are read and kept, the product's buffer (read once, its value unused)
    ends at the product of the two. -/
theorem sound_kernel1 (c : Dev nD) (E : Set ℕ) (i : grid1.Coords) (arg0 : Memref sig .tc .vmem S3000x64 .f32) (harg0 : arg0.IsWhole) (arg1 : Memref sig .tc .vmem S64x64 .f32) (harg1 : arg1.IsWhole) (arg2 : Memref sig .tc .vmem S3000x64 .f32) (harg2 : arg2.IsWhole)
    (x0 : Vec F S3000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__dense_matmul_kernel i arg0 harg0 arg1 harg1 arg2 harg2) K := by
  simp only [cc1__dense_matmul_kernel_eq_skeleton]; unfold cc1__dense_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core `c`: the arrays as the region finds them; after the body each factor's buffer at its block,
    the product's at the product of the blocks; the scoped rest and the generator register untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

/-! # Region 2: the matrix product of one row block, at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block's staging buffer holds the block of the left factor at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The right factor's staging buffer holds the whole right factor at every point, fetched there or not: its index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S2000x768 := Rect.unit (s := S2000x768) ![0, 0] S2000x768.size inb_S2000x768_S2000x768_0_0
abbrev r2_1 : Rect S768x64 := Rect.unit (s := S768x64) ![0, 0] S768x64.size inb_S768x64_S768x64_0_0
abbrev r2_2 : Rect S2000x64 := Rect.unit (s := S2000x64) ![0, 0] S2000x64.size inb_S2000x64_S2000x64_0_0

/-- What the body leaves in the product's staging buffer: its one whole store, of the product of the two loaded blocks. -/
def out2_2 (x0 : Vec F S2000x768 .f32) (x1 : Vec F S768x64 .f32) : Vec F S2000x64 .f32 :=
  View.canon [⟨r2_2, k2_pay1 (View.ld x0 r2_0) (View.ld x1 r2_1)⟩]

/-- The one store covers the buffer. -/
theorem cover2_2 (p0 : Vec F S2000x64 .f32) (y : S2000x64.Idx) :
    ∃ pc ∈ ([⟨r2_2, p0⟩] : List (View.Piece (Elt F) S2000x64 .f32)), y ∈ pc.1.set :=
  View.cover_of_tiled [⟨r2_2, p0⟩] S2000x64.size (by rfl) y

set_option maxHeartbeats 1000000 in
/-- The body on whole staging memrefs: the two factors' buffers are read and kept, the product's buffer (read once, its value unused)
    ends at the product of the two. -/
theorem sound_kernel2 (c : Dev nD) (E : Set ℕ) (i : grid2.Coords) (arg0 : Memref sig .tc .vmem S2000x768 .f32) (harg0 : arg0.IsWhole) (arg1 : Memref sig .tc .vmem S768x64 .f32) (harg1 : arg1.IsWhole) (arg2 : Memref sig .tc .vmem S2000x64 .f32) (harg2 : arg2.IsWhole)
    (x0 : Vec F S2000x768 .f32) (x1 : Vec F S768x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__dense_matmul_kernel i arg0 harg0 arg1 harg1 arg2 harg2) K := by
  simp only [cc2__dense_matmul_kernel_eq_skeleton]; unfold cc2__dense_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core `c`: the arrays as the region finds them; after the body each factor's buffer at its block,
    the product's at the product of the blocks; the scoped rest and the generator register untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

/-! # Region 3: the matrix product of one row block, at the entry contents `V` -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row block's staging buffer holds the block of the left factor at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The right factor's staging buffer holds the whole right factor at every point, fetched there or not: its index never moves. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S2000x768 := Rect.unit (s := S2000x768) ![0, 0] S2000x768.size inb_S2000x768_S2000x768_0_0
abbrev r3_1 : Rect S768x64 := Rect.unit (s := S768x64) ![0, 0] S768x64.size inb_S768x64_S768x64_0_0
abbrev r3_2 : Rect S2000x64 := Rect.unit (s := S2000x64) ![0, 0] S2000x64.size inb_S2000x64_S2000x64_0_0

/-- What the body leaves in the product's staging buffer: its one whole store, of the product of the two loaded blocks. -/
def out3_2 (x0 : Vec F S2000x768 .f32) (x1 : Vec F S768x64 .f32) : Vec F S2000x64 .f32 :=
  View.canon [⟨r3_2, k3_pay1 (View.ld x0 r3_0) (View.ld x1 r3_1)⟩]

/-- The one store covers the buffer. -/
theorem cover3_2 (p0 : Vec F S2000x64 .f32) (y : S2000x64.Idx) :
    ∃ pc ∈ ([⟨r3_2, p0⟩] : List (View.Piece (Elt F) S2000x64 .f32)), y ∈ pc.1.set :=
  View.cover_of_tiled [⟨r3_2, p0⟩] S2000x64.size (by rfl) y

set_option maxHeartbeats 1000000 in
/-- The body on whole staging memrefs: the two factors' buffers are read and kept, the product's buffer (read once, its value unused)
    ends at the product of the two. -/
theorem sound_kernel3 (c : Dev nD) (E : Set ℕ) (i : grid3.Coords) (arg0 : Memref sig .tc .vmem S2000x768 .f32) (harg0 : arg0.IsWhole) (arg1 : Memref sig .tc .vmem S768x64 .f32) (harg1 : arg1.IsWhole) (arg2 : Memref sig .tc .vmem S2000x64 .f32) (harg2 : arg2.IsWhole)
    (x0 : Vec F S2000x768 .f32) (x1 : Vec F S768x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__dense_matmul_kernel i arg0 harg0 arg1 harg1 arg2 harg2) K := by
  simp only [cc3__dense_matmul_kernel_eq_skeleton]; unfold cc3__dense_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of pipeline 3 on core `c`: the arrays as the region finds them; after the body each factor's buffer at its block,
    the product's at the product of the blocks; the scoped rest and the generator register untouched; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KernelIdealFold.lean ====
/-
  The buffer contents at each boundary of the program's main function: the launch memory folded through the host
  operations before the first region, each region (its two factors kept, its product written), and the host
  operations between and after the regions. A buffer that no host operation of a stretch writes, and that is no
  region's product, keeps its contents through it: in particular every argument array ends as launched.
-/
import proofs.«161673_j22832046146035_1_alg».proof.Proof.KernelIdealBody

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the operations of `hostOps0` write. -/
abbrev hostOps0_W : List (Ref sig .tc) := [main_v0, main_v1, main_v2, main_v3, main_v4, main_v5]
set_option maxRecDepth 65536 in
set_option maxHeartbeats 4000000 in
theorem hostOps0_writes : (hostOps0 : List (HloOp τ sig (Elt F))).Forall fun op => op.writes ⊆ ((hostOps0_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
set_option maxRecDepth 65536 in
set_option maxHeartbeats 4000000 in
/-- No operation of `hostOps0` allocates a buffer. -/
theorem hostOps0_fresh : (hostOps0 : List (HloOp τ sig (Elt F))).Forall fun op => op.fresh = ∅ := by
  simp only [List.Forall]; repeat' constructor

/-- The buffers the operations of `hostOps2` write. -/
abbrev hostOps2_W : List (Ref sig .tc) := [main_c, main_v8, main_v9, main_c_0, main_v10, main_v11, main_v12, main_v13, main_v14, main_v15, main_c_1, main_v16, main_v17, main_c_2, main_v18, main_v19, main_v20, main_v21, main_v22, main_v23, main_v24, main_cst, main_v25, main_v26, main_v27, main_c_3, main_v28, main_v29, main_c_4, main_v30, main_v31, main_v32, main_v33, main_v34, main_v35, main_c_5, main_v36, main_v37, main_c_6, main_v38, main_v39, main_v40, main_v41, main_v42, main_v43, main_v44, main_cst_7, main_v45, main_v46, main_v47, main_v48, main_v49, main_v50, main_v51, main_c_8, main_v52, main_v53, main_c_9, main_v54, main_v55, main_v56, main_v57, main_v58, main_v59, main_v60, main_c_10, main_v61, main_v62, main_c_11, main_v63, main_v64, main_v65, main_v66, main_v67, main_v68, main_v69, main_v70, main_cst_12, main_v71, main_v72, main_cst_13, main_v73, main_v74, main_c_14, main_v75, main_v76, main_c_15, main_v77, main_v78, main_v79, main_v80, main_v81, main_v82, main_v83, main_c_16, main_v84, main_v85, main_c_17, main_v86, main_v87, main_v88, main_v89, main_v90, main_v91, main_v92, main_c_18, main_v93, main_v94, main_c_19, main_v95, main_v96, main_v97, main_v98, main_v99, main_v100, main_v101, main_cst_20, main_v102, main_v103, main_v104, main_v105, main_v106, main_c_21, main_v107, main_v108, main_c_22, main_v109, main_v110, main_v111, main_v112, main_v113, main_v114, main_v115, main_c_23, main_v116, main_v117, main_c_24, main_v118, main_v119, main_v120, main_v121, main_v122, main_v123, main_v124, main_v125, main_cst_25, main_v126, main_v127, main_cst_26, main_v128, main_v129, main_c_27, main_v130, main_v131, main_c_28, main_v132, main_v133, main_v134, main_v135, main_v136, main_v137, main_v138, main_c_29, main_v139, main_v140, main_c_30, main_v141, main_v142, main_v143, main_v144, main_v145, main_v146, main_v147, main_c_31, main_v148, main_v149, main_c_32, main_v150, main_v151, main_v152, main_v153, main_v154, main_v155, main_v156, main_cst_33, main_v157, main_v158, main_v159, main_c_34, main_v160, main_v161, main_c_35, main_v162, main_v163, main_v164, main_v165, main_v166, main_c_36, main_v167, main_v168, main_c_37, main_v169, main_v170, main_v171, main_v172, main_v173, main_v174, main_c_38, main_v175, main_v176, main_c_39, main_v177, main_v178, main_v179, main_v180, main_v181, main_v182, main_v183, main_cst_40, main_v184, main_v185, main_v186, main_c_41, main_v187, main_v188, main_c_42, main_v189, main_v190, main_v191, main_v192, main_v193, main_c_43, main_v194, main_v195, main_c_44, main_v196, main_v197, main_v198, main_v199, main_v200, main_v201, main_c_45, main_v202, main_v203, main_c_46, main_v204, main_v205, main_v206, main_v207, main_v208, main_v209, main_v210, main_cst_47, main_v211, main_v212, main_v213, main_v214, main_v215, main_v216, main_v217, main_v218, main_v219, main_v220, main_v221, main_v222, main_v223, main_v224, main_v225, main_v226, main_v227]
set_option maxRecDepth 65536 in
set_option maxHeartbeats 4000000 in
theorem hostOps2_writes : (hostOps2 : List (HloOp τ sig (Elt F))).Forall fun op => op.writes ⊆ ((hostOps2_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
set_option maxRecDepth 65536 in
set_option maxHeartbeats 4000000 in
/-- No operation of `hostOps2` allocates a buffer. -/
theorem hostOps2_fresh : (hostOps2 : List (HloOp τ sig (Elt F))).Forall fun op => op.fresh = ∅ := by
  simp only [List.Forall]; repeat' constructor

/-- The buffers the operations of `hostOps3` write. -/
abbrev hostOps3_W : List (Ref sig .tc) := [main_c_48, main_v229, main_v230, main_c_49, main_v231, main_v232, main_v233, main_v234, main_v235, main_v236, main_c_50, main_v237, main_v238, main_c_51, main_v239, main_v240, main_v241, main_v242, main_v243, main_v244, main_v245, main_cst_52, main_v246, main_v247, main_cst_53, main_v248, main_v249, main_v250, main_c_54, main_v251, main_v252, main_c_55, main_v253, main_v254, main_v255, main_v256, main_v257, main_v258, main_v259, main_cst_56, main_v260, main_v261, main_v262, main_v263, main_v264]
set_option maxRecDepth 65536 in
set_option maxHeartbeats 4000000 in
theorem hostOps3_writes : (hostOps3 : List (HloOp τ sig (Elt F))).Forall fun op => op.writes ⊆ ((hostOps3_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
set_option maxRecDepth 65536 in
set_option maxHeartbeats 4000000 in
/-- No operation of `hostOps3` allocates a buffer. -/
theorem hostOps3_fresh : (hostOps3 : List (HloOp τ sig (Elt F))).Forall fun op => op.fresh = ∅ := by
  simp only [List.Forall]; repeat' constructor

/-- The buffers the operations of `hostOps4` write. -/
abbrev hostOps4_W : List (Ref sig .tc) := [main_c_57, main_v266, main_v267, main_c_58, main_v268, main_v269, main_v270, main_v271, main_v272, main_v273, main_c_59, main_v274, main_v275, main_c_60, main_v276, main_v277, main_v278, main_v279, main_v280, main_v281, main_v282, main_cst_61, main_v283, main_v284, main_cst_62, main_v285, main_v286, main_v287, main_c_63, main_v288, main_v289, main_c_64, main_v290, main_v291, main_v292, main_v293, main_v294, main_v295, main_v296, main_cst_65, main_v297, main_v298, main_v299, main_v300, main_v301, main_v302]
set_option maxRecDepth 65536 in
set_option maxHeartbeats 4000000 in
theorem hostOps4_writes : (hostOps4 : List (HloOp τ sig (Elt F))).Forall fun op => op.writes ⊆ ((hostOps4_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
set_option maxRecDepth 65536 in
set_option maxHeartbeats 4000000 in
/-- No operation of `hostOps4` allocates a buffer. -/
theorem hostOps4_fresh : (hostOps4 : List (HloOp τ sig (Elt F))).Forall fun op => op.fresh = ∅ := by
  simp only [List.Forall]; repeat' constructor

/-- Core `c`'s buffers at launch. -/
abbrev W0 : Dev nD → Valuation τ sig (Elt F) := fun c b => (s₀ m ρ).mem ((c : Dev nD), b)
/-- After the first host operations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the factors as entered, the product's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Region 0 changes one buffer only, the product's: a factor's array ends as entered, any other buffer is not its array at all. -/
theorem W2_keep (c : Dev nD) (b : Ref sig .tc) (hb : b ≠ main_v6) :
    W2 m ρ c (Proc.devRef .tc b) = W1 m ρ c (Proc.devRef .tc b) := by
  by_cases h0 : b = main_arg16
  · subst h0
    exact (W2_arr m ρ c 0).trans (((dat0 (V1 m ρ) c).arrAt_in 0 rfl _).trans (A_eq0 (V1 m ρ) c 0))
  by_cases h1 : b = main_arg8
  · subst h1
    exact (W2_arr m ρ c 1).trans (((dat0 (V1 m ρ) c).arrAt_in 1 rfl _).trans (A_eq0 (V1 m ρ) c 1))
  exact W2_of_ne m ρ c b fun w => match w with
    | ⟨0, _⟩ => fun e => h0 e.symm
    | ⟨1, _⟩ => fun e => h1 e.symm
    | ⟨2, _⟩ => fun e => hb e.symm
/-- The product's buffer at the exit is what the pipeline's write-backs leave. -/
theorem W2_out (c : Dev nD) : W2 m ρ c (Proc.devRef .tc main_v6) = (dat0 (V1 m ρ) c).arrAt 2 cfg0.N :=
  W2_arr m ρ c 2

/-- At region 1's exit: its arrays at what the pipeline leaves (the factors as entered, the product's write-backs folded),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- Region 1 changes one buffer only, the product's: a factor's array ends as entered, any other buffer is not its array at all. -/
theorem W3_keep (c : Dev nD) (b : Ref sig .tc) (hb : b ≠ main_v7) :
    W3 m ρ c (Proc.devRef .tc b) = W2 m ρ c (Proc.devRef .tc b) := by
  by_cases h0 : b = main_arg17
  · subst h0
    exact (W3_arr m ρ c 0).trans (((dat1 (V2 m ρ) c).arrAt_in 0 rfl _).trans (A_eq1 (V2 m ρ) c 0))
  by_cases h1 : b = main_arg9
  · subst h1
    exact (W3_arr m ρ c 1).trans (((dat1 (V2 m ρ) c).arrAt_in 1 rfl _).trans (A_eq1 (V2 m ρ) c 1))
  exact W3_of_ne m ρ c b fun w => match w with
    | ⟨0, _⟩ => fun e => h0 e.symm
    | ⟨1, _⟩ => fun e => h1 e.symm
    | ⟨2, _⟩ => fun e => hb e.symm
/-- The product's buffer at the exit is what the pipeline's write-backs leave. -/
theorem W3_out (c : Dev nD) : W3 m ρ c (Proc.devRef .tc main_v7) = (dat1 (V2 m ρ) c).arrAt 2 cfg1.N :=
  W3_arr m ρ c 2

/-- After the long stretch of host operations (region 2's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- At region 2's exit: its arrays at what the pipeline leaves (the factors as entered, the product's write-backs folded),
    every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- Region 2 changes one buffer only, the product's: a factor's array ends as entered, any other buffer is not its array at all. -/
theorem W5_keep (c : Dev nD) (b : Ref sig .tc) (hb : b ≠ main_v228) :
    W5 m ρ c (Proc.devRef .tc b) = W4 m ρ c (Proc.devRef .tc b) := by
  by_cases h0 : b = main_arg14
  · subst h0
    exact (W5_arr m ρ c 0).trans (((dat2 (V4 m ρ) c).arrAt_in 0 rfl _).trans (A_eq2 (V4 m ρ) c 0))
  by_cases h1 : b = main_arg4
  · subst h1
    exact (W5_arr m ρ c 1).trans (((dat2 (V4 m ρ) c).arrAt_in 1 rfl _).trans (A_eq2 (V4 m ρ) c 1))
  exact W5_of_ne m ρ c b fun w => match w with
    | ⟨0, _⟩ => fun e => h0 e.symm
    | ⟨1, _⟩ => fun e => h1 e.symm
    | ⟨2, _⟩ => fun e => hb e.symm
/-- The product's buffer at the exit is what the pipeline's write-backs leave. -/
theorem W5_out (c : Dev nD) : W5 m ρ c (Proc.devRef .tc main_v228) = (dat2 (V4 m ρ) c).arrAt 2 cfg2.N :=
  W5_arr m ρ c 2

/-- After the host operations between the last two regions (region 3's entry). -/
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b

/-- At region 3's exit: its arrays at what the pipeline leaves (the factors as entered, the product's write-backs folded),
    every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- Region 3 changes one buffer only, the product's: a factor's array ends as entered, any other buffer is not its array at all. -/
theorem W7_keep (c : Dev nD) (b : Ref sig .tc) (hb : b ≠ main_v265) :
    W7 m ρ c (Proc.devRef .tc b) = W6 m ρ c (Proc.devRef .tc b) := by
  by_cases h0 : b = main_arg15
  · subst h0
    exact (W7_arr m ρ c 0).trans (((dat3 (V6 m ρ) c).arrAt_in 0 rfl _).trans (A_eq3 (V6 m ρ) c 0))
  by_cases h1 : b = main_arg5
  · subst h1
    exact (W7_arr m ρ c 1).trans (((dat3 (V6 m ρ) c).arrAt_in 1 rfl _).trans (A_eq3 (V6 m ρ) c 1))
  exact W7_of_ne m ρ c b fun w => match w with
    | ⟨0, _⟩ => fun e => h0 e.symm
    | ⟨1, _⟩ => fun e => h1 e.symm
    | ⟨2, _⟩ => fun e => hb e.symm
/-- The product's buffer at the exit is what the pipeline's write-backs leave. -/
theorem W7_out (c : Dev nD) : W7 m ρ c (Proc.devRef .tc main_v265) = (dat3 (V6 m ρ) c).arrAt 2 cfg3.N :=
  W7_arr m ρ c 2

/-- After the last host operations: the contents the program returns with. -/
abbrev W8 : Dev nD → Valuation τ sig (Elt F) := fun c => StableHlo.after hostOps4 (W7 m ρ c)

theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
theorem W4_keep (c : Dev nD) (r : Ref sig .tc) (h : r ∉ hostOps2_W) : W4 m ρ c (Proc.devRef .tc r) = W3 m ρ c (Proc.devRef .tc r) :=
  StableHlo.after_of_writes_sub hostOps2 _ hostOps2_writes h
theorem W6_keep (c : Dev nD) (r : Ref sig .tc) (h : r ∉ hostOps3_W) : W6 m ρ c (Proc.devRef .tc r) = W5 m ρ c (Proc.devRef .tc r) :=
  StableHlo.after_of_writes_sub hostOps3 _ hostOps3_writes h
theorem W8_keep (c : Dev nD) (r : Ref sig .tc) (h : r ∉ hostOps4_W) : W8 m ρ c (Proc.devRef .tc r) = W7 m ρ c (Proc.devRef .tc r) :=
  StableHlo.after_of_writes_sub hostOps4 _ hostOps4_writes h

/-- A buffer that no host operation writes and that is no region's product ends as launched. -/
theorem W8_launch (c : Dev nD) (r : Ref sig .tc) (h0 : r ∉ hostOps0_W) (h2 : r ∉ hostOps2_W) (h3 : r ∉ hostOps3_W) (h4 : r ∉ hostOps4_W)
    (k0 : r ≠ main_v6) (k1 : r ≠ main_v7) (k2 : r ≠ main_v228) (k3 : r ≠ main_v265) :
    W8 m ρ c (Proc.devRef .tc r) = m ((c : Thread nD τ).loc r) :=
  (W8_keep m ρ c r h4).trans <| (W7_keep m ρ c r k3).trans <| (W6_keep m ρ c r h3).trans <| (W5_keep m ρ c r k2).trans <|
    (W4_keep m ρ c r h2).trans <| (W3_keep m ρ c r k1).trans <| (W2_keep m ρ c r k0).trans <| (W1_keep m ρ c r h0).trans rfl

end Cert.KernelIdeal.Fr

end
-- ==== Proof.KernelIdealRun.lean ====
/-
  The run of the program's main function: eight segments in order — host operations, the first two regions back to back, the
  long stretch of host operations, the third region, host operations, the fourth region, the last host operations —
  each entered from the buffer contents the one before it leaves. Every weakly fair execution terminates without a
  fault, and every unscoped buffer ends at the last boundary's contents; the argument arrays therefore end as launched.
-/
import proofs.«161673_j22832046146035_1_alg».proof.Proof.KernelIdealFold

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V6 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W8 m ρ c) ∗ ∃ r, prngReg c r)

set_option backward.isDefEq.respectTransparency.types false in
/-- Region 0 over the thread state: entered with every unscoped buffer at `W1`, left with them at `W2`; its arrays are
    split out of the unscoped buffers at entry and put back at exit, the generator register goes into the invariant and
    comes back, nothing is owed, and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`; its arrays are
    split out of the unscoped buffers at entry and put back at exit, the generator register goes into the invariant and
    comes back, nothing is owed, and the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W4`, left with them at `W5`; its arrays are
    split out of the unscoped buffers at entry and put back at exit, the generator register goes into the invariant and
    comes back, nothing is owed, and the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W6`, left with them at `W7`; its arrays are
    split out of the unscoped buffers at entry and put back at exit, the generator register goes into the invariant and
    comes back, nothing is owed, and the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The segments of the main function, in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)),
    .region (reg3 m ρ),
    .host (hseg hostOps4 hostOps4_sub hostOps4_fresh (W7 m ρ)) ]
/-- The main function is the run of the segments. -/
theorem main_run (c : Dev nD) : main (F := F) c = Pipeline.Seg.run (segs m ρ) := (main_chain c).trans (by chain_rfl)

set_option backward.isDefEq.respectTransparency.types false in
/-- From any memory with zero counters every weakly fair execution of the main function terminates, nothing faulting,
    and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m ρ c) ∗ R c) ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- Every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)
      ∧ r.2.mem ((c.tc : Thread nD τ).loc main_arg44) = m ((c.tc : Thread nD τ).loc main_arg44)
      ∧ r.2.mem ((c.tc : Thread nD τ).loc main_arg45) = m ((c.tc : Thread nD τ).loc main_arg45)
      ∧ r.2.mem ((c.tc : Thread nD τ).loc main_arg46) = m ((c.tc : Thread nD τ).loc main_arg46)
      ∧ r.2.mem ((c.tc : Thread nD τ).loc main_arg47) = m ((c.tc : Thread nD τ).loc main_arg47)
      ∧ r.2.mem ((c.tc : Thread nD τ).loc main_arg48) = m ((c.tc : Thread nD τ).loc main_arg48)
      ∧ r.2.mem ((c.tc : Thread nD τ).loc main_arg49) = m ((c.tc : Thread nD τ).loc main_arg49)
      ∧ r.2.mem ((c.tc : Thread nD τ).loc main_arg50) = m ((c.tc : Thread nD τ).loc main_arg50)
      ∧ r.2.mem ((c.tc : Thread nD τ).loc main_arg51) = m ((c.tc : Thread nD τ).loc main_arg51)
      ∧ r.2.mem ((c.tc : Thread nD τ).loc main_arg52) = m ((c.tc : Thread nD τ).loc main_arg52)
      ∧ r.2.mem ((c.tc : Thread nD τ).loc main_arg53) = m ((c.tc : Thread nD τ).loc main_arg53)) :=
  (θ_run defs _ _).mono (fun _ h c => ⟨(h c _ (mem_uc main_arg0 (by decide))).trans (W8_launch m ρ c main_arg0 (by decide) (by decide) (by decide) (by decide) (by decide) (by decide) (by decide) (by decide)),
      (h c _ (mem_uc main_arg1 (by decide))).trans (W8_launch m ρ c main_arg1 (by decide) (by decide) (by decide) (by decide) (by decide) (by decide) (by decide) (by decide)),
      (h c _ (mem_uc main_arg2 (by decide))).trans (W8_launch m ρ c main_arg2 (by decide) (by decide) (by decide) (by decide) (by decide) (by decide) (by decide) (by decide)),
      (h c _ (mem_uc main_arg3 (by decide))).trans (W8_launch m ρ c main_arg3 (by decide) (by decide) (by decide) (by decide) (by decide) (by decide) (by decide) (by decide)),
      (h c _ (mem_uc main_arg4 (by decide))).trans (W8_launch m ρ c main_arg4 (by decide) (by decide) (by decide) (by decide) (by decide) (by decide) (by decide) (by decide)),
      (h c _ (mem_uc main_arg5 (by decide))).trans (W8_launch m ρ c main_arg5 (by decide) (by decide) (by decide) (by decide) (by decide) (by decide) (by decide) (by decide)),
      (h c _ (mem_uc main_arg6 (by decide))).trans (W8_launch m ρ c main_arg6 (by decide) (by decide) (by decide) (by decide) (by decide) (by decide) (by decide) (by decide)),
      (h c _ (mem_uc main_arg7 (by decide))).trans (W8_launch m ρ c main_arg7 (by decide) (by decide) (by decide) (by decide) (by decide) (by decide) (by decide) (by decide)),
      (h c _ (mem_uc main_arg8 (by decide))).trans (W8_launch m ρ c main_arg8 (by decide) (by decide) (by decide) (by decide) (by decide) (by decide) (by decide) (by decide)),
      (h c _ (mem_uc main_arg9 (by decide))).trans (W8_launch m ρ c main_arg9 (by decide) (by decide) (by decide) (by decide) (by decide) (by decide) (by decide) (by decide)),
      (h c _ (mem_uc main_arg10 (by decide))).trans (W8_launch m ρ c main_arg10 (by decide) (by decide) (by decide) (by decide) (by decide) (by decide) (by decide) (by decide)),
      (h c _ (mem_uc main_arg11 (by decide))).trans (W8_launch m ρ c main_arg11 (by decide) (by decide) (by decide) (by decide) (by decide) (by decide) (by decide) (by decide)),
      (h c _ (mem_uc main_arg12 (by decide))).trans (W8_launch m ρ c main_arg12 (by decide) (by decide) (by decide) (by decide) (by decide) (by decide) (by decide) (by decide)),
      (h c _ (mem_uc main_arg13 (by decide))).trans (W8_launch m ρ c main_arg13 (by decide) (by decide) (by decide) (by decide) (by decide) (by decide) (by decide) (by decide)),
      (h c _ (mem_uc main_arg14 (by decide))).trans (W8_launch m ρ c main_arg14 (by decide) (by decide) (by decide) (by decide) (by decide) (by decide) (by decide) (by decide)),
      (h c _ (mem_uc main_arg15 (by decide))).trans (W8_launch m ρ c main_arg15 (by decide) (by decide) (by decide) (by decide) (by decide) (by decide) (by decide) (by decide)),
      (h c _ (mem_uc main_arg16 (by decide))).trans (W8_launch m ρ c main_arg16 (by decide) (by decide) (by decide) (by decide) (by decide) (by decide) (by decide) (by decide)),
      (h c _ (mem_uc main_arg17 (by decide))).trans (W8_launch m ρ c main_arg17 (by decide) (by decide) (by decide) (by decide) (by decide) (by decide) (by decide) (by decide)),
      (h c _ (mem_uc main_arg18 (by decide))).trans (W8_launch m ρ c main_arg18 (by decide) (by decide) (by decide) (by decide) (by decide) (by decide) (by decide) (by decide)),
      (h c _ (mem_uc main_arg19 (by decide))).trans (W8_launch m ρ c main_arg19 (by decide) (by decide) (by decide) (by decide) (by decide) (by decide) (by decide) (by decide)),
      (h c _ (mem_uc main_arg20 (by decide))).trans (W8_launch m ρ c main_arg20 (by decide) (by decide) (by decide) (by decide) (by decide) (by decide) (by decide) (by decide)),
      (h c _ (mem_uc main_arg21 (by decide))).trans (W8_launch m ρ c main_arg21 (by decide) (by decide) (by decide) (by decide) (by decide) (by decide) (by decide) (by decide)),
      (h c _ (mem_uc main_arg22 (by decide))).trans (W8_launch m ρ c main_arg22 (by decide) (by decide) (by decide) (by decide) (by decide) (by decide) (by decide) (by decide)),
      (h c _ (mem_uc main_arg23 (by decide))).trans (W8_launch m ρ c main_arg23 (by decide) (by decide) (by decide) (by decide) (by decide) (by decide) (by decide) (by decide)),
      (h c _ (mem_uc main_arg24 (by decide))).trans (W8_launch m ρ c main_arg24 (by decide) (by decide) (by decide) (by decide) (by decide) (by decide) (by decide) (by decide)),
      (h c _ (mem_uc main_arg25 (by decide))).trans (W8_launch m ρ c main_arg25 (by decide) (by decide) (by decide) (by decide) (by decide) (by decide) (by decide) (by decide)),
      (h c _ (mem_uc main_arg26 (by decide))).trans (W8_launch m ρ c main_arg26 (by decide) (by decide) (by decide) (by decide) (by decide) (by decide) (by decide) (by decide)),
      (h c _ (mem_uc main_arg27 (by decide))).trans (W8_launch m ρ c main_arg27 (by decide) (by decide) (by decide) (by decide) (by decide) (by decide) (by decide) (by decide)),
      (h c _ (mem_uc main_arg28 (by decide))).trans (W8_launch m ρ c main_arg28 (by decide) (by decide) (by decide) (by decide) (by decide) (by decide) (by decide) (by decide)),
      (h c _ (mem_uc main_arg29 (by decide))).trans (W8_launch m ρ c main_arg29 (by decide) (by decide) (by decide) (by decide) (by decide) (by decide) (by decide) (by decide)),
      (h c _ (mem_uc main_arg30 (by decide))).trans (W8_launch m ρ c main_arg30 (by decide) (by decide) (by decide) (by decide) (by decide) (by decide) (by decide) (by decide)),
      (h c _ (mem_uc main_arg31 (by decide))).trans (W8_launch m ρ c main_arg31 (by decide) (by decide) (by decide) (by decide) (by decide) (by decide) (by decide) (by decide)),
      (h c _ (mem_uc main_arg32 (by decide))).trans (W8_launch m ρ c main_arg32 (by decide) (by decide) (by decide) (by decide) (by decide) (by decide) (by decide) (by decide)),
      (h c _ (mem_uc main_arg33 (by decide))).trans (W8_launch m ρ c main_arg33 (by decide) (by decide) (by decide) (by decide) (by decide) (by decide) (by decide) (by decide)),
      (h c _ (mem_uc main_arg34 (by decide))).trans (W8_launch m ρ c main_arg34 (by decide) (by decide) (by decide) (by decide) (by decide) (by decide) (by decide) (by decide)),
      (h c _ (mem_uc main_arg35 (by decide))).trans (W8_launch m ρ c main_arg35 (by decide) (by decide) (by decide) (by decide) (by decide) (by decide) (by decide) (by decide)),
      (h c _ (mem_uc main_arg36 (by decide))).trans (W8_launch m ρ c main_arg36 (by decide) (by decide) (by decide) (by decide) (by decide) (by decide) (by decide) (by decide)),
      (h c _ (mem_uc main_arg37 (by decide))).trans (W8_launch m ρ c main_arg37 (by decide) (by decide) (by decide) (by decide) (by decide) (by decide) (by decide) (by decide)),
      (h c _ (mem_uc main_arg38 (by decide))).trans (W8_launch m ρ c main_arg38 (by decide) (by decide) (by decide) (by decide) (by decide) (by decide) (by decide) (by decide)),
      (h c _ (mem_uc main_arg39 (by decide))).trans (W8_launch m ρ c main_arg39 (by decide) (by decide) (by decide) (by decide) (by decide) (by decide) (by decide) (by decide)),
      (h c _ (mem_uc main_arg40 (by decide))).trans (W8_launch m ρ c main_arg40 (by decide) (by decide) (by decide) (by decide) (by decide) (by decide) (by decide) (by decide)),
      (h c _ (mem_uc main_arg41 (by decide))).trans (W8_launch m ρ c main_arg41 (by decide) (by decide) (by decide) (by decide) (by decide) (by decide) (by decide) (by decide)),
      (h c _ (mem_uc main_arg42 (by decide))).trans (W8_launch m ρ c main_arg42 (by decide) (by decide) (by decide) (by decide) (by decide) (by decide) (by decide) (by decide)),
      (h c _ (mem_uc main_arg43 (by decide))).trans (W8_launch m ρ c main_arg43 (by decide) (by decide) (by decide) (by decide) (by decide) (by decide) (by decide) (by decide)),
      (h c _ (mem_uc main_arg44 (by decide))).trans (W8_launch m ρ c main_arg44 (by decide) (by decide) (by decide) (by decide) (by decide) (by decide) (by decide) (by decide)),
      (h c _ (mem_uc main_arg45 (by decide))).trans (W8_launch m ρ c main_arg45 (by decide) (by decide) (by decide) (by decide) (by decide) (by decide) (by decide) (by decide)),
      (h c _ (mem_uc main_arg46 (by decide))).trans (W8_launch m ρ c main_arg46 (by decide) (by decide) (by decide) (by decide) (by decide) (by decide) (by decide) (by decide)),
      (h c _ (mem_uc main_arg47 (by decide))).trans (W8_launch m ρ c main_arg47 (by decide) (by decide) (by decide) (by decide) (by decide) (by decide) (by decide) (by decide)),
      (h c _ (mem_uc main_arg48 (by decide))).trans (W8_launch m ρ c main_arg48 (by decide) (by decide) (by decide) (by decide) (by decide) (by decide) (by decide) (by decide)),
      (h c _ (mem_uc main_arg49 (by decide))).trans (W8_launch m ρ c main_arg49 (by decide) (by decide) (by decide) (by decide) (by decide) (by decide) (by decide) (by decide)),
      (h c _ (mem_uc main_arg50 (by decide))).trans (W8_launch m ρ c main_arg50 (by decide) (by decide) (by decide) (by decide) (by decide) (by decide) (by decide) (by decide)),
      (h c _ (mem_uc main_arg51 (by decide))).trans (W8_launch m ρ c main_arg51 (by decide) (by decide) (by decide) (by decide) (by decide) (by decide) (by decide) (by decide)),
      (h c _ (mem_uc main_arg52 (by decide))).trans (W8_launch m ρ c main_arg52 (by decide) (by decide) (by decide) (by decide) (by decide) (by decide) (by decide) (by decide)),
      (h c _ (mem_uc main_arg53 (by decide))).trans (W8_launch m ρ c main_arg53 (by decide) (by decide) (by decide) (by decide) (by decide) (by decide) (by decide) (by decide))⟩)
    (run_all m ρ)

end Cert.KernelIdeal.Fr

end
-- ==== Proof.PlainProductEntry.lean ====
/-
  One entry of a plain matrix product. With dimension numbers that contract the left factor's second axis against the
  right factor's first and carry no batch axis, the host's product and a matrix unit's product accumulated into zero are
  both, at the ideal values, at row `i` and column `q`, the sum over `k` of left (i, k) times right (k, q).
-/
import Idealize.ShloMosaic.Lib.KernelVsHost

noncomputable section

namespace Cert.PlainProduct

open Idealize.ShloMosaic Idealize.ShloMosaic.ValueIdx
open scoped BigOperators

variable {M K N : Nat} {φ₁ φ₂ : FTy}

/-- The host's plain product at an entry: the sum over the contracted axis of the factors' products. -/
theorem dotGeneral_plain_apply (prec : Option ContractPrecision) (sched : HostSchedule)
    (lhs : FVec Ideal ⟨2, ![M, K]⟩ φ₁) (rhs : FVec Ideal ⟨2, ![K, N]⟩ φ₂) (i : Fin M) (q : Fin N) :
    FloatOps.dotGeneral (DotDims.plain M K N) prec sched lhs rhs (ix2 i q) = ∑ k : Fin K, lhs (ix2 i k) * rhs (ix2 k q) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i q) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => rfl)
  rw [el, er]

/-- A matrix unit's plain product accumulated into the zero splat, at an entry: the same sum. -/
theorem matmul_plain_zero_apply (prec : Option ContractPrecision)
    (lhs : FVec Ideal ⟨2, ![M, K]⟩ φ₁) (rhs : FVec Ideal ⟨2, ![K, N]⟩ φ₂) (i : Fin M) (q : Fin N) :
    matmul (DotDims.plain M K N) prec lhs rhs (constant ⟨2, ![M, N]⟩ .f32 0x00000000#32) (ix2 i q)
      = ∑ k : Fin K, lhs (ix2 i k) * rhs (ix2 k q) :=
  (congrFun (matmul_zero_eq_dotGeneral (DotDims.plain M K N) prec lhs rhs) (ix2 i q)).trans
    (dotGeneral_plain_apply prec .single lhs rhs i q)

end Cert.PlainProduct

end
-- ==== Proof.KernelIdealProduct.lean ====
/-
  The idealized kernel's four regions are each one tall matrix product done a block of rows at a time: the grid point `t`
  multiplies rows `t·b … t·b + b − 1` of the left factor by the whole right factor and writes those rows of the product.
  Here: at the ideal values, whatever contents the region is entered from, the product's array after the whole grid is the
  host's one whole product of the two argument arrays. Entry by entry both are the same sum over the contracted axis; a
  block's row `r` at point `t` is row `t·b + r` of the array; and row `i` is written by the point `i / b`.
-/
import proofs.«161673_j22832046146035_1_alg».proof.Proof.KernelIdealBody
import proofs.«161673_j22832046146035_1_alg».proof.Proof.PlainProductEntry
import proofs.«161673_j22832046146035_1_alg».proof.ReferenceIdeal
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable [Cert.ReferenceIdeal.Facts₀]
variable (V : (c : Dev nD) → (b : Ref sig .tc) → Buf (Elt Ideal) ((c : Thread nD τ).loc b))

/-- A whole-buffer rectangle starts at the origin. -/
theorem origin2 : (![0, 0] : Fin 2 → Nat) = fun _ => 0 := funext fun a => by fin_cases a <;> rfl

/-! # The host's whole product at an entry, once per shape -/

/-- One entry of the host's whole 300000×64 by 64×64 product. -/
theorem whole_300000x64x64_apply (a : FVec Ideal Cert.ReferenceIdeal.S300000x64 .f32) (w : FVec Ideal Cert.ReferenceIdeal.S64x64 .f32)
    (i : Fin 300000) (q : Fin 64) :
    Host.dotGeneral (F := Ideal) Cert.ReferenceIdeal.dot_S300000x64_S64x64_S300000x64_1_0_0_1_n_n none a w (ix2 i q)
      = ∑ k : Fin 64, a (ix2 i k) * w (ix2 k q) :=
  Cert.PlainProduct.dotGeneral_plain_apply (M := 300000) (K := 64) (N := 64) none .single a w i q

/-- One entry of the host's whole 200000×768 by 768×64 product. -/
theorem whole_200000x768x64_apply (a : FVec Ideal Cert.ReferenceIdeal.S200000x768 .f32) (w : FVec Ideal Cert.ReferenceIdeal.S768x64 .f32)
    (i : Fin 200000) (q : Fin 64) :
    Host.dotGeneral (F := Ideal) Cert.ReferenceIdeal.dot_S200000x768_S768x64_S200000x64_1_0_0_1_n_n none a w (ix2 i q)
      = ∑ k : Fin 768, a (ix2 i k) * w (ix2 k q) :=
  Cert.PlainProduct.dotGeneral_plain_apply (M := 200000) (K := 768) (N := 64) none .single a w i q

/-! # Region 0: 300000×64 by 64×64, 3000 rows at a point -/

/-- One entry of the block product: the row of the left block against the column of the right factor. -/
theorem pay0_apply (x0 : Vec Ideal S3000x64 .f32) (x1 : Vec Ideal S64x64 .f32) (p : Fin 3000) (q : Fin 64) :
    k0_pay1 x0 x1 (ix2 p q) = ∑ k : Fin 64, x0 (ix2 p k) * x1 (ix2 k q) :=
  Cert.PlainProduct.matmul_plain_zero_apply (M := 3000) (K := 64) (N := 64) none
    (truncf .bf16 x0 bitsLt_bf16_f32) (truncf .bf16 x1 bitsLt_bf16_f32) p q

/-- The printed index maps over the grid: the left factor's and the product's blocks move down the rows with the point,
    the right factor's block never moves. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole product of the two argument arrays as the region finds them. -/
abbrev G0 (c : Dev nD) : Buf (Elt Ideal) ((cfg0.win 2).arr.view.loc (c.tc : Thread nD τ)) :=
  Host.dotGeneral (F := Ideal) (φ₁ := .f32) (φ₂ := .f32) Cert.ReferenceIdeal.dot_S300000x64_S64x64_S300000x64_1_0_0_1_n_n none (V c main_arg16) (V c main_arg8)

/-- What point `t` writes back is block `t` of the whole product. -/
theorem flushed0_eq (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero origin2]
  simp only [View.ld_unit_zero (S := S3000x64) origin2, View.ld_unit_zero (S := S64x64) origin2]
  funext j
  have hj0 : (j 0).val < 3000 := (j 0).isLt
  have hj1 : (j 1).val < 64 := (j 1).isLt
  obtain ⟨e00, e01, e10, e11, e20, e21⟩ := index_facts0 t
  have ht : t.val < 100 := t.isLt
  have hi : 3000 * t.val + (j 0).val < 300000 := by omega
  have hx : (cfg0.win 2).xinj (grid0.coords t) j = ix2 (⟨(j 0).val, hj0⟩ : Fin 3000) (⟨(j 1).val, hj1⟩ : Fin 64) :=
    funext fun a => by match a with | ⟨0, _⟩ => rfl | ⟨1, _⟩ => rfl
  have hemb : ((cfg0.win 2).blk t).view.emb j = ix2 (⟨3000 * t.val + (j 0).val, hi⟩ : Fin 300000) (⟨(j 1).val, hj1⟩ : Fin 64) := by
    funext a; apply Fin.ext
    match a with
    | ⟨0, _⟩ => show win0_2.index t (0 : Fin 2) * 3000 + 1 * (j 0).val = 3000 * t.val + (j 0).val; omega
    | ⟨1, _⟩ => show win0_2.index t (1 : Fin 2) * 64 + 1 * (j 1).val = (j 1).val; omega
  refine (congrArg (k0_pay1 (iblk0 V c 0 t) (iblk0 V c 1 t)) hx).trans ?_
  refine (pay0_apply _ _ _ _).trans ?_
  refine Eq.trans ?_ (congrArg (G0 V c) hemb).symm
  refine Eq.trans ?_ (whole_300000x64x64_apply (V c main_arg16) (V c main_arg8) _ _).symm
  refine Finset.sum_congr rfl fun k _ => ?_
  have h0 : iblk0 V c 0 t (ix2 (⟨(j 0).val, hj0⟩ : Fin 3000) k) = V c main_arg16 (ix2 (⟨3000 * t.val + (j 0).val, hi⟩ : Fin 300000) k) := by
    show V c main_arg16 (((cfg0.win 0).blk t).view.emb (ix2 (⟨(j 0).val, hj0⟩ : Fin 3000) k)) = _
    refine congrArg _ (funext fun a => Fin.ext ?_)
    match a with
    | ⟨0, _⟩ => show win0_0.index t (0 : Fin 2) * 3000 + 1 * (j 0).val = 3000 * t.val + (j 0).val; omega
    | ⟨1, _⟩ => show win0_0.index t (1 : Fin 2) * 64 + 1 * k.val = k.val; omega
  have h1 : iblk0 V c 1 t (ix2 k (⟨(j 1).val, hj1⟩ : Fin 64)) = V c main_arg8 (ix2 k (⟨(j 1).val, hj1⟩ : Fin 64)) := by
    show V c main_arg8 (((cfg0.win 1).blk t).view.emb (ix2 k (⟨(j 1).val, hj1⟩ : Fin 64))) = _
    refine congrArg _ (funext fun a => Fin.ext ?_)
    match a with
    | ⟨0, _⟩ => show win0_1.index t (0 : Fin 2) * 64 + 1 * k.val = k.val; omega
    | ⟨1, _⟩ => show win0_1.index t (1 : Fin 2) * 64 + 1 * (j 1).val = (j 1).val; omega
  rw [h0, h1]

/-- An index of the product's array is in point `t`'s block iff each coordinate is in the block's range on its axis. -/
theorem mem_blk0 (t : Fin cfg0.N) (i : S300000x64.Idx) :
    i ∈ ((cfg0.win 2).blk t).view.set ↔ ∀ a : Fin 2, win0_2.index t a * S3000x64.size a ≤ (i a).val ∧ (i a).val < win0_2.index t a * S3000x64.size a + S3000x64.size a := by
  show i ∈ ((View.whole main_v6).slice (win0_2.rect t)).set ↔ _
  rw [View.set_slice_whole, Rect.mem_set_unit]
  exact Iff.rfl

/-- Row `r` of the product is written back by the point `r / 3000`. -/
theorem cover0 (i : S300000x64.Idx) : ∃ t : Fin cfg0.N, (cfg0.win 2).flush t = true ∧ i ∈ ((cfg0.win 2).blk t).view.set := by
  have hi0 : (i 0).val < 300000 := (i 0).isLt
  have hi1 : (i 1).val < 64 := (i 1).isLt
  have hN : (i 0).val / 3000 < 100 := by omega
  refine ⟨⟨(i 0).val / 3000, hN⟩, flush0_2 _, ?_⟩
  rw [mem_blk0]
  obtain ⟨-, -, -, -, e20, e21⟩ := index_facts0 ⟨(i 0).val / 3000, hN⟩
  have e20' : win0_2.index ⟨(i 0).val / 3000, hN⟩ (0 : Fin 2) = (i 0).val / 3000 := e20
  intro a
  match a with
  | ⟨0, _⟩ =>
    show win0_2.index ⟨(i 0).val / 3000, hN⟩ (0 : Fin 2) * 3000 ≤ (i 0).val ∧ (i 0).val < win0_2.index ⟨(i 0).val / 3000, hN⟩ (0 : Fin 2) * 3000 + 3000
    omega
  | ⟨1, _⟩ =>
    show win0_2.index ⟨(i 0).val / 3000, hN⟩ (1 : Fin 2) * 64 ≤ (i 1).val ∧ (i 1).val < win0_2.index ⟨(i 0).val / 3000, hN⟩ (1 : Fin 2) * 64 + 64
    omega

/-- After the whole grid the product's array is the host's one whole product of the two argument arrays. -/
theorem product0 (c : Dev nD) :
    (dat0 (F := Ideal) V c).arrAt 2 cfg0.N
      = Host.dotGeneral (F := Ideal) (φ₁ := .f32) (φ₂ := .f32) Cert.ReferenceIdeal.dot_S300000x64_S64x64_S300000x64_1_0_0_1_n_n none (V c main_arg16) (V c main_arg8) :=
  (dat0 V c).arrAt_eq_of_cover 2 (G0 V c) (fun t _ => flushed0_eq V c t) cover0

/-! # Region 1: 300000×64 by 64×64, 3000 rows at a point -/

/-- One entry of the block product: the row of the left block against the column of the right factor. -/
theorem pay1_apply (x0 : Vec Ideal S3000x64 .f32) (x1 : Vec Ideal S64x64 .f32) (p : Fin 3000) (q : Fin 64) :
    k1_pay1 x0 x1 (ix2 p q) = ∑ k : Fin 64, x0 (ix2 p k) * x1 (ix2 k q) :=
  Cert.PlainProduct.matmul_plain_zero_apply (M := 3000) (K := 64) (N := 64) none
    (truncf .bf16 x0 bitsLt_bf16_f32) (truncf .bf16 x1 bitsLt_bf16_f32) p q

/-- The printed index maps over the grid: the left factor's and the product's blocks move down the rows with the point,
    the right factor's block never moves. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The whole product of the two argument arrays as the region finds them. -/
abbrev G1 (c : Dev nD) : Buf (Elt Ideal) ((cfg1.win 2).arr.view.loc (c.tc : Thread nD τ)) :=
  Host.dotGeneral (F := Ideal) (φ₁ := .f32) (φ₂ := .f32) Cert.ReferenceIdeal.dot_S300000x64_S64x64_S300000x64_1_0_0_1_n_n none (V c main_arg17) (V c main_arg9)

/-- What point `t` writes back is block `t` of the whole product. -/
theorem flushed1_eq (c : Dev nD) (t : Fin cfg1.N) :
    (dat1 V c).flushed 2 t = ((cfg1.win 2).blk t).view.read (Elt Ideal) (G1 V c) := by
  show (cfg1.win 2).cut (grid1.coords t) ((dat1 V c).after 2 t) = _
  rw [after1_2]
  unfold out1_2
  rw [View.canon_unit_zero origin2]
  simp only [View.ld_unit_zero (S := S3000x64) origin2, View.ld_unit_zero (S := S64x64) origin2]
  funext j
  have hj0 : (j 0).val < 3000 := (j 0).isLt
  have hj1 : (j 1).val < 64 := (j 1).isLt
  obtain ⟨e00, e01, e10, e11, e20, e21⟩ := index_facts1 t
  have ht : t.val < 100 := t.isLt
  have hi : 3000 * t.val + (j 0).val < 300000 := by omega
  have hx : (cfg1.win 2).xinj (grid1.coords t) j = ix2 (⟨(j 0).val, hj0⟩ : Fin 3000) (⟨(j 1).val, hj1⟩ : Fin 64) :=
    funext fun a => by match a with | ⟨0, _⟩ => rfl | ⟨1, _⟩ => rfl
  have hemb : ((cfg1.win 2).blk t).view.emb j = ix2 (⟨3000 * t.val + (j 0).val, hi⟩ : Fin 300000) (⟨(j 1).val, hj1⟩ : Fin 64) := by
    funext a; apply Fin.ext
    match a with
    | ⟨0, _⟩ => show win1_2.index t (0 : Fin 2) * 3000 + 1 * (j 0).val = 3000 * t.val + (j 0).val; omega
    | ⟨1, _⟩ => show win1_2.index t (1 : Fin 2) * 64 + 1 * (j 1).val = (j 1).val; omega
  refine (congrArg (k1_pay1 (iblk1 V c 0 t) (iblk1 V c 1 t)) hx).trans ?_
  refine (pay1_apply _ _ _ _).trans ?_
  refine Eq.trans ?_ (congrArg (G1 V c) hemb).symm
  refine Eq.trans ?_ (whole_300000x64x64_apply (V c main_arg17) (V c main_arg9) _ _).symm
  refine Finset.sum_congr rfl fun k _ => ?_
  have h0 : iblk1 V c 0 t (ix2 (⟨(j 0).val, hj0⟩ : Fin 3000) k) = V c main_arg17 (ix2 (⟨3000 * t.val + (j 0).val, hi⟩ : Fin 300000) k) := by
    show V c main_arg17 (((cfg1.win 0).blk t).view.emb (ix2 (⟨(j 0).val, hj0⟩ : Fin 3000) k)) = _
    refine congrArg _ (funext fun a => Fin.ext ?_)
    match a with
    | ⟨0, _⟩ => show win1_0.index t (0 : Fin 2) * 3000 + 1 * (j 0).val = 3000 * t.val + (j 0).val; omega
    | ⟨1, _⟩ => show win1_0.index t (1 : Fin 2) * 64 + 1 * k.val = k.val; omega
  have h1 : iblk1 V c 1 t (ix2 k (⟨(j 1).val, hj1⟩ : Fin 64)) = V c main_arg9 (ix2 k (⟨(j 1).val, hj1⟩ : Fin 64)) := by
    show V c main_arg9 (((cfg1.win 1).blk t).view.emb (ix2 k (⟨(j 1).val, hj1⟩ : Fin 64))) = _
    refine congrArg _ (funext fun a => Fin.ext ?_)
    match a with
    | ⟨0, _⟩ => show win1_1.index t (0 : Fin 2) * 64 + 1 * k.val = k.val; omega
    | ⟨1, _⟩ => show win1_1.index t (1 : Fin 2) * 64 + 1 * (j 1).val = (j 1).val; omega
  rw [h0, h1]

/-- An index of the product's array is in point `t`'s block iff each coordinate is in the block's range on its axis. -/
theorem mem_blk1 (t : Fin cfg1.N) (i : S300000x64.Idx) :
    i ∈ ((cfg1.win 2).blk t).view.set ↔ ∀ a : Fin 2, win1_2.index t a * S3000x64.size a ≤ (i a).val ∧ (i a).val < win1_2.index t a * S3000x64.size a + S3000x64.size a := by
  show i ∈ ((View.whole main_v7).slice (win1_2.rect t)).set ↔ _
  rw [View.set_slice_whole, Rect.mem_set_unit]
  exact Iff.rfl

/-- Row `r` of the product is written back by the point `r / 3000`. -/
theorem cover1 (i : S300000x64.Idx) : ∃ t : Fin cfg1.N, (cfg1.win 2).flush t = true ∧ i ∈ ((cfg1.win 2).blk t).view.set := by
  have hi0 : (i 0).val < 300000 := (i 0).isLt
  have hi1 : (i 1).val < 64 := (i 1).isLt
  have hN : (i 0).val / 3000 < 100 := by omega
  refine ⟨⟨(i 0).val / 3000, hN⟩, flush1_2 _, ?_⟩
  rw [mem_blk1]
  obtain ⟨-, -, -, -, e20, e21⟩ := index_facts1 ⟨(i 0).val / 3000, hN⟩
  have e20' : win1_2.index ⟨(i 0).val / 3000, hN⟩ (0 : Fin 2) = (i 0).val / 3000 := e20
  intro a
  match a with
  | ⟨0, _⟩ =>
    show win1_2.index ⟨(i 0).val / 3000, hN⟩ (0 : Fin 2) * 3000 ≤ (i 0).val ∧ (i 0).val < win1_2.index ⟨(i 0).val / 3000, hN⟩ (0 : Fin 2) * 3000 + 3000
    omega
  | ⟨1, _⟩ =>
    show win1_2.index ⟨(i 0).val / 3000, hN⟩ (1 : Fin 2) * 64 ≤ (i 1).val ∧ (i 1).val < win1_2.index ⟨(i 0).val / 3000, hN⟩ (1 : Fin 2) * 64 + 64
    omega

/-- After the whole grid the product's array is the host's one whole product of the two argument arrays. -/
theorem product1 (c : Dev nD) :
    (dat1 (F := Ideal) V c).arrAt 2 cfg1.N
      = Host.dotGeneral (F := Ideal) (φ₁ := .f32) (φ₂ := .f32) Cert.ReferenceIdeal.dot_S300000x64_S64x64_S300000x64_1_0_0_1_n_n none (V c main_arg17) (V c main_arg9) :=
  (dat1 V c).arrAt_eq_of_cover 2 (G1 V c) (fun t _ => flushed1_eq V c t) cover1

/-! # Region 2: 200000×768 by 768×64, 2000 rows at a point -/

/-- One entry of the block product: the row of the left block against the column of the right factor. -/
theorem pay2_apply (x0 : Vec Ideal S2000x768 .f32) (x1 : Vec Ideal S768x64 .f32) (p : Fin 2000) (q : Fin 64) :
    k2_pay1 x0 x1 (ix2 p q) = ∑ k : Fin 768, x0 (ix2 p k) * x1 (ix2 k q) :=
  Cert.PlainProduct.matmul_plain_zero_apply (M := 2000) (K := 768) (N := 64) none
    (truncf .bf16 x0 bitsLt_bf16_f32) (truncf .bf16 x1 bitsLt_bf16_f32) p q

/-- The printed index maps over the grid: the left factor's and the product's blocks move down the rows with the point,
    the right factor's block never moves. -/
theorem index_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The whole product of the two argument arrays as the region finds them. -/
abbrev G2 (c : Dev nD) : Buf (Elt Ideal) ((cfg2.win 2).arr.view.loc (c.tc : Thread nD τ)) :=
  Host.dotGeneral (F := Ideal) (φ₁ := .f32) (φ₂ := .f32) Cert.ReferenceIdeal.dot_S200000x768_S768x64_S200000x64_1_0_0_1_n_n none (V c main_arg14) (V c main_arg4)

/-- What point `t` writes back is block `t` of the whole product. -/
theorem flushed2_eq (c : Dev nD) (t : Fin cfg2.N) :
    (dat2 V c).flushed 2 t = ((cfg2.win 2).blk t).view.read (Elt Ideal) (G2 V c) := by
  show (cfg2.win 2).cut (grid2.coords t) ((dat2 V c).after 2 t) = _
  rw [after2_2]
  unfold out2_2
  rw [View.canon_unit_zero origin2]
  simp only [View.ld_unit_zero (S := S2000x768) origin2, View.ld_unit_zero (S := S768x64) origin2]
  funext j
  have hj0 : (j 0).val < 2000 := (j 0).isLt
  have hj1 : (j 1).val < 64 := (j 1).isLt
  obtain ⟨e00, e01, e10, e11, e20, e21⟩ := index_facts2 t
  have ht : t.val < 100 := t.isLt
  have hi : 2000 * t.val + (j 0).val < 200000 := by omega
  have hx : (cfg2.win 2).xinj (grid2.coords t) j = ix2 (⟨(j 0).val, hj0⟩ : Fin 2000) (⟨(j 1).val, hj1⟩ : Fin 64) :=
    funext fun a => by match a with | ⟨0, _⟩ => rfl | ⟨1, _⟩ => rfl
  have hemb : ((cfg2.win 2).blk t).view.emb j = ix2 (⟨2000 * t.val + (j 0).val, hi⟩ : Fin 200000) (⟨(j 1).val, hj1⟩ : Fin 64) := by
    funext a; apply Fin.ext
    match a with
    | ⟨0, _⟩ => show win2_2.index t (0 : Fin 2) * 2000 + 1 * (j 0).val = 2000 * t.val + (j 0).val; omega
    | ⟨1, _⟩ => show win2_2.index t (1 : Fin 2) * 64 + 1 * (j 1).val = (j 1).val; omega
  refine (congrArg (k2_pay1 (iblk2 V c 0 t) (iblk2 V c 1 t)) hx).trans ?_
  refine (pay2_apply _ _ _ _).trans ?_
  refine Eq.trans ?_ (congrArg (G2 V c) hemb).symm
  refine Eq.trans ?_ (whole_200000x768x64_apply (V c main_arg14) (V c main_arg4) _ _).symm
  refine Finset.sum_congr rfl fun k _ => ?_
  have h0 : iblk2 V c 0 t (ix2 (⟨(j 0).val, hj0⟩ : Fin 2000) k) = V c main_arg14 (ix2 (⟨2000 * t.val + (j 0).val, hi⟩ : Fin 200000) k) := by
    show V c main_arg14 (((cfg2.win 0).blk t).view.emb (ix2 (⟨(j 0).val, hj0⟩ : Fin 2000) k)) = _
    refine congrArg _ (funext fun a => Fin.ext ?_)
    match a with
    | ⟨0, _⟩ => show win2_0.index t (0 : Fin 2) * 2000 + 1 * (j 0).val = 2000 * t.val + (j 0).val; omega
    | ⟨1, _⟩ => show win2_0.index t (1 : Fin 2) * 768 + 1 * k.val = k.val; omega
  have h1 : iblk2 V c 1 t (ix2 k (⟨(j 1).val, hj1⟩ : Fin 64)) = V c main_arg4 (ix2 k (⟨(j 1).val, hj1⟩ : Fin 64)) := by
    show V c main_arg4 (((cfg2.win 1).blk t).view.emb (ix2 k (⟨(j 1).val, hj1⟩ : Fin 64))) = _
    refine congrArg _ (funext fun a => Fin.ext ?_)
    match a with
    | ⟨0, _⟩ => show win2_1.index t (0 : Fin 2) * 768 + 1 * k.val = k.val; omega
    | ⟨1, _⟩ => show win2_1.index t (1 : Fin 2) * 64 + 1 * (j 1).val = (j 1).val; omega
  rw [h0, h1]

/-- An index of the product's array is in point `t`'s block iff each coordinate is in the block's range on its axis. -/
theorem mem_blk2 (t : Fin cfg2.N) (i : S200000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v228).slice (win2_2.rect t)).set ↔ _
  rw [View.set_slice_whole, Rect.mem_set_unit]
  exact Iff.rfl

/-- Row `r` of the product is written back by the point `r / 2000`. -/
theorem cover2 (i : S200000x64.Idx) : ∃ t : Fin cfg2.N, (cfg2.win 2).flush t = true ∧ i ∈ ((cfg2.win 2).blk t).view.set := by
  have hi0 : (i 0).val < 200000 := (i 0).isLt
  have hi1 : (i 1).val < 64 := (i 1).isLt
  have hN : (i 0).val / 2000 < 100 := by omega
  refine ⟨⟨(i 0).val / 2000, hN⟩, flush2_2 _, ?_⟩
  rw [mem_blk2]
  obtain ⟨-, -, -, -, e20, e21⟩ := index_facts2 ⟨(i 0).val / 2000, hN⟩
  have e20' : win2_2.index ⟨(i 0).val / 2000, hN⟩ (0 : Fin 2) = (i 0).val / 2000 := e20
  intro a
  match a with
  | ⟨0, _⟩ =>
    show win2_2.index ⟨(i 0).val / 2000, hN⟩ (0 : Fin 2) * 2000 ≤ (i 0).val ∧ (i 0).val < win2_2.index ⟨(i 0).val / 2000, hN⟩ (0 : Fin 2) * 2000 + 2000
    omega
  | ⟨1, _⟩ =>
    show win2_2.index ⟨(i 0).val / 2000, hN⟩ (1 : Fin 2) * 64 ≤ (i 1).val ∧ (i 1).val < win2_2.index ⟨(i 0).val / 2000, hN⟩ (1 : Fin 2) * 64 + 64
    omega

/-- After the whole grid the product's array is the host's one whole product of the two argument arrays. -/
theorem product2 (c : Dev nD) :
    (dat2 (F := Ideal) V c).arrAt 2 cfg2.N
      = Host.dotGeneral (F := Ideal) (φ₁ := .f32) (φ₂ := .f32) Cert.ReferenceIdeal.dot_S200000x768_S768x64_S200000x64_1_0_0_1_n_n none (V c main_arg14) (V c main_arg4) :=
  (dat2 V c).arrAt_eq_of_cover 2 (G2 V c) (fun t _ => flushed2_eq V c t) cover2

/-! # Region 3: 200000×768 by 768×64, 2000 rows at a point -/

/-- One entry of the block product: the row of the left block against the column of the right factor. -/
theorem pay3_apply (x0 : Vec Ideal S2000x768 .f32) (x1 : Vec Ideal S768x64 .f32) (p : Fin 2000) (q : Fin 64) :
    k3_pay1 x0 x1 (ix2 p q) = ∑ k : Fin 768, x0 (ix2 p k) * x1 (ix2 k q) :=
  Cert.PlainProduct.matmul_plain_zero_apply (M := 2000) (K := 768) (N := 64) none
    (truncf .bf16 x0 bitsLt_bf16_f32) (truncf .bf16 x1 bitsLt_bf16_f32) p q

/-- The printed index maps over the grid: the left factor's and the product's blocks move down the rows with the point,
    the right factor's block never moves. -/
theorem index_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The whole product of the two argument arrays as the region finds them. -/
abbrev G3 (c : Dev nD) : Buf (Elt Ideal) ((cfg3.win 2).arr.view.loc (c.tc : Thread nD τ)) :=
  Host.dotGeneral (F := Ideal) (φ₁ := .f32) (φ₂ := .f32) Cert.ReferenceIdeal.dot_S200000x768_S768x64_S200000x64_1_0_0_1_n_n none (V c main_arg15) (V c main_arg5)

/-- What point `t` writes back is block `t` of the whole product. -/
theorem flushed3_eq (c : Dev nD) (t : Fin cfg3.N) :
    (dat3 V c).flushed 2 t = ((cfg3.win 2).blk t).view.read (Elt Ideal) (G3 V c) := by
  show (cfg3.win 2).cut (grid3.coords t) ((dat3 V c).after 2 t) = _
  rw [after3_2]
  unfold out3_2
  rw [View.canon_unit_zero origin2]
  simp only [View.ld_unit_zero (S := S2000x768) origin2, View.ld_unit_zero (S := S768x64) origin2]
  funext j
  have hj0 : (j 0).val < 2000 := (j 0).isLt
  have hj1 : (j 1).val < 64 := (j 1).isLt
  obtain ⟨e00, e01, e10, e11, e20, e21⟩ := index_facts3 t
  have ht : t.val < 100 := t.isLt
  have hi : 2000 * t.val + (j 0).val < 200000 := by omega
  have hx : (cfg3.win 2).xinj (grid3.coords t) j = ix2 (⟨(j 0).val, hj0⟩ : Fin 2000) (⟨(j 1).val, hj1⟩ : Fin 64) :=
    funext fun a => by match a with | ⟨0, _⟩ => rfl | ⟨1, _⟩ => rfl
  have hemb : ((cfg3.win 2).blk t).view.emb j = ix2 (⟨2000 * t.val + (j 0).val, hi⟩ : Fin 200000) (⟨(j 1).val, hj1⟩ : Fin 64) := by
    funext a; apply Fin.ext
    match a with
    | ⟨0, _⟩ => show win3_2.index t (0 : Fin 2) * 2000 + 1 * (j 0).val = 2000 * t.val + (j 0).val; omega
    | ⟨1, _⟩ => show win3_2.index t (1 : Fin 2) * 64 + 1 * (j 1).val = (j 1).val; omega
  refine (congrArg (k3_pay1 (iblk3 V c 0 t) (iblk3 V c 1 t)) hx).trans ?_
  refine (pay3_apply _ _ _ _).trans ?_
  refine Eq.trans ?_ (congrArg (G3 V c) hemb).symm
  refine Eq.trans ?_ (whole_200000x768x64_apply (V c main_arg15) (V c main_arg5) _ _).symm
  refine Finset.sum_congr rfl fun k _ => ?_
  have h0 : iblk3 V c 0 t (ix2 (⟨(j 0).val, hj0⟩ : Fin 2000) k) = V c main_arg15 (ix2 (⟨2000 * t.val + (j 0).val, hi⟩ : Fin 200000) k) := by
    show V c main_arg15 (((cfg3.win 0).blk t).view.emb (ix2 (⟨(j 0).val, hj0⟩ : Fin 2000) k)) = _
    refine congrArg _ (funext fun a => Fin.ext ?_)
    match a with
    | ⟨0, _⟩ => show win3_0.index t (0 : Fin 2) * 2000 + 1 * (j 0).val = 2000 * t.val + (j 0).val; omega
    | ⟨1, _⟩ => show win3_0.index t (1 : Fin 2) * 768 + 1 * k.val = k.val; omega
  have h1 : iblk3 V c 1 t (ix2 k (⟨(j 1).val, hj1⟩ : Fin 64)) = V c main_arg5 (ix2 k (⟨(j 1).val, hj1⟩ : Fin 64)) := by
    show V c main_arg5 (((cfg3.win 1).blk t).view.emb (ix2 k (⟨(j 1).val, hj1⟩ : Fin 64))) = _
    refine congrArg _ (funext fun a => Fin.ext ?_)
    match a with
    | ⟨0, _⟩ => show win3_1.index t (0 : Fin 2) * 768 + 1 * k.val = k.val; omega
    | ⟨1, _⟩ => show win3_1.index t (1 : Fin 2) * 64 + 1 * (j 1).val = (j 1).val; omega
  rw [h0, h1]

/-- An index of the product's array is in point `t`'s block iff each coordinate is in the block's range on its axis. -/
theorem mem_blk3 (t : Fin cfg3.N) (i : S200000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v265).slice (win3_2.rect t)).set ↔ _
  rw [View.set_slice_whole, Rect.mem_set_unit]
  exact Iff.rfl

/-- Row `r` of the product is written back by the point `r / 2000`. -/
theorem cover3 (i : S200000x64.Idx) : ∃ t : Fin cfg3.N, (cfg3.win 2).flush t = true ∧ i ∈ ((cfg3.win 2).blk t).view.set := by
  have hi0 : (i 0).val < 200000 := (i 0).isLt
  have hi1 : (i 1).val < 64 := (i 1).isLt
  have hN : (i 0).val / 2000 < 100 := by omega
  refine ⟨⟨(i 0).val / 2000, hN⟩, flush3_2 _, ?_⟩
  rw [mem_blk3]
  obtain ⟨-, -, -, -, e20, e21⟩ := index_facts3 ⟨(i 0).val / 2000, hN⟩
  have e20' : win3_2.index ⟨(i 0).val / 2000, hN⟩ (0 : Fin 2) = (i 0).val / 2000 := e20
  intro a
  match a with
  | ⟨0, _⟩ =>
    show win3_2.index ⟨(i 0).val / 2000, hN⟩ (0 : Fin 2) * 2000 ≤ (i 0).val ∧ (i 0).val < win3_2.index ⟨(i 0).val / 2000, hN⟩ (0 : Fin 2) * 2000 + 2000
    omega
  | ⟨1, _⟩ =>
    show win3_2.index ⟨(i 0).val / 2000, hN⟩ (1 : Fin 2) * 64 ≤ (i 1).val ∧ (i 1).val < win3_2.index ⟨(i 0).val / 2000, hN⟩ (1 : Fin 2) * 64 + 64
    omega

/-- After the whole grid the product's array is the host's one whole product of the two argument arrays. -/
theorem product3 (c : Dev nD) :
    (dat3 (F := Ideal) V c).arrAt 2 cfg3.N
      = Host.dotGeneral (F := Ideal) (φ₁ := .f32) (φ₂ := .f32) Cert.ReferenceIdeal.dot_S200000x768_S768x64_S200000x64_1_0_0_1_n_n none (V c main_arg15) (V c main_arg5) :=
  (dat3 V c).arrAt_eq_of_cover 2 (G3 V c) (fun t _ => flushed3_eq V c t) cover3

end Cert.KernelIdeal.Fr

end
-- ==== Proof.KernelIdealValue.lean ====
/-
  The value the idealized kernel returns, against the reference's: every host operation of the kernel's main function is
  an operation of the reference's, on the same operands, and each region's product is the reference's whole matrix
  product of the same two arguments; so the returned array is the reference's composed term of the arguments.
-/
import proofs.«161673_j22832046146035_1_alg».proof.Proof.KernelIdealFold
import Idealize.ShloMosaic.PureOps.Ideal
import Idealize.ShloMosaic.PureOps.Ideal.Laws

import proofs.«161673_j22832046146035_1_alg».proof.Proof.KernelIdealProduct
import proofs.«161673_j22832046146035_1_alg».proof.Proof.Gen.ReferenceIdeal.Run

set_option maxRecDepth 65536

noncomputable section

namespace Cert.KernelIdeal.Fr

open Cert.KernelIdeal Cert.KernelIdeal.Gen
open Idealize.ShloMosaic Idealize.ShloMosaic.TcCoe
open Idealize.SL.Sem Idealize.ShloMosaic.StableHlo

variable (m : (ℓ : Loc nD τ sig) → Buf (Elt Ideal) ℓ) (ρ : Dev nD → PrngReg)

/-- A valuation of the reference's buffers that holds, at each argument, what the kernel's launch memory holds at its own. -/
structure Agree (c : Dev nD) (V0 : Valuation Cert.ReferenceIdeal.τ Cert.ReferenceIdeal.sig (Elt Ideal)) : Prop where
  a0 : m ((c.tc : Thread nD τ).loc main_arg0) = V0 (Proc.devRef .tc Cert.ReferenceIdeal.main_arg0)
  a1 : m ((c.tc : Thread nD τ).loc main_arg1) = V0 (Proc.devRef .tc Cert.ReferenceIdeal.main_arg1)
  a2 : m ((c.tc : Thread nD τ).loc main_arg2) = V0 (Proc.devRef .tc Cert.ReferenceIdeal.main_arg2)
  a3 : m ((c.tc : Thread nD τ).loc main_arg3) = V0 (Proc.devRef .tc Cert.ReferenceIdeal.main_arg3)
  a4 : m ((c.tc : Thread nD τ).loc main_arg4) = V0 (Proc.devRef .tc Cert.ReferenceIdeal.main_arg4)
  a5 : m ((c.tc : Thread nD τ).loc main_arg5) = V0 (Proc.devRef .tc Cert.ReferenceIdeal.main_arg5)
  a6 : m ((c.tc : Thread nD τ).loc main_arg6) = V0 (Proc.devRef .tc Cert.ReferenceIdeal.main_arg6)
  a7 : m ((c.tc : Thread nD τ).loc main_arg7) = V0 (Proc.devRef .tc Cert.ReferenceIdeal.main_arg7)
  a8 : m ((c.tc : Thread nD τ).loc main_arg8) = V0 (Proc.devRef .tc Cert.ReferenceIdeal.main_arg8)
  a9 : m ((c.tc : Thread nD τ).loc main_arg9) = V0 (Proc.devRef .tc Cert.ReferenceIdeal.main_arg9)
  a10 : m ((c.tc : Thread nD τ).loc main_arg10) = V0 (Proc.devRef .tc Cert.ReferenceIdeal.main_arg10)
  a11 : m ((c.tc : Thread nD τ).loc main_arg11) = V0 (Proc.devRef .tc Cert.ReferenceIdeal.main_arg11)
  a12 : m ((c.tc : Thread nD τ).loc main_arg12) = V0 (Proc.devRef .tc Cert.ReferenceIdeal.main_arg12)
  a13 : m ((c.tc : Thread nD τ).loc main_arg13) = V0 (Proc.devRef .tc Cert.ReferenceIdeal.main_arg13)
  a14 : m ((c.tc : Thread nD τ).loc main_arg14) = V0 (Proc.devRef .tc Cert.ReferenceIdeal.main_arg14)
  a15 : m ((c.tc : Thread nD τ).loc main_arg15) = V0 (Proc.devRef .tc Cert.ReferenceIdeal.main_arg15)
  a16 : m ((c.tc : Thread nD τ).loc main_arg16) = V0 (Proc.devRef .tc Cert.ReferenceIdeal.main_arg16)
  a17 : m ((c.tc : Thread nD τ).loc main_arg17) = V0 (Proc.devRef .tc Cert.ReferenceIdeal.main_arg17)
  a18 : m ((c.tc : Thread nD τ).loc main_arg18) = V0 (Proc.devRef .tc Cert.ReferenceIdeal.main_arg18)
  a19 : m ((c.tc : Thread nD τ).loc main_arg19) = V0 (Proc.devRef .tc Cert.ReferenceIdeal.main_arg19)
  a20 : m ((c.tc : Thread nD τ).loc main_arg20) = V0 (Proc.devRef .tc Cert.ReferenceIdeal.main_arg20)
  a21 : m ((c.tc : Thread nD τ).loc main_arg21) = V0 (Proc.devRef .tc Cert.ReferenceIdeal.main_arg21)
  a22 : m ((c.tc : Thread nD τ).loc main_arg22) = V0 (Proc.devRef .tc Cert.ReferenceIdeal.main_arg22)
  a23 : m ((c.tc : Thread nD τ).loc main_arg23) = V0 (Proc.devRef .tc Cert.ReferenceIdeal.main_arg23)
  a24 : m ((c.tc : Thread nD τ).loc main_arg24) = V0 (Proc.devRef .tc Cert.ReferenceIdeal.main_arg24)
  a25 : m ((c.tc : Thread nD τ).loc main_arg25) = V0 (Proc.devRef .tc Cert.ReferenceIdeal.main_arg25)
  a26 : m ((c.tc : Thread nD τ).loc main_arg26) = V0 (Proc.devRef .tc Cert.ReferenceIdeal.main_arg26)
  a27 : m ((c.tc : Thread nD τ).loc main_arg27) = V0 (Proc.devRef .tc Cert.ReferenceIdeal.main_arg27)
  a28 : m ((c.tc : Thread nD τ).loc main_arg28) = V0 (Proc.devRef .tc Cert.ReferenceIdeal.main_arg28)
  a29 : m ((c.tc : Thread nD τ).loc main_arg29) = V0 (Proc.devRef .tc Cert.ReferenceIdeal.main_arg29)
  a30 : m ((c.tc : Thread nD τ).loc main_arg30) = V0 (Proc.devRef .tc Cert.ReferenceIdeal.main_arg30)
  a31 : m ((c.tc : Thread nD τ).loc main_arg31) = V0 (Proc.devRef .tc Cert.ReferenceIdeal.main_arg31)
  a32 : m ((c.tc : Thread nD τ).loc main_arg32) = V0 (Proc.devRef .tc Cert.ReferenceIdeal.main_arg32)
  a33 : m ((c.tc : Thread nD τ).loc main_arg33) = V0 (Proc.devRef .tc Cert.ReferenceIdeal.main_arg33)
  a34 : m ((c.tc : Thread nD τ).loc main_arg34) = V0 (Proc.devRef .tc Cert.ReferenceIdeal.main_arg34)
  a35 : m ((c.tc : Thread nD τ).loc main_arg35) = V0 (Proc.devRef .tc Cert.ReferenceIdeal.main_arg35)
  a36 : m ((c.tc : Thread nD τ).loc main_arg36) = V0 (Proc.devRef .tc Cert.ReferenceIdeal.main_arg36)
  a37 : m ((c.tc : Thread nD τ).loc main_arg37) = V0 (Proc.devRef .tc Cert.ReferenceIdeal.main_arg37)
  a38 : m ((c.tc : Thread nD τ).loc main_arg38) = V0 (Proc.devRef .tc Cert.ReferenceIdeal.main_arg38)
  a39 : m ((c.tc : Thread nD τ).loc main_arg39) = V0 (Proc.devRef .tc Cert.ReferenceIdeal.main_arg39)
  a40 : m ((c.tc : Thread nD τ).loc main_arg40) = V0 (Proc.devRef .tc Cert.ReferenceIdeal.main_arg40)
  a41 : m ((c.tc : Thread nD τ).loc main_arg41) = V0 (Proc.devRef .tc Cert.ReferenceIdeal.main_arg41)
  a42 : m ((c.tc : Thread nD τ).loc main_arg42) = V0 (Proc.devRef .tc Cert.ReferenceIdeal.main_arg42)
  a43 : m ((c.tc : Thread nD τ).loc main_arg43) = V0 (Proc.devRef .tc Cert.ReferenceIdeal.main_arg43)
  a44 : m ((c.tc : Thread nD τ).loc main_arg44) = V0 (Proc.devRef .tc Cert.ReferenceIdeal.main_arg44)
  a45 : m ((c.tc : Thread nD τ).loc main_arg45) = V0 (Proc.devRef .tc Cert.ReferenceIdeal.main_arg45)
  a46 : m ((c.tc : Thread nD τ).loc main_arg46) = V0 (Proc.devRef .tc Cert.ReferenceIdeal.main_arg46)
  a47 : m ((c.tc : Thread nD τ).loc main_arg47) = V0 (Proc.devRef .tc Cert.ReferenceIdeal.main_arg47)
  a48 : m ((c.tc : Thread nD τ).loc main_arg48) = V0 (Proc.devRef .tc Cert.ReferenceIdeal.main_arg48)
  a49 : m ((c.tc : Thread nD τ).loc main_arg49) = V0 (Proc.devRef .tc Cert.ReferenceIdeal.main_arg49)
  a50 : m ((c.tc : Thread nD τ).loc main_arg50) = V0 (Proc.devRef .tc Cert.ReferenceIdeal.main_arg50)
  a51 : m ((c.tc : Thread nD τ).loc main_arg51) = V0 (Proc.devRef .tc Cert.ReferenceIdeal.main_arg51)
  a52 : m ((c.tc : Thread nD τ).loc main_arg52) = V0 (Proc.devRef .tc Cert.ReferenceIdeal.main_arg52)
  a53 : m ((c.tc : Thread nD τ).loc main_arg53) = V0 (Proc.devRef .tc Cert.ReferenceIdeal.main_arg53)

/-- A buffer that the first host operations do not write, and that is neither of the first two products, is at launch contents
    when the long stretch of host operations starts. -/
theorem W3_launch (c : Dev nD) (r : Ref sig .tc) (h0 : r ∉ hostOps0_W) (k0 : r ≠ main_v6) (k1 : r ≠ main_v7) :
    W3 m ρ c (no_index (Proc.devRef .tc r)) = m ((c : Thread nD τ).loc r) :=
  (W3_keep m ρ c r k1).trans <| (W2_keep m ρ c r k0).trans <| (W1_keep m ρ c r h0).trans rfl
theorem W2_launch (c : Dev nD) (r : Ref sig .tc) (h0 : r ∉ hostOps0_W) (k0 : r ≠ main_v6) :
    W2 m ρ c (no_index (Proc.devRef .tc r)) = m ((c : Thread nD τ).loc r) :=
  (W2_keep m ρ c r k0).trans <| (W1_keep m ρ c r h0).trans rfl
theorem W1_launch (c : Dev nD) (r : Ref sig .tc) (h0 : r ∉ hostOps0_W) :
    W1 m ρ c (no_index (Proc.devRef .tc r)) = m ((c : Thread nD τ).loc r) :=
  (W1_keep m ρ c r h0).trans rfl
/-- What the first host operations leave: the two halves of each node table and the two aspect projections. -/
theorem W3_early (c : Dev nD) (r : Ref sig .tc) (k0 : r ≠ main_v6) (k1 : r ≠ main_v7) :
    W3 m ρ c (Proc.devRef .tc r) = W1 m ρ c (Proc.devRef .tc r) :=
  (W3_keep m ρ c r k1).trans (W2_keep m ρ c r k0)

/-- Three user-side arrays joined along the second axis. -/
def join3u (u0 u1 u2 : FVec Ideal S100000x64 .f32) : FVec Ideal S100000x192 .f32 :=
  concatenate S100000x192 1 [⟨S100000x64, u0⟩, ⟨S100000x64, u1⟩, ⟨S100000x64, u2⟩] concatenates_S100000x64_S100000x64_S100000x64_S100000x192_d1
/-- Three item-side arrays joined along the second axis. -/
def join3i (u0 u1 u2 : FVec Ideal S50000x64 .f32) : FVec Ideal S50000x192 .f32 :=
  concatenate S50000x192 1 [⟨S50000x64, u0⟩, ⟨S50000x64, u1⟩, ⟨S50000x64, u2⟩] concatenates_S50000x64_S50000x64_S50000x64_S50000x192_d1

/-- The joining operation's result buffer holds the join of its three operand buffers. -/
theorem join3u_result (hxs) (hy) (Wv : Valuation τ sig (Elt Ideal)) :
    (StableHlo.nary (τ := τ) ![main_v215, main_v217, main_v219] main_v220 (fun u => concatenate S100000x192 1 [⟨S100000x64, u 0⟩, ⟨S100000x64, u 1⟩, ⟨S100000x64, u 2⟩] concatenates_S100000x64_S100000x64_S100000x64_S100000x192_d1) hxs hy).result Wv (no_index (Proc.devRef .tc main_v220))
      = join3u (Wv (Proc.devRef .tc main_v215)) (Wv (Proc.devRef .tc main_v217)) (Wv (Proc.devRef .tc main_v219)) := by
  rw [StableHlo.nary_result] <;> rfl
theorem join3i_result (hxs) (hy) (Wv : Valuation τ sig (Elt Ideal)) :
    (StableHlo.nary (τ := τ) ![main_v222, main_v224, main_v226] main_v227 (fun u => concatenate S50000x192 1 [⟨S50000x64, u 0⟩, ⟨S50000x64, u 1⟩, ⟨S50000x64, u 2⟩] concatenates_S50000x64_S50000x64_S50000x64_S50000x192_d1) hxs hy).result Wv (no_index (Proc.devRef .tc main_v227))
      = join3i (Wv (Proc.devRef .tc main_v222)) (Wv (Proc.devRef .tc main_v224)) (Wv (Proc.devRef .tc main_v226)) := by
  rw [StableHlo.nary_result] <;> rfl

section Early
variable (c : Dev nD)

/-- What the first host operations leave in their six result buffers, from the launch memory. -/
theorem early_v0 : W1 m ρ c (Proc.devRef .tc main_v0) = extractStridedSlice S100000x64 ![0, 0] (m ((c : Thread nD τ).loc main_arg0)) slices_S150000x64_S100000x64_0_0 := by
  dsimp only [W1, hostOps0]; after_results
theorem early_v1 : W1 m ρ c (Proc.devRef .tc main_v1) = extractStridedSlice S50000x64 ![100000, 0] (m ((c : Thread nD τ).loc main_arg0)) slices_S150000x64_S50000x64_100000_0 := by
  dsimp only [W1, hostOps0]; after_results
theorem early_v2 : W1 m ρ c (Proc.devRef .tc main_v2) = extractStridedSlice S100000x64 ![0, 0] (m ((c : Thread nD τ).loc main_arg1)) slices_S150000x64_S100000x64_0_0 := by
  dsimp only [W1, hostOps0]; after_results
theorem early_v3 : W1 m ρ c (Proc.devRef .tc main_v3) = extractStridedSlice S50000x64 ![100000, 0] (m ((c : Thread nD τ).loc main_arg1)) slices_S150000x64_S50000x64_100000_0 := by
  dsimp only [W1, hostOps0]; after_results
theorem early_v4 : W1 m ρ c (Proc.devRef .tc main_v4) = Host.dotGeneral (F := Ideal) (φ₁ := .f32) (φ₂ := .f32) dot_S500x64_S64x64_S500x64_1_0_0_1_n_n none (m ((c : Thread nD τ).loc main_arg2)) (m ((c : Thread nD τ).loc main_arg6)) := by
  dsimp only [W1, hostOps0]; after_results
theorem early_v5 : W1 m ρ c (Proc.devRef .tc main_v5) = Host.dotGeneral (F := Ideal) (φ₁ := .f32) (φ₂ := .f32) dot_S500x64_S64x64_S500x64_1_0_0_1_n_n none (m ((c : Thread nD τ).loc main_arg2)) (m ((c : Thread nD τ).loc main_arg7)) := by
  dsimp only [W1, hostOps0]; after_results

end Early

theorem W4_launch (c : Dev nD) (r : Ref sig .tc) (h0 : r ∉ hostOps0_W) (h2 : r ∉ hostOps2_W) (k0 : r ≠ main_v6) (k1 : r ≠ main_v7) :
    W4 m ρ c (no_index (Proc.devRef .tc r)) = m ((c : Thread nD τ).loc r) :=
  (W4_keep m ρ c r h2).trans (W3_launch m ρ c r h0 k0 k1)
theorem W5_launch (c : Dev nD) (r : Ref sig .tc) (h0 : r ∉ hostOps0_W) (h2 : r ∉ hostOps2_W) (k0 : r ≠ main_v6) (k1 : r ≠ main_v7) (k2 : r ≠ main_v228) :
    W5 m ρ c (no_index (Proc.devRef .tc r)) = m ((c : Thread nD τ).loc r) :=
  (W5_keep m ρ c r k2).trans (W4_launch m ρ c r h0 h2 k0 k1)
theorem W6_launch (c : Dev nD) (r : Ref sig .tc) (h0 : r ∉ hostOps0_W) (h2 : r ∉ hostOps2_W) (h3 : r ∉ hostOps3_W) (k0 : r ≠ main_v6) (k1 : r ≠ main_v7) (k2 : r ≠ main_v228) :
    W6 m ρ c (no_index (Proc.devRef .tc r)) = m ((c : Thread nD τ).loc r) :=
  (W6_keep m ρ c r h3).trans (W5_launch m ρ c r h0 h2 k0 k1 k2)
theorem W7_launch (c : Dev nD) (r : Ref sig .tc) (h0 : r ∉ hostOps0_W) (h2 : r ∉ hostOps2_W) (h3 : r ∉ hostOps3_W) (k0 : r ≠ main_v6) (k1 : r ≠ main_v7) (k2 : r ≠ main_v228) (k3 : r ≠ main_v265) :
    W7 m ρ c (no_index (Proc.devRef .tc r)) = m ((c : Thread nD τ).loc r) :=
  (W7_keep m ρ c r k3).trans (W6_launch m ρ c r h0 h2 h3 k0 k1 k2)

section Long
variable (c : Dev nD) (V0 : Valuation Cert.ReferenceIdeal.τ Cert.ReferenceIdeal.sig (Elt Ideal)) (hA : Agree m c V0)

theorem mid_v0 : W3 m ρ c (Proc.devRef .tc main_v0) = extractStridedSlice S100000x64 ![0, 0] (m ((c : Thread nD τ).loc main_arg0)) slices_S150000x64_S100000x64_0_0 :=
  (W3_early m ρ c main_v0 (by decide) (by decide)).trans (early_v0 m ρ c)
theorem mid_v1 : W3 m ρ c (Proc.devRef .tc main_v1) = extractStridedSlice S50000x64 ![100000, 0] (m ((c : Thread nD τ).loc main_arg0)) slices_S150000x64_S50000x64_100000_0 :=
  (W3_early m ρ c main_v1 (by decide) (by decide)).trans (early_v1 m ρ c)
theorem mid_v2 : W3 m ρ c (Proc.devRef .tc main_v2) = extractStridedSlice S100000x64 ![0, 0] (m ((c : Thread nD τ).loc main_arg1)) slices_S150000x64_S100000x64_0_0 :=
  (W3_early m ρ c main_v2 (by decide) (by decide)).trans (early_v2 m ρ c)
theorem mid_v3 : W3 m ρ c (Proc.devRef .tc main_v3) = extractStridedSlice S50000x64 ![100000, 0] (m ((c : Thread nD τ).loc main_arg1)) slices_S150000x64_S50000x64_100000_0 :=
  (W3_early m ρ c main_v3 (by decide) (by decide)).trans (early_v3 m ρ c)
theorem mid_v4 : W3 m ρ c (Proc.devRef .tc main_v4) = Host.dotGeneral (F := Ideal) (φ₁ := .f32) (φ₂ := .f32) dot_S500x64_S64x64_S500x64_1_0_0_1_n_n none (m ((c : Thread nD τ).loc main_arg2)) (m ((c : Thread nD τ).loc main_arg6)) :=
  (W3_early m ρ c main_v4 (by decide) (by decide)).trans (early_v4 m ρ c)
theorem mid_v5 : W3 m ρ c (Proc.devRef .tc main_v5) = Host.dotGeneral (F := Ideal) (φ₁ := .f32) (φ₂ := .f32) dot_S500x64_S64x64_S500x64_1_0_0_1_n_n none (m ((c : Thread nD τ).loc main_arg2)) (m ((c : Thread nD τ).loc main_arg7)) :=
  (W3_early m ρ c main_v5 (by decide) (by decide)).trans (early_v5 m ρ c)

/-- The first region's product, when the long stretch starts: the whole product of the two launch arrays. -/
theorem mid_v6 : W3 m ρ c (Proc.devRef .tc main_v6) = Host.dotGeneral (F := Ideal) (φ₁ := .f32) (φ₂ := .f32) Cert.ReferenceIdeal.dot_S300000x64_S64x64_S300000x64_1_0_0_1_n_n none (m ((c : Thread nD τ).loc main_arg16)) (m ((c : Thread nD τ).loc main_arg8)) := by
  rw [W3_keep m ρ c main_v6 (by decide), W2_out m ρ c, product0 (V1 m ρ) c]
  have ea : V1 m ρ c main_arg16 = m ((c : Thread nD τ).loc main_arg16) := W1_launch m ρ c main_arg16 (by decide)
  have eb : V1 m ρ c main_arg8 = m ((c : Thread nD τ).loc main_arg8) := W1_launch m ρ c main_arg8 (by decide)
  rw [ea, eb]
theorem mid_v7 : W3 m ρ c (Proc.devRef .tc main_v7) = Host.dotGeneral (F := Ideal) (φ₁ := .f32) (φ₂ := .f32) Cert.ReferenceIdeal.dot_S300000x64_S64x64_S300000x64_1_0_0_1_n_n none (m ((c : Thread nD τ).loc main_arg17)) (m ((c : Thread nD τ).loc main_arg9)) := by
  rw [W3_out m ρ c, product1 (V2 m ρ) c]
  have ea : V2 m ρ c main_arg17 = m ((c : Thread nD τ).loc main_arg17) := W2_launch m ρ c main_arg17 (by decide) (by decide)
  have eb : V2 m ρ c main_arg9 = m ((c : Thread nD τ).loc main_arg9) := W2_launch m ρ c main_arg9 (by decide) (by decide)
  rw [ea, eb]

include hA in
set_option maxHeartbeats 16000000 in
/-- The user-side join the long stretch leaves is the reference's term for it. -/
theorem v220_eq : W4 m ρ c (Proc.devRef .tc main_v220) = Cert.ReferenceIdeal.Value.res_main_v220 V0 := by
  dsimp only [W4, hostOps2]
  simp (disch := decide) only [StableHlo.after_cons, StableHlo.after_nil, StableHlo.nullary_result', StableHlo.unary_result', StableHlo.binary_result', StableHlo.ternary_result', StableHlo.quaternary_result', StableHlo.reshape_result', join3u_result, join3i_result, StableHlo.nullary_result_ne', StableHlo.unary_result_ne', StableHlo.binary_result_ne', StableHlo.ternary_result_ne', StableHlo.quaternary_result_ne', StableHlo.reshape_result_ne', StableHlo.nary_result_ne']
  simp (disch := decide) only [W3_launch]
  simp only [mid_v0 m ρ c, mid_v1 m ρ c, mid_v2 m ρ c, mid_v3 m ρ c, mid_v4 m ρ c, mid_v5 m ρ c, mid_v6 m ρ c, mid_v7 m ρ c]
  simp only [hA.a0, hA.a1, hA.a2, hA.a3, hA.a4, hA.a5, hA.a6, hA.a7, hA.a8, hA.a9, hA.a10, hA.a11, hA.a12, hA.a13, hA.a14, hA.a15, hA.a16, hA.a17, hA.a18, hA.a19, hA.a20, hA.a21, hA.a22, hA.a23, hA.a24, hA.a25, hA.a26, hA.a27, hA.a28, hA.a29, hA.a30, hA.a31, hA.a32, hA.a33, hA.a34, hA.a35, hA.a36, hA.a37, hA.a38, hA.a39, hA.a40, hA.a41, hA.a42, hA.a43, hA.a44, hA.a45, hA.a46, hA.a47, hA.a48, hA.a49, hA.a50, hA.a51, hA.a52, hA.a53]
  unfold join3u
  rfl

end Long

section Late
variable (c : Dev nD) (V0 : Valuation Cert.ReferenceIdeal.τ Cert.ReferenceIdeal.sig (Elt Ideal)) (hA : Agree m c V0)

include hA in
set_option maxHeartbeats 16000000 in
/-- The item-side join the long stretch leaves is the reference's term for it. -/
theorem v227_eq : W4 m ρ c (Proc.devRef .tc main_v227) = Cert.ReferenceIdeal.Value.res_main_v227 V0 := by
  dsimp only [W4, hostOps2]
  simp (disch := decide) only [StableHlo.after_cons, StableHlo.after_nil, StableHlo.nullary_result', StableHlo.unary_result', StableHlo.binary_result', StableHlo.ternary_result', StableHlo.quaternary_result', StableHlo.reshape_result', join3u_result, join3i_result, StableHlo.nullary_result_ne', StableHlo.unary_result_ne', StableHlo.binary_result_ne', StableHlo.ternary_result_ne', StableHlo.quaternary_result_ne', StableHlo.reshape_result_ne', StableHlo.nary_result_ne']
  simp (disch := decide) only [W3_launch]
  simp only [mid_v0 m ρ c, mid_v1 m ρ c, mid_v2 m ρ c, mid_v3 m ρ c, mid_v4 m ρ c, mid_v5 m ρ c, mid_v6 m ρ c, mid_v7 m ρ c]
  simp only [hA.a0, hA.a1, hA.a2, hA.a3, hA.a4, hA.a5, hA.a6, hA.a7, hA.a8, hA.a9, hA.a10, hA.a11, hA.a12, hA.a13, hA.a14, hA.a15, hA.a16, hA.a17, hA.a18, hA.a19, hA.a20, hA.a21, hA.a22, hA.a23, hA.a24, hA.a25, hA.a26, hA.a27, hA.a28, hA.a29, hA.a30, hA.a31, hA.a32, hA.a33, hA.a34, hA.a35, hA.a36, hA.a37, hA.a38, hA.a39, hA.a40, hA.a41, hA.a42, hA.a43, hA.a44, hA.a45, hA.a46, hA.a47, hA.a48, hA.a49, hA.a50, hA.a51, hA.a52, hA.a53]
  unfold join3i
  rfl

/-- The third region's product, as the later host operations find it. -/
theorem late_v228 : W5 m ρ c (Proc.devRef .tc main_v228) = Host.dotGeneral (F := Ideal) (φ₁ := .f32) (φ₂ := .f32) Cert.ReferenceIdeal.dot_S200000x768_S768x64_S200000x64_1_0_0_1_n_n none (m ((c : Thread nD τ).loc main_arg14)) (m ((c : Thread nD τ).loc main_arg4)) := by
  rw [W5_out m ρ c, product2 (V4 m ρ) c]
  have ea : V4 m ρ c main_arg14 = m ((c : Thread nD τ).loc main_arg14) := W4_launch m ρ c main_arg14 (by decide) (by decide) (by decide) (by decide)
  have eb : V4 m ρ c main_arg4 = m ((c : Thread nD τ).loc main_arg4) := W4_launch m ρ c main_arg4 (by decide) (by decide) (by decide) (by decide)
  rw [ea, eb]
/-- The fourth region's product, as the last host operations find it. -/
theorem late_v265 : W7 m ρ c (Proc.devRef .tc main_v265) = Host.dotGeneral (F := Ideal) (φ₁ := .f32) (φ₂ := .f32) Cert.ReferenceIdeal.dot_S200000x768_S768x64_S200000x64_1_0_0_1_n_n none (m ((c : Thread nD τ).loc main_arg15)) (m ((c : Thread nD τ).loc main_arg5)) := by
  rw [W7_out m ρ c, product3 (V6 m ρ) c]
  have ea : V6 m ρ c main_arg15 = m ((c : Thread nD τ).loc main_arg15) := W6_launch m ρ c main_arg15 (by decide) (by decide) (by decide) (by decide) (by decide) (by decide)
  have eb : V6 m ρ c main_arg5 = m ((c : Thread nD τ).loc main_arg5) := W6_launch m ρ c main_arg5 (by decide) (by decide) (by decide) (by decide) (by decide) (by decide)
  rw [ea, eb]
include hA in
theorem late_v227 : W5 m ρ c (Proc.devRef .tc main_v227) = Cert.ReferenceIdeal.Value.res_main_v227 V0 :=
  (W5_keep m ρ c main_v227 (by decide)).trans (v227_eq m ρ c V0 hA)
include hA in
theorem late_v220 : W7 m ρ c (Proc.devRef .tc main_v220) = Cert.ReferenceIdeal.Value.res_main_v220 V0 :=
  (W7_keep m ρ c main_v220 (by decide)).trans <| (W6_keep m ρ c main_v220 (by decide)).trans <|
    (W5_keep m ρ c main_v220 (by decide)).trans (v220_eq m ρ c V0 hA)

include hA in
set_option maxHeartbeats 16000000 in
/-- The returned array is the reference's composed term of the arguments. -/
theorem v302_eq : W8 m ρ c (Proc.devRef .tc main_v302) = Cert.ReferenceIdeal.Value.res_main_v302 V0 := by
  dsimp only [W8, hostOps4]
  generalize hg302 : ((fun a b => concatenate S150000x256 0 [⟨S100000x256, a⟩, ⟨S50000x256, b⟩] concatenates_S100000x256_S50000x256_S150000x256_d0) : (⟨S100000x256, .f32⟩ : BufTy).Contents (Elt Ideal) → (⟨S50000x256, .f32⟩ : BufTy).Contents (Elt Ideal) → (⟨S150000x256, .f32⟩ : BufTy).Contents (Elt Ideal)) = g302
  generalize hg273 : ((fun a b => concatenate S200000x256 1 [⟨S200000x192, a⟩, ⟨S200000x64, b⟩] concatenates_S200000x192_S200000x64_S200000x256_d1) : (⟨S200000x192, .f32⟩ : BufTy).Contents (Elt Ideal) → (⟨S200000x64, .f32⟩ : BufTy).Contents (Elt Ideal) → (⟨S200000x256, .f32⟩ : BufTy).Contents (Elt Ideal)) = g273
  simp (disch := decide) only [StableHlo.after_cons, StableHlo.after_nil, StableHlo.nullary_result', StableHlo.unary_result', StableHlo.binary_result', StableHlo.ternary_result', StableHlo.quaternary_result', StableHlo.reshape_result', join3u_result, join3i_result, StableHlo.nullary_result_ne', StableHlo.unary_result_ne', StableHlo.binary_result_ne', StableHlo.ternary_result_ne', StableHlo.quaternary_result_ne', StableHlo.reshape_result_ne', StableHlo.nary_result_ne']
  simp (disch := decide) only [W7_launch]
  rw [late_v220 m ρ c V0 hA, late_v265 m ρ c, W7_keep m ρ c main_v264 (by decide)]
  dsimp only [W6, hostOps3]
  generalize hg236 : ((fun a b => concatenate S200000x256 1 [⟨S200000x192, a⟩, ⟨S200000x64, b⟩] concatenates_S200000x192_S200000x64_S200000x256_d1) : (⟨S200000x192, .f32⟩ : BufTy).Contents (Elt Ideal) → (⟨S200000x64, .f32⟩ : BufTy).Contents (Elt Ideal) → (⟨S200000x256, .f32⟩ : BufTy).Contents (Elt Ideal)) = g236
  simp (disch := decide) only [StableHlo.after_cons, StableHlo.after_nil, StableHlo.nullary_result', StableHlo.unary_result', StableHlo.binary_result', StableHlo.ternary_result', StableHlo.quaternary_result', StableHlo.reshape_result', join3u_result, join3i_result, StableHlo.nullary_result_ne', StableHlo.unary_result_ne', StableHlo.binary_result_ne', StableHlo.ternary_result_ne', StableHlo.quaternary_result_ne', StableHlo.reshape_result_ne', StableHlo.nary_result_ne']
  simp (disch := decide) only [W5_launch]
  rw [late_v227 m ρ c V0 hA, late_v228 m ρ c]
  simp only [hA.a0, hA.a1, hA.a2, hA.a3, hA.a4, hA.a5, hA.a6, hA.a7, hA.a8, hA.a9, hA.a10, hA.a11, hA.a12, hA.a13, hA.a14, hA.a15, hA.a16, hA.a17, hA.a18, hA.a19, hA.a20, hA.a21, hA.a22, hA.a23, hA.a24, hA.a25, hA.a26, hA.a27, hA.a28, hA.a29, hA.a30, hA.a31, hA.a32, hA.a33, hA.a34, hA.a35, hA.a36, hA.a37, hA.a38, hA.a39, hA.a40, hA.a41, hA.a42, hA.a43, hA.a44, hA.a45, hA.a46, hA.a47, hA.a48, hA.a49, hA.a50, hA.a51, hA.a52, hA.a53]
  subst hg302 hg273 hg236
  rfl

end Late

/-- The returned array is the reference's composed term of the arguments, for any valuation of the reference's buffers that agrees with the launch memory on the arguments. -/
theorem returned_eq (c : Dev nD) (V0 : Valuation Cert.ReferenceIdeal.τ Cert.ReferenceIdeal.sig (Elt Ideal)) (hA : Agree m c V0) :
    W8 m ρ c (Proc.devRef .tc main_v302) = Cert.ReferenceIdeal.Value.res_main_v302 V0 :=
  v302_eq m ρ c V0 hA

end Cert.KernelIdeal.Fr

end
-- ==== Proof.lean ====
/-
  The certificate of a heterogeneous graph network's forward pass whose four large dense projections run as tiled
  matrix-product regions, against the same pass written with whole matrix products.
  Frames: the word-level kernel and its idealization each run eight segments in order (host operations and the four
  regions), every region keeping its two factors and writing its product, no host operation writing an argument; the
  reference is host operations only. The idealization rewrote nothing. At the ideal instance each region's product,
  block by block, is the whole product of the same two arguments (rounding the factors is the identity, a sum over
  the contracted axis in any order is the same sum), and every other operation of the kernel's main function is an
  operation of the reference's on the same operands: the two returned arrays are one term of the arguments.
-/
import proofs.«161673_j22832046146035_1_alg».proof.Defs
import proofs.«161673_j22832046146035_1_alg».proof.Proof.KernelRun
import proofs.«161673_j22832046146035_1_alg».proof.Proof.KernelIdealRun
import proofs.«161673_j22832046146035_1_alg».proof.Proof.KernelIdealValue
import proofs.«161673_j22832046146035_1_alg».proof.Proof.Gen.Kernel
import proofs.«161673_j22832046146035_1_alg».proof.Proof.Gen.KernelIdeal
import proofs.«161673_j22832046146035_1_alg».proof.Proof.Gen.ReferenceIdeal
import proofs.«161673_j22832046146035_1_alg».proof.Proof.Gen.ReferenceIdeal.Run
import proofs.«161673_j22832046146035_1_alg».proof.Proof.Gen.Pre_finite_inputs
import Idealize.ShloMosaic.Adequacy
import Idealize.ShloMosaic.Init

set_option maxRecDepth 65536

noncomputable section

namespace Cert.Proof

open Idealize.ShloMosaic Idealize.ShloMosaic.TcCoe Idealize.SL.Sem

/-- The word-level kernel runs to the end, faults nowhere, and leaves its arguments as launched. -/
theorem frame_k : Cert.frame_Kernel := fun m ρ _ => Cert.Kernel.Fr.frame (F := Bits) m ρ
/-- So does its idealization. -/
theorem frame_ki : Cert.frame_KernelIdeal := fun m ρ _ => Cert.KernelIdeal.Fr.frame (F := Ideal) m ρ
/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)
/-- The idealization rewrote nothing. -/
theorem preserves : Cert.preserves_Kernel_KernelIdeal := trivial

/-- From memories that agree on the arguments both programs return the reference's composed term of them. -/
theorem algebraic : Cert.algebraic_KernelIdeal_ReferenceIdeal := by
  intro m ρ m' ρ' _ hagree
  refine ⟨fun c => Cert.KernelIdeal.Fr.W8 m ρ c (Proc.devRef .tc Cert.KernelIdeal.main_v302), ?_, ?_⟩
  · exact (θ_run Cert.KernelIdeal.defs _ _).mono (fun _ h c => ⟨h c _ (Cert.KernelIdeal.Fr.mem_uc Cert.KernelIdeal.main_v302 (by decide)),
      (h c _ (Cert.KernelIdeal.Fr.mem_uc Cert.KernelIdeal.main_arg0 (by decide))).trans (Cert.KernelIdeal.Fr.W8_launch m ρ c Cert.KernelIdeal.main_arg0 (by decide) (by decide) (by decide) (by decide) (by decide) (by decide) (by decide) (by decide)),
      (h c _ (Cert.KernelIdeal.Fr.mem_uc Cert.KernelIdeal.main_arg1 (by decide))).trans (Cert.KernelIdeal.Fr.W8_launch m ρ c Cert.KernelIdeal.main_arg1 (by decide) (by decide) (by decide) (by decide) (by decide) (by decide) (by decide) (by decide)),
      (h c _ (Cert.KernelIdeal.Fr.mem_uc Cert.KernelIdeal.main_arg2 (by decide))).trans (Cert.KernelIdeal.Fr.W8_launch m ρ c Cert.KernelIdeal.main_arg2 (by decide) (by decide) (by decide) (by decide) (by decide) (by decide) (by decide) (by decide)),
      (h c _ (Cert.KernelIdeal.Fr.mem_uc Cert.KernelIdeal.main_arg3 (by decide))).trans (Cert.KernelIdeal.Fr.W8_launch m ρ c Cert.KernelIdeal.main_arg3 (by decide) (by decide) (by decide) (by decide) (by decide) (by decide) (by decide) (by decide)),
      (h c _ (Cert.KernelIdeal.Fr.mem_uc Cert.KernelIdeal.main_arg4 (by decide))).trans (Cert.KernelIdeal.Fr.W8_launch m ρ c Cert.KernelIdeal.main_arg4 (by decide) (by decide) (by decide) (by decide) (by decide) (by decide) (by decide) (by decide)),
      (h c _ (Cert.KernelIdeal.Fr.mem_uc Cert.KernelIdeal.main_arg5 (by decide))).trans (Cert.KernelIdeal.Fr.W8_launch m ρ c Cert.KernelIdeal.main_arg5 (by decide) (by decide) (by decide) (by decide) (by decide) (by decide) (by decide) (by decide)),
      (h c _ (Cert.KernelIdeal.Fr.mem_uc Cert.KernelIdeal.main_arg6 (by decide))).trans (Cert.KernelIdeal.Fr.W8_launch m ρ c Cert.KernelIdeal.main_arg6 (by decide) (by decide) (by decide) (by decide) (by decide) (by decide) (by decide) (by decide)),
      (h c _ (Cert.KernelIdeal.Fr.mem_uc Cert.KernelIdeal.main_arg7 (by decide))).trans (Cert.KernelIdeal.Fr.W8_launch m ρ c Cert.KernelIdeal.main_arg7 (by decide) (by decide) (by decide) (by decide) (by decide) (by decide) (by decide) (by decide)),
      (h c _ (Cert.KernelIdeal.Fr.mem_uc Cert.KernelIdeal.main_arg8 (by decide))).trans (Cert.KernelIdeal.Fr.W8_launch m ρ c Cert.KernelIdeal.main_arg8 (by decide) (by decide) (by decide) (by decide) (by decide) (by decide) (by decide) (by decide)),
      (h c _ (Cert.KernelIdeal.Fr.mem_uc Cert.KernelIdeal.main_arg9 (by decide))).trans (Cert.KernelIdeal.Fr.W8_launch m ρ c Cert.KernelIdeal.main_arg9 (by decide) (by decide) (by decide) (by decide) (by decide) (by decide) (by decide) (by decide)),
      (h c _ (Cert.KernelIdeal.Fr.mem_uc Cert.KernelIdeal.main_arg10 (by decide))).trans (Cert.KernelIdeal.Fr.W8_launch m ρ c Cert.KernelIdeal.main_arg10 (by decide) (by decide) (by decide) (by decide) (by decide) (by decide) (by decide) (by decide)),
      (h c _ (Cert.KernelIdeal.Fr.mem_uc Cert.KernelIdeal.main_arg11 (by decide))).trans (Cert.KernelIdeal.Fr.W8_launch m ρ c Cert.KernelIdeal.main_arg11 (by decide) (by decide) (by decide) (by decide) (by decide) (by decide) (by decide) (by decide)),
      (h c _ (Cert.KernelIdeal.Fr.mem_uc Cert.KernelIdeal.main_arg12 (by decide))).trans (Cert.KernelIdeal.Fr.W8_launch m ρ c Cert.KernelIdeal.main_arg12 (by decide) (by decide) (by decide) (by decide) (by decide) (by decide) (by decide) (by decide)),
      (h c _ (Cert.KernelIdeal.Fr.mem_uc Cert.KernelIdeal.main_arg13 (by decide))).trans (Cert.KernelIdeal.Fr.W8_launch m ρ c Cert.KernelIdeal.main_arg13 (by decide) (by decide) (by decide) (by decide) (by decide) (by decide) (by decide) (by decide)),
      (h c _ (Cert.KernelIdeal.Fr.mem_uc Cert.KernelIdeal.main_arg14 (by decide))).trans (Cert.KernelIdeal.Fr.W8_launch m ρ c Cert.KernelIdeal.main_arg14 (by decide) (by decide) (by decide) (by decide) (by decide) (by decide) (by decide) (by decide)),
      (h c _ (Cert.KernelIdeal.Fr.mem_uc Cert.KernelIdeal.main_arg15 (by decide))).trans (Cert.KernelIdeal.Fr.W8_launch m ρ c Cert.KernelIdeal.main_arg15 (by decide) (by decide) (by decide) (by decide) (by decide) (by decide) (by decide) (by decide)),
      (h c _ (Cert.KernelIdeal.Fr.mem_uc Cert.KernelIdeal.main_arg16 (by decide))).trans (Cert.KernelIdeal.Fr.W8_launch m ρ c Cert.KernelIdeal.main_arg16 (by decide) (by decide) (by decide) (by decide) (by decide) (by decide) (by decide) (by decide)),
      (h c _ (Cert.KernelIdeal.Fr.mem_uc Cert.KernelIdeal.main_arg17 (by decide))).trans (Cert.KernelIdeal.Fr.W8_launch m ρ c Cert.KernelIdeal.main_arg17 (by decide) (by decide) (by decide) (by decide) (by decide) (by decide) (by decide) (by decide)),
      (h c _ (Cert.KernelIdeal.Fr.mem_uc Cert.KernelIdeal.main_arg18 (by decide))).trans (Cert.KernelIdeal.Fr.W8_launch m ρ c Cert.KernelIdeal.main_arg18 (by decide) (by decide) (by decide) (by decide) (by decide) (by decide) (by decide) (by decide)),
      (h c _ (Cert.KernelIdeal.Fr.mem_uc Cert.KernelIdeal.main_arg19 (by decide))).trans (Cert.KernelIdeal.Fr.W8_launch m ρ c Cert.KernelIdeal.main_arg19 (by decide) (by decide) (by decide) (by decide) (by decide) (by decide) (by decide) (by decide)),
      (h c _ (Cert.KernelIdeal.Fr.mem_uc Cert.KernelIdeal.main_arg20 (by decide))).trans (Cert.KernelIdeal.Fr.W8_launch m ρ c Cert.KernelIdeal.main_arg20 (by decide) (by decide) (by decide) (by decide) (by decide) (by decide) (by decide) (by decide)),
      (h c _ (Cert.KernelIdeal.Fr.mem_uc Cert.KernelIdeal.main_arg21 (by decide))).trans (Cert.KernelIdeal.Fr.W8_launch m ρ c Cert.KernelIdeal.main_arg21 (by decide) (by decide) (by decide) (by decide) (by decide) (by decide) (by decide) (by decide)),
      (h c _ (Cert.KernelIdeal.Fr.mem_uc Cert.KernelIdeal.main_arg22 (by decide))).trans (Cert.KernelIdeal.Fr.W8_launch m ρ c Cert.KernelIdeal.main_arg22 (by decide) (by decide) (by decide) (by decide) (by decide) (by decide) (by decide) (by decide)),
      (h c _ (Cert.KernelIdeal.Fr.mem_uc Cert.KernelIdeal.main_arg23 (by decide))).trans (Cert.KernelIdeal.Fr.W8_launch m ρ c Cert.KernelIdeal.main_arg23 (by decide) (by decide) (by decide) (by decide) (by decide) (by decide) (by decide) (by decide)),
      (h c _ (Cert.KernelIdeal.Fr.mem_uc Cert.KernelIdeal.main_arg24 (by decide))).trans (Cert.KernelIdeal.Fr.W8_launch m ρ c Cert.KernelIdeal.main_arg24 (by decide) (by decide) (by decide) (by decide) (by decide) (by decide) (by decide) (by decide)),
      (h c _ (Cert.KernelIdeal.Fr.mem_uc Cert.KernelIdeal.main_arg25 (by decide))).trans (Cert.KernelIdeal.Fr.W8_launch m ρ c Cert.KernelIdeal.main_arg25 (by decide) (by decide) (by decide) (by decide) (by decide) (by decide) (by decide) (by decide)),
      (h c _ (Cert.KernelIdeal.Fr.mem_uc Cert.KernelIdeal.main_arg26 (by decide))).trans (Cert.KernelIdeal.Fr.W8_launch m ρ c Cert.KernelIdeal.main_arg26 (by decide) (by decide) (by decide) (by decide) (by decide) (by decide) (by decide) (by decide)),
      (h c _ (Cert.KernelIdeal.Fr.mem_uc Cert.KernelIdeal.main_arg27 (by decide))).trans (Cert.KernelIdeal.Fr.W8_launch m ρ c Cert.KernelIdeal.main_arg27 (by decide) (by decide) (by decide) (by decide) (by decide) (by decide) (by decide) (by decide)),
      (h c _ (Cert.KernelIdeal.Fr.mem_uc Cert.KernelIdeal.main_arg28 (by decide))).trans (Cert.KernelIdeal.Fr.W8_launch m ρ c Cert.KernelIdeal.main_arg28 (by decide) (by decide) (by decide) (by decide) (by decide) (by decide) (by decide) (by decide)),
      (h c _ (Cert.KernelIdeal.Fr.mem_uc Cert.KernelIdeal.main_arg29 (by decide))).trans (Cert.KernelIdeal.Fr.W8_launch m ρ c Cert.KernelIdeal.main_arg29 (by decide) (by decide) (by decide) (by decide) (by decide) (by decide) (by decide) (by decide)),
      (h c _ (Cert.KernelIdeal.Fr.mem_uc Cert.KernelIdeal.main_arg30 (by decide))).trans (Cert.KernelIdeal.Fr.W8_launch m ρ c Cert.KernelIdeal.main_arg30 (by decide) (by decide) (by decide) (by decide) (by decide) (by decide) (by decide) (by decide)),
      (h c _ (Cert.KernelIdeal.Fr.mem_uc Cert.KernelIdeal.main_arg31 (by decide))).trans (Cert.KernelIdeal.Fr.W8_launch m ρ c Cert.KernelIdeal.main_arg31 (by decide) (by decide) (by decide) (by decide) (by decide) (by decide) (by decide) (by decide)),
      (h c _ (Cert.KernelIdeal.Fr.mem_uc Cert.KernelIdeal.main_arg32 (by decide))).trans (Cert.KernelIdeal.Fr.W8_launch m ρ c Cert.KernelIdeal.main_arg32 (by decide) (by decide) (by decide) (by decide) (by decide) (by decide) (by decide) (by decide)),
      (h c _ (Cert.KernelIdeal.Fr.mem_uc Cert.KernelIdeal.main_arg33 (by decide))).trans (Cert.KernelIdeal.Fr.W8_launch m ρ c Cert.KernelIdeal.main_arg33 (by decide) (by decide) (by decide) (by decide) (by decide) (by decide) (by decide) (by decide)),
      (h c _ (Cert.KernelIdeal.Fr.mem_uc Cert.KernelIdeal.main_arg34 (by decide))).trans (Cert.KernelIdeal.Fr.W8_launch m ρ c Cert.KernelIdeal.main_arg34 (by decide) (by decide) (by decide) (by decide) (by decide) (by decide) (by decide) (by decide)),
      (h c _ (Cert.KernelIdeal.Fr.mem_uc Cert.KernelIdeal.main_arg35 (by decide))).trans (Cert.KernelIdeal.Fr.W8_launch m ρ c Cert.KernelIdeal.main_arg35 (by decide) (by decide) (by decide) (by decide) (by decide) (by decide) (by decide) (by decide)),
      (h c _ (Cert.KernelIdeal.Fr.mem_uc Cert.KernelIdeal.main_arg36 (by decide))).trans (Cert.KernelIdeal.Fr.W8_launch m ρ c Cert.KernelIdeal.main_arg36 (by decide) (by decide) (by decide) (by decide) (by decide) (by decide) (by decide) (by decide)),
      (h c _ (Cert.KernelIdeal.Fr.mem_uc Cert.KernelIdeal.main_arg37 (by decide))).trans (Cert.KernelIdeal.Fr.W8_launch m ρ c Cert.KernelIdeal.main_arg37 (by decide) (by decide) (by decide) (by decide) (by decide) (by decide) (by decide) (by decide)),
      (h c _ (Cert.KernelIdeal.Fr.mem_uc Cert.KernelIdeal.main_arg38 (by decide))).trans (Cert.KernelIdeal.Fr.W8_launch m ρ c Cert.KernelIdeal.main_arg38 (by decide) (by decide) (by decide) (by decide) (by decide) (by decide) (by decide) (by decide)),
      (h c _ (Cert.KernelIdeal.Fr.mem_uc Cert.KernelIdeal.main_arg39 (by decide))).trans (Cert.KernelIdeal.Fr.W8_launch m ρ c Cert.KernelIdeal.main_arg39 (by decide) (by decide) (by decide) (by decide) (by decide) (by decide) (by decide) (by decide)),
      (h c _ (Cert.KernelIdeal.Fr.mem_uc Cert.KernelIdeal.main_arg40 (by decide))).trans (Cert.KernelIdeal.Fr.W8_launch m ρ c Cert.KernelIdeal.main_arg40 (by decide) (by decide) (by decide) (by decide) (by decide) (by decide) (by decide) (by decide)),
      (h c _ (Cert.KernelIdeal.Fr.mem_uc Cert.KernelIdeal.main_arg41 (by decide))).trans (Cert.KernelIdeal.Fr.W8_launch m ρ c Cert.KernelIdeal.main_arg41 (by decide) (by decide) (by decide) (by decide) (by decide) (by decide) (by decide) (by decide)),
      (h c _ (Cert.KernelIdeal.Fr.mem_uc Cert.KernelIdeal.main_arg42 (by decide))).trans (Cert.KernelIdeal.Fr.W8_launch m ρ c Cert.KernelIdeal.main_arg42 (by decide) (by decide) (by decide) (by decide) (by decide) (by decide) (by decide) (by decide)),
      (h c _ (Cert.KernelIdeal.Fr.mem_uc Cert.KernelIdeal.main_arg43 (by decide))).trans (Cert.KernelIdeal.Fr.W8_launch m ρ c Cert.KernelIdeal.main_arg43 (by decide) (by decide) (by decide) (by decide) (by decide) (by decide) (by decide) (by decide)),
      (h c _ (Cert.KernelIdeal.Fr.mem_uc Cert.KernelIdeal.main_arg44 (by decide))).trans (Cert.KernelIdeal.Fr.W8_launch m ρ c Cert.KernelIdeal.main_arg44 (by decide) (by decide) (by decide) (by decide) (by decide) (by decide) (by decide) (by decide)),
      (h c _ (Cert.KernelIdeal.Fr.mem_uc Cert.KernelIdeal.main_arg45 (by decide))).trans (Cert.KernelIdeal.Fr.W8_launch m ρ c Cert.KernelIdeal.main_arg45 (by decide) (by decide) (by decide) (by decide) (by decide) (by decide) (by decide) (by decide)),
      (h c _ (Cert.KernelIdeal.Fr.mem_uc Cert.KernelIdeal.main_arg46 (by decide))).trans (Cert.KernelIdeal.Fr.W8_launch m ρ c Cert.KernelIdeal.main_arg46 (by decide) (by decide) (by decide) (by decide) (by decide) (by decide) (by decide) (by decide)),
      (h c _ (Cert.KernelIdeal.Fr.mem_uc Cert.KernelIdeal.main_arg47 (by decide))).trans (Cert.KernelIdeal.Fr.W8_launch m ρ c Cert.KernelIdeal.main_arg47 (by decide) (by decide) (by decide) (by decide) (by decide) (by decide) (by decide) (by decide)),
      (h c _ (Cert.KernelIdeal.Fr.mem_uc Cert.KernelIdeal.main_arg48 (by decide))).trans (Cert.KernelIdeal.Fr.W8_launch m ρ c Cert.KernelIdeal.main_arg48 (by decide) (by decide) (by decide) (by decide) (by decide) (by decide) (by decide) (by decide)),
      (h c _ (Cert.KernelIdeal.Fr.mem_uc Cert.KernelIdeal.main_arg49 (by decide))).trans (Cert.KernelIdeal.Fr.W8_launch m ρ c Cert.KernelIdeal.main_arg49 (by decide) (by decide) (by decide) (by decide) (by decide) (by decide) (by decide) (by decide)),
      (h c _ (Cert.KernelIdeal.Fr.mem_uc Cert.KernelIdeal.main_arg50 (by decide))).trans (Cert.KernelIdeal.Fr.W8_launch m ρ c Cert.KernelIdeal.main_arg50 (by decide) (by decide) (by decide) (by decide) (by decide) (by decide) (by decide) (by decide)),
      (h c _ (Cert.KernelIdeal.Fr.mem_uc Cert.KernelIdeal.main_arg51 (by decide))).trans (Cert.KernelIdeal.Fr.W8_launch m ρ c Cert.KernelIdeal.main_arg51 (by decide) (by decide) (by decide) (by decide) (by decide) (by decide) (by decide) (by decide)),
      (h c _ (Cert.KernelIdeal.Fr.mem_uc Cert.KernelIdeal.main_arg52 (by decide))).trans (Cert.KernelIdeal.Fr.W8_launch m ρ c Cert.KernelIdeal.main_arg52 (by decide) (by decide) (by decide) (by decide) (by decide) (by decide) (by decide) (by decide)),
      (h c _ (Cert.KernelIdeal.Fr.mem_uc Cert.KernelIdeal.main_arg53 (by decide))).trans (Cert.KernelIdeal.Fr.W8_launch m ρ c Cert.KernelIdeal.main_arg53 (by decide) (by decide) (by decide) (by decide) (by decide) (by decide) (by decide) (by decide))⟩)
      (Cert.KernelIdeal.Fr.run_all (F := Ideal) m ρ)
  refine (θ_run Cert.ReferenceIdeal.defs _ _).mono (fun _ h c => ⟨(h c).1.trans ?_, (h c).2⟩)
    (Cert.ReferenceIdeal.Value.run (F := Ideal) m' ρ')
  exact (Cert.KernelIdeal.Fr.returned_eq m ρ c (StableHlo.launchContents m' c)
    ⟨(hagree c).1.symm, (hagree c).2.1.symm, (hagree c).2.2.1.symm, (hagree c).2.2.2.1.symm, (hagree c).2.2.2.2.1.symm, (hagree c).2.2.2.2.2.1.symm, (hagree c).2.2.2.2.2.2.1.symm, (hagree c).2.2.2.2.2.2.2.1.symm, (hagree c).2.2.2.2.2.2.2.2.1.symm, (hagree c).2.2.2.2.2.2.2.2.2.1.symm, (hagree c).2.2.2.2.2.2.2.2.2.2.1.symm, (hagree c).2.2.2.2.2.2.2.2.2.2.2.1.symm, (hagree c).2.2.2.2.2.2.2.2.2.2.2.2.1.symm, (hagree c).2.2.2.2.2.2.2.2.2.2.2.2.2.1.symm, (hagree c).2.2.2.2.2.2.2.2.2.2.2.2.2.2.1.symm, (hagree c).2.2.2.2.2.2.2.2.2.2.2.2.2.2.2.1.symm, (hagree c).2.2.2.2.2.2.2.2.2.2.2.2.2.2.2.2.1.symm, (hagree c).2.2.2.2.2.2.2.2.2.2.2.2.2.2.2.2.2.1.symm, (hagree c).2.2.2.2.2.2.2.2.2.2.2.2.2.2.2.2.2.2.1.symm, (hagree c).2.2.2.2.2.2.2.2.2.2.2.2.2.2.2.2.2.2.2.1.symm, (hagree c).2.2.2.2.2.2.2.2.2.2.2.2.2.2.2.2.2.2.2.2.1.symm, (hagree c).2.2.2.2.2.2.2.2.2.2.2.2.2.2.2.2.2.2.2.2.2.1.symm, (hagree c).2.2.2.2.2.2.2.2.2.2.2.2.2.2.2.2.2.2.2.2.2.2.1.symm, (hagree c).2.2.2.2.2.2.2.2.2.2.2.2.2.2.2.2.2.2.2.2.2.2.2.1.symm, (hagree c).2.2.2.2.2.2.2.2.2.2.2.2.2.2.2.2.2.2.2.2.2.2.2.2.1.symm, (hagree c).2.2.2.2.2.2.2.2.2.2.2.2.2.2.2.2.2.2.2.2.2.2.2.2.2.1.symm, (hagree c).2.2.2.2.2.2.2.2.2.2.2.2.2.2.2.2.2.2.2.2.2.2.2.2.2.2.1.symm, (hagree c).2.2.2.2.2.2.2.2.2.2.2.2.2.2.2.2.2.2.2.2.2.2.2.2.2.2.2.1.symm, (hagree c).2.2.2.2.2.2.2.2.2.2.2.2.2.2.2.2.2.2.2.2.2.2.2.2.2.2.2.2.1.symm, (hagree c).2.2.2.2.2.2.2.2.2.2.2.2.2.2.2.2.2.2.2.2.2.2.2.2.2.2.2.2.2.1.symm, (hagree c).2.2.2.2.2.2.2.2.2.2.2.2.2.2.2.2.2.2.2.2.2.2.2.2.2.2.2.2.2.2.1.symm, (hagree c).2.2.2.2.2.2.2.2.2.2.2.2.2.2.2.2.2.2.2.2.2.2.2.2.2.2.2.2.2.2.2.1.symm, (hagree c).2.2.2.2.2.2.2.2.2.2.2.2.2.2.2.2.2.2.2.2.2.2.2.2.2.2.2.2.2.2.2.2.1.symm, (hagree c).2.2.2.2.2.2.2.2.2.2.2.2.2.2.2.2.2.2.2.2.2.2.2.2.2.2.2.2.2.2.2.2.2.1.symm, (hagree c).2.2.2.2.2.2.2.2.2.2.2.2.2.2.2.2.2.2.2.2.2.2.2.2.2.2.2.2.2.2.2.2.2.2.1.symm, (hagree c).2.2.2.2.2.2.2.2.2.2.2.2.2.2.2.2.2.2.2.2.2.2.2.2.2.2.2.2.2.2.2.2.2.2.2.1.symm, (hagree c).2.2.2.2.2.2.2.2.2.2.2.2.2.2.2.2.2.2.2.2.2.2.2.2.2.2.2.2.2.2.2.2.2.2.2.2.1.symm, (hagree c).2.2.2.2.2.2.2.2.2.2.2.2.2.2.2.2.2.2.2.2.2.2.2.2.2.2.2.2.2.2.2.2.2.2.2.2.2.1.symm, (hagree c).2.2.2.2.2.2.2.2.2.2.2.2.2.2.2.2.2.2.2.2.2.2.2.2.2.2.2.2.2.2.2.2.2.2.2.2.2.2.1.symm, (hagree c).2.2.2.2.2.2.2.2.2.2.2.2.2.2.2.2.2.2.2.2.2.2.2.2.2.2.2.2.2.2.2.2.2.2.2.2.2.2.2.1.symm, (hagree c).2.2.2.2.2.2.2.2.2.2.2.2.2.2.2.2.2.2.2.2.2.2.2.2.2.2.2.2.2.2.2.2.2.2.2.2.2.2.2.2.1.symm, (hagree c).2.2.2.2.2.2.2.2.2.2.2.2.2.2.2.2.2.2.2.2.2.2.2.2.2.2.2.2.2.2.2.2.2.2.2.2.2.2.2.2.2.1.symm, (hagree c).2.2.2.2.2.2.2.2.2.2.2.2.2.2.2.2.2.2.2.2.2.2.2.2.2.2.2.2.2.2.2.2.2.2.2.2.2.2.2.2.2.2.1.symm, (hagree c).2.2.2.2.2.2.2.2.2.2.2.2.2.2.2.2.2.2.2.2.2.2.2.2.2.2.2.2.2.2.2.2.2.2.2.2.2.2.2.2.2.2.2.1.symm, (hagree c).2.2.2.2.2.2.2.2.2.2.2.2.2.2.2.2.2.2.2.2.2.2.2.2.2.2.2.2.2.2.2.2.2.2.2.2.2.2.2.2.2.2.2.2.1.symm, (hagree c).2.2.2.2.2.2.2.2.2.2.2.2.2.2.2.2.2.2.2.2.2.2.2.2.2.2.2.2.2.2.2.2.2.2.2.2.2.2.2.2.2.2.2.2.2.1.symm, (hagree c).2.2.2.2.2.2.2.2.2.2.2.2.2.2.2.2.2.2.2.2.2.2.2.2.2.2.2.2.2.2.2.2.2.2.2.2.2.2.2.2.2.2.2.2.2.2.1.symm, (hagree c).2.2.2.2.2.2.2.2.2.2.2.2.2.2.2.2.2.2.2.2.2.2.2.2.2.2.2.2.2.2.2.2.2.2.2.2.2.2.2.2.2.2.2.2.2.2.2.1.symm, (hagree c).2.2.2.2.2.2.2.2.2.2.2.2.2.2.2.2.2.2.2.2.2.2.2.2.2.2.2.2.2.2.2.2.2.2.2.2.2.2.2.2.2.2.2.2.2.2.2.2.1.symm, (hagree c).2.2.2.2.2.2.2.2.2.2.2.2.2.2.2.2.2.2.2.2.2.2.2.2.2.2.2.2.2.2.2.2.2.2.2.2.2.2.2.2.2.2.2.2.2.2.2.2.2.1.symm, (hagree c).2.2.2.2.2.2.2.2.2.2.2.2.2.2.2.2.2.2.2.2.2.2.2.2.2.2.2.2.2.2.2.2.2.2.2.2.2.2.2.2.2.2.2.2.2.2.2.2.2.2.1.symm, (hagree c).2.2.2.2.2.2.2.2.2.2.2.2.2.2.2.2.2.2.2.2.2.2.2.2.2.2.2.2.2.2.2.2.2.2.2.2.2.2.2.2.2.2.2.2.2.2.2.2.2.2.2.1.symm, (hagree c).2.2.2.2.2.2.2.2.2.2.2.2.2.2.2.2.2.2.2.2.2.2.2.2.2.2.2.2.2.2.2.2.2.2.2.2.2.2.2.2.2.2.2.2.2.2.2.2.2.2.2.2.1.symm, (hagree c).2.2.2.2.2.2.2.2.2.2.2.2.2.2.2.2.2.2.2.2.2.2.2.2.2.2.2.2.2.2.2.2.2.2.2.2.2.2.2.2.2.2.2.2.2.2.2.2.2.2.2.2.2.symm⟩).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
